-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80000x128 : Shape := ⟨2, ![80000, 128]⟩
abbrev S2x2560000 : Shape := ⟨2, ![2, 2560000]⟩
abbrev S128x32 : Shape := ⟨2, ![128, 32]⟩
abbrev S32 : Shape := ⟨1, ![32]⟩
abbrev S32x64 : Shape := ⟨2, ![32, 64]⟩
abbrev S64 : Shape := ⟨1, ![64]⟩
abbrev S640000x1 : Shape := ⟨2, ![640000, 1]⟩
abbrev S1 : Shape := ⟨1, ![1]⟩
abbrev S_ : Shape := ⟨0, ![]⟩

class Facts : Prop where
  bcast_S_S80000x128 : S_.BroadcastsInDim S80000x128 (![] : Fin 0 → Fin S80000x128.rank)
  reducesTo_S80000x128_S_d0_1 : S80000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S640000x1 : S_.BroadcastsInDim S640000x1 (![] : Fin 0 → Fin S640000x1.rank)
  reducesTo_S640000x1_S_d0_1 : S640000x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S640000x1 .f32) (main_arg7 : FVec F S1 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S640000x1 .f32 := Host.absf main_arg6
  let main_cst_8 : FVec F S_ .f32 := constant S_ .f32 0x7F800000#32
  let main_v25 : FVec F S640000x1 .f32 := broadcastInDim S640000x1 ![] bcast_S_S640000x1 main_cst_8
  let main_v26 : IVec S640000x1 1 := cmpf .olt main_v24 main_v25
  let main_c_9 : IVec S_ 1 := constantI S_ 1 1#1
  let main_v27 : IVec S_ 1 := (fun x v => Host.reduce IntOp.andi x v reducesTo_S640000x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S80000x128 .f32) (main_arg1 : IVec S2x2560000 32) (main_arg2 : FVec F S128x32 .f32) (main_arg3 : FVec F S32 .f32) (main_arg4 : FVec F S32x64 .f32) (main_arg5 : FVec F S64 .f32) (main_arg6 : FVec F S640000x1 .f32) (main_arg7 : FVec F S1 .f32) : IVec S_ 1 :=
  let main_v0 : FVec F S80000x128 .f32 := Host.absf main_arg0
  let main_cst : FVec F S_ .f32 := constant S_ .f32 0x7F800000#32
  let main_v1 : FVec F S80000x128 .f32 := broadcastInDim S80000x128 ![] bcast_S_S80000x128 main_cst
  let main_v2 : IVec S80000x128 1 := cmpf .olt main_v0 main_v1
  let main_c : IVec S_ 1 := constantI S_ 1 1#1
  let main_v3 : IVec S_ 1 := (fun x v => Host.reduce IntOp.andi x v reducesTo_S80000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_v13 main_v16
-- ==== Kernel.lean ====
abbrev S80000x128 : Shape := ⟨2, ![80000, 128]⟩
abbrev S2x2560000 : Shape := ⟨2, ![2, 2560000]⟩
abbrev S128x32 : Shape := ⟨2, ![128, 32]⟩
abbrev S32 : Shape := ⟨1, ![32]⟩
abbrev S32x64 : Shape := ⟨2, ![32, 64]⟩
abbrev S64 : Shape := ⟨1, ![64]⟩
abbrev S640000x1 : Shape := ⟨2, ![640000, 1]⟩
abbrev S1 : Shape := ⟨1, ![1]⟩
abbrev S80000 : Shape := ⟨1, ![80000]⟩
abbrev S1x2560000 : Shape := ⟨2, ![1, 2560000]⟩
abbrev S2560000 : Shape := ⟨1, ![2560000]⟩
abbrev S2640000 : Shape := ⟨1, ![2640000]⟩
abbrev S_ : Shape := ⟨0, ![]⟩
abbrev S2640000x1 : Shape := ⟨2, ![2640000, 1]⟩
abbrev S80000x32 : Shape := ⟨2, ![80000, 32]⟩
abbrev S10000x128 : Shape := ⟨2, ![10000, 128]⟩
abbrev S10000x32 : Shape := ⟨2, ![10000, 32]⟩
abbrev S2640000x32 : Shape := ⟨2, ![2640000, 32]⟩
abbrev S1x32 : Shape := ⟨2, ![1, 32]⟩
abbrev S80000x64 : Shape := ⟨2, ![80000, 64]⟩
abbrev S10000x64 : Shape := ⟨2, ![10000, 64]⟩
abbrev S2640000x64 : Shape := ⟨2, ![2640000, 64]⟩
abbrev S1x64 : Shape := ⟨2, ![1, 64]⟩
abbrev S8x640000 : Shape := ⟨2, ![8, 640000]⟩
abbrev S1x1 : Shape := ⟨2, ![1, 1]⟩
abbrev S8x1 : Shape := ⟨2, ![8, 1]⟩
abbrev S8x6400 : Shape := ⟨2, ![8, 6400]⟩
abbrev S6400x1 : Shape := ⟨2, ![6400, 1]⟩

abbrev nBuf : Space → Nat
  | .hbm => 87
  | .vmem => 23
  | .smem => 0
  | _ => 0

abbrev bufTy : (tb : Table) → Fin (tcTables nBuf tb) → BufTy
  | .hbm, ⟨0, _⟩ => ⟨S80000x128, .f32⟩
  | .hbm, ⟨1, _⟩ => ⟨S2x2560000, .i32⟩
  | .hbm, ⟨2, _⟩ => ⟨S128x32, .f32⟩
  | .hbm, ⟨3, _⟩ => ⟨S32, .f32⟩
  | .hbm, ⟨4, _⟩ => ⟨S32x64, .f32⟩
  | .hbm, ⟨5, _⟩ => ⟨S64, .f32⟩
  | .hbm, ⟨6, _⟩ => ⟨S640000x1, .f32⟩
  | .hbm, ⟨7, _⟩ => ⟨S1, .f32⟩
  | .hbm, ⟨8, _⟩ => ⟨S80000, .i32⟩
  | .hbm, ⟨9, _⟩ => ⟨S1x2560000, .i32⟩
  | .hbm, ⟨10, _⟩ => ⟨S2560000, .i32⟩
  | .hbm, ⟨11, _⟩ => ⟨S2640000, .i32⟩
  | .hbm, ⟨12, _⟩ => ⟨S1x2560000, .i32⟩
  | .hbm, ⟨13, _⟩ => ⟨S2560000, .i32⟩
  | .hbm, ⟨14, _⟩ => ⟨S2640000, .i32⟩
  | .hbm, ⟨15, _⟩ => ⟨S_, .f32⟩
  | .hbm, ⟨16, _⟩ => ⟨S2640000, .f32⟩
  | .hbm, ⟨17, _⟩ => ⟨S_, .f32⟩
  | .hbm, ⟨18, _⟩ => ⟨S80000, .f32⟩
  | .hbm, ⟨19, _⟩ => ⟨S2640000x1, .i32⟩
  | .hbm, ⟨20, _⟩ => ⟨S80000, .f32⟩
  | .hbm, ⟨21, _⟩ => ⟨S_, .f32⟩
  | .hbm, ⟨22, _⟩ => ⟨S80000, .f32⟩
  | .hbm, ⟨23, _⟩ => ⟨S80000, .i1⟩
  | .hbm, ⟨24, _⟩ => ⟨S80000, .f32⟩
  | .hbm, ⟨25, _⟩ => ⟨S_, .f32⟩
  | .hbm, ⟨26, _⟩ => ⟨S_, .f32⟩
  | .hbm, ⟨27, _⟩ => ⟨S80000, .f32⟩
  | .hbm, ⟨28, _⟩ => ⟨S80000, .f32⟩
  | .hbm, ⟨29, _⟩ => ⟨S_, .i32⟩
  | .hbm, ⟨30, _⟩ => ⟨S2640000, .i32⟩
  | .hbm, ⟨31, _⟩ => ⟨S2640000, .i1⟩
  | .hbm, ⟨32, _⟩ => ⟨S_, .i32⟩
  | .hbm, ⟨33, _⟩ => ⟨S2640000, .i32⟩
  | .hbm, ⟨34, _⟩ => ⟨S2640000, .i32⟩
  | .hbm, ⟨35, _⟩ => ⟨S2640000, .i32⟩
  | .hbm, ⟨36, _⟩ => ⟨S2640000x1, .i32⟩
  | .hbm, ⟨37, _⟩ => ⟨S2640000, .f32⟩
  | .hbm, ⟨38, _⟩ => ⟨S_, .i32⟩
  | .hbm, ⟨39, _⟩ => ⟨S2640000, .i32⟩
  | .hbm, ⟨40, _⟩ => ⟨S2640000, .i1⟩
  | .hbm, ⟨41, _⟩ => ⟨S_, .i32⟩
  | .hbm, ⟨42, _⟩ => ⟨S2640000, .i32⟩
  | .hbm, ⟨43, _⟩ => ⟨S2640000, .i32⟩
  | .hbm, ⟨44, _⟩ => ⟨S2640000, .i32⟩
  | .hbm, ⟨45, _⟩ => ⟨S2640000x1, .i32⟩
  | .hbm, ⟨46, _⟩ => ⟨S2640000, .f32⟩
  | .hbm, ⟨47, _⟩ => ⟨S2640000, .f32⟩
  | .hbm, ⟨48, _⟩ => ⟨S2640000x1, .f32⟩
  | .hbm, ⟨49, _⟩ => ⟨S80000x32, .f32⟩
  | .hbm, ⟨50, _⟩ => ⟨S_, .i32⟩
  | .hbm, ⟨51, _⟩ => ⟨S2640000, .i32⟩
  | .hbm, ⟨52, _⟩ => ⟨S2640000, .i1⟩
  | .hbm, ⟨53, _⟩ => ⟨S_, .i32⟩
  | .hbm, ⟨54, _⟩ => ⟨S2640000, .i32⟩
  | .hbm, ⟨55, _⟩ => ⟨S2640000, .i32⟩
  | .hbm, ⟨56, _⟩ => ⟨S2640000, .i32⟩
  | .hbm, ⟨57, _⟩ => ⟨S2640000x1, .i32⟩
  | .hbm, ⟨58, _⟩ => ⟨S2640000x32, .f32⟩
  | .hbm, ⟨59, _⟩ => ⟨S2640000x32, .f32⟩
  | .hbm, ⟨60, _⟩ => ⟨S2640000x32, .f32⟩
  | .hbm, ⟨61, _⟩ => ⟨S_, .f32⟩
  | .hbm, ⟨62, _⟩ => ⟨S80000x32, .f32⟩
  | .hbm, ⟨63, _⟩ => ⟨S2640000x1, .i32⟩
  | .hbm, ⟨64, _⟩ => ⟨S80000x32, .f32⟩
  | .hbm, ⟨65, _⟩ => ⟨S1x32, .f32⟩
  | .hbm, ⟨66, _⟩ => ⟨S80000x64, .f32⟩
  | .hbm, ⟨67, _⟩ => ⟨S_, .i32⟩
  | .hbm, ⟨68, _⟩ => ⟨S2640000, .i32⟩
  | .hbm, ⟨69, _⟩ => ⟨S2640000, .i1⟩
  | .hbm, ⟨70, _⟩ => ⟨S_, .i32⟩
  | .hbm, ⟨71, _⟩ => ⟨S2640000, .i32⟩
  | .hbm, ⟨72, _⟩ => ⟨S2640000, .i32⟩
  | .hbm, ⟨73, _⟩ => ⟨S2640000, .i32⟩
  | .hbm, ⟨74, _⟩ => ⟨S2640000x1, .i32⟩
  | .hbm, ⟨75, _⟩ => ⟨S2640000x64, .f32⟩
  | .hbm, ⟨76, _⟩ => ⟨S2640000x64, .f32⟩
  | .hbm, ⟨77, _⟩ => ⟨S2640000x64, .f32⟩
  | .hbm, ⟨78, _⟩ => ⟨S_, .f32⟩
  | .hbm, ⟨79, _⟩ => ⟨S80000x64, .f32⟩
  | .hbm, ⟨80, _⟩ => ⟨S2640000x1, .i32⟩
  | .hbm, ⟨81, _⟩ => ⟨S80000x64, .f32⟩
  | .hbm, ⟨82, _⟩ => ⟨S1x64, .f32⟩
  | .hbm, ⟨83, _⟩ => ⟨S80000x64, .f32⟩
  | .hbm, ⟨84, _⟩ => ⟨S8x640000, .f32⟩
  | .hbm, ⟨85, _⟩ => ⟨S1x1, .f32⟩
  | .hbm, ⟨86, _⟩ => ⟨S8x1, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S32x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S8x6400, .f32⟩
  | .local _ .vmem, ⟨17, _⟩ => ⟨S8x6400, .f32⟩
  | .local _ .vmem, ⟨18, _⟩ => ⟨S6400x1, .f32⟩
  | .local _ .vmem, ⟨19, _⟩ => ⟨S6400x1, .f32⟩
  | .local _ .vmem, ⟨20, _⟩ => ⟨S1x1, .f32⟩
  | .local _ .vmem, ⟨21, _⟩ => ⟨S8x1, .f32⟩
  | .local _ .vmem, ⟨22, _⟩ => ⟨S8x1, .f32⟩
  | _, _ => ⟨S80000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg3_0 : Ref sig .tc := ⟨.vmem, 21, rfl⟩
abbrev cc3_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem3_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def k3_cond2 (i : grid3.Coords) : BitVec 1 :=
  let arg0 : BitVec 32 := BitVec.ofNat 32 (i 0).val
  let c99_i32 : BitVec 32 := 99#32
  let v14 : BitVec 1 := Scalar.cmpi .eq arg0 c99_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S8x6400 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6400x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S8x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x2560000_S1x2560000_0_0 : S2x2560000.Slices ![0, 0] S1x2560000
  shapeCasts_S1x2560000_S2560000 : S1x2560000.ShapeCasts S2560000
  concatenates_S2560000_S80000_S2640000_d0 : Shape.Concatenates [S2560000, S80000] S2640000 0
  slices_S2x2560000_S1x2560000_1_0 : S2x2560000.Slices ![1, 0] S1x2560000
  bcast_S_S2640000 : S_.BroadcastsInDim S2640000 (![] : Fin 0 → Fin S2640000.rank)
  bcast_S_S80000 : S_.BroadcastsInDim S80000 (![] : Fin 0 → Fin S80000.rank)
  bcast_S2640000_S2640000x1_0 : S2640000.BroadcastsInDim S2640000x1 (![0] : Fin 1 → Fin S2640000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S2640000x1_S2640000x32_0_1 : S2640000x1.BroadcastsInDim S2640000x32 (![0, 1] : Fin 2 → Fin S2640000x32.rank)
  bcast_S_S80000x32 : S_.BroadcastsInDim S80000x32 (![] : Fin 0 → Fin S80000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x64_S32x64_0_0 : ∀ a, (![0, 0] : Fin 2 → Nat) a + S32x64.size a ≤ S32x64.size a
  h_S32x64 : 0 < S32x64.numel
  inb_S10000x64_S10000x64_0_0 : ∀ a, (![0, 0] : Fin 2 → Nat) a + S10000x64.size a ≤ S10000x64.size a
  h_S10000x64 : 0 < S10000x64.numel
  bcast_S2640000x1_S2640000x64_0_1 : S2640000x1.BroadcastsInDim S2640000x64 (![0, 1] : Fin 2 → Fin S2640000x64.rank)
  bcast_S_S80000x64 : S_.BroadcastsInDim S80000x64 (![] : Fin 0 → Fin S80000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S80000x64_S8x640000 : S80000x64.ShapeCasts S8x640000
  shapeCasts_S1_S1x1 : S1.ShapeCasts S1x1
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x6400_S8x6400_0_0 : ∀ a, (![0, 0] : Fin 2 → Nat) a + S8x6400.size a ≤ S8x6400.size a
  h_S8x6400 : 0 < S8x6400.numel
  shapeCasts_S8x6400_S8x6400 : S8x6400.ShapeCasts S8x6400
  inb_S6400x1_S6400x1_0_0 : ∀ a, (![0, 0] : Fin 2 → Nat) a + S6400x1.size a ≤ S6400x1.size a
  h_S6400x1 : 0 < S6400x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8x1 : S1x1.Broadcasts S8x1
  scatter_S80000_S2640000x1_S2640000_n_0_0_1_wf : ScatterDims.WF S80000 S2640000x1 S2640000 [] [0] [0] 1
  gather_S80000_S2640000x1_S2640000_n_0_n_n_0_1_1_wf : GatherDims.WF S80000 S2640000x1 S2640000 [] [0] [] [0] [] 1 ![1]
  dot_S10000x128_S128x32_S10000x32_1_0_0_1_n_n_wf : DotDims.WF S10000x128 S128x32 S10000x32 [1] [0] [0] [1] [] []
  gather_S80000x32_S2640000x1_S2640000x32_1_0_n_n_0_1_132_wf : GatherDims.WF S80000x32 S2640000x1 S2640000x32 [1] [0] [] [0] [] 1 ![1, 32]
  scatter_S80000x32_S2640000x1_S2640000x32_1_0_0_1_wf : ScatterDims.WF S80000x32 S2640000x1 S2640000x32 [1] [0] [0] 1
  dot_S10000x32_S32x64_S10000x64_1_0_0_1_n_n_wf : DotDims.WF S10000x32 S32x64 S10000x64 [1] [0] [0] [1] [] []
  gather_S80000x64_S2640000x1_S2640000x64_1_0_n_n_0_1_164_wf : GatherDims.WF S80000x64 S2640000x1 S2640000x64 [1] [0] [] [0] [] 1 ![1, 64]
  scatter_S80000x64_S2640000x1_S2640000x64_1_0_0_1_wf : ScatterDims.WF S80000x64 S2640000x1 S2640000x64 [1] [0] [0] 1
  dot_S8x6400_S6400x1_S8x1_1_0_0_1_n_n_wf : DotDims.WF S8x6400 S6400x1 S8x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S80000x128.size a
  hwx0_0 : ∀ i : grid0.Coords, EltTy.bits .f32 = 32 ∨ (Rect.block (s := S80000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S80000x32.size a
  hwx0_2 : ∀ i : grid0.Coords, EltTy.bits .f32 = 32 ∨ (Rect.block (s := S80000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S80000x32.size a
  hwx1_0 : ∀ i : grid1.Coords, EltTy.bits .f32 = 32 ∨ (Rect.block (s := S80000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S80000x64.size a
  hwx1_3 : ∀ i : grid1.Coords, EltTy.bits .f32 = 32 ∨ (Rect.block (s := S80000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S80000x64.size a
  hwx2_0 : ∀ i : grid2.Coords, EltTy.bits .f32 = 32 ∨ (Rect.block (s := S80000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S80000x64.size a
  hwx2_2 : ∀ i : grid2.Coords, EltTy.bits .f32 = 32 ∨ (Rect.block (s := S80000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x6400.size a ≤ S8x640000.size a
  hwx3_0 : ∀ i : grid3.Coords, EltTy.bits .f32 = 32 ∨ (Rect.block (s := S8x640000) S8x6400.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6400x1.size a ≤ S640000x1.size a
  hwx3_1 : ∀ i : grid3.Coords, EltTy.bits .f32 = 32 ∨ (Rect.block (s := S640000x1) S6400x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S8x1.size a ≤ S8x1.size a
  hwx3_3 : ∀ i : grid3.Coords, EltTy.bits .f32 = 32 ∨ (Rect.block (s := S8x1) S8x1.size (cc3_transform_3 i) (hinb3_3 i)).WholeWords (EltTy.packing .f32)

variable [Facts₀]

def scatter_S80000_S2640000x1_S2640000_n_0_0_1 : ScatterDims S80000 S2640000x1 S2640000 where
  updateWindowDims := []
  insertedWindowDims := [0]
  scatterDimsToOperandDims := [0]
  indexVectorDim := 1
  wf := scatter_S80000_S2640000x1_S2640000_n_0_0_1_wf
def gather_S80000_S2640000x1_S2640000_n_0_n_n_0_1_1 : GatherDims S80000 S2640000x1 S2640000 where
  offsetDims := []
  collapsedSliceDims := [0]
  operandBatchingDims := []
  startIndicesBatchingDims := []
  startIndexMap := [0]
  indexVectorDim := 1
  sliceSizes := ![1]
  wf := gather_S80000_S2640000x1_S2640000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S80000x32_S2640000x1_S2640000x32_1_0_n_n_0_1_132 : GatherDims S80000x32 S2640000x1 S2640000x32 where
  offsetDims := [1]
  collapsedSliceDims := [0]
  operandBatchingDims := []
  startIndicesBatchingDims := []
  startIndexMap := [0]
  indexVectorDim := 1
  sliceSizes := ![1, 32]
  wf := gather_S80000x32_S2640000x1_S2640000x32_1_0_n_n_0_1_132_wf
def scatter_S80000x32_S2640000x1_S2640000x32_1_0_0_1 : ScatterDims S80000x32 S2640000x1 S2640000x32 where
  updateWindowDims := [1]
  insertedWindowDims := [0]
  scatterDimsToOperandDims := [0]
  indexVectorDim := 1
  wf := scatter_S80000x32_S2640000x1_S2640000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S80000x64_S2640000x1_S2640000x64_1_0_n_n_0_1_164 : GatherDims S80000x64 S2640000x1 S2640000x64 where
  offsetDims := [1]
  collapsedSliceDims := [0]
  operandBatchingDims := []
  startIndicesBatchingDims := []
  startIndexMap := [0]
  indexVectorDim := 1
  sliceSizes := ![1, 64]
  wf := gather_S80000x64_S2640000x1_S2640000x64_1_0_n_n_0_1_164_wf
def scatter_S80000x64_S2640000x1_S2640000x64_1_0_0_1 : ScatterDims S80000x64 S2640000x1 S2640000x64 where
  updateWindowDims := [1]
  insertedWindowDims := [0]
  scatterDimsToOperandDims := [0]
  indexVectorDim := 1
  wf := scatter_S80000x64_S2640000x1_S2640000x64_1_0_0_1_wf
def dot_S8x6400_S6400x1_S8x1_1_0_0_1_n_n : DotDims S8x6400 S6400x1 S8x1 where
  lhsContracting := [1]
  rhsContracting := [0]
  lhsNonContracting := [0]
  rhsNonContracting := [1]
  lhsBatch := []
  rhsBatch := []
  wf := dot_S8x6400_S6400x1_S8x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S8x6400.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S6400x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S8x1.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S80000x128 : Shape := ⟨2, ![80000, 128]⟩
abbrev S2x2560000 : Shape := ⟨2, ![2, 2560000]⟩
abbrev S128x32 : Shape := ⟨2, ![128, 32]⟩
abbrev S32 : Shape := ⟨1, ![32]⟩
abbrev S32x64 : Shape := ⟨2, ![32, 64]⟩
abbrev S64 : Shape := ⟨1, ![64]⟩
abbrev S640000x1 : Shape := ⟨2, ![640000, 1]⟩
abbrev S1 : Shape := ⟨1, ![1]⟩
abbrev S80000 : Shape := ⟨1, ![80000]⟩
abbrev S1x2560000 : Shape := ⟨2, ![1, 2560000]⟩
abbrev S2560000 : Shape := ⟨1, ![2560000]⟩
abbrev S2640000 : Shape := ⟨1, ![2640000]⟩
abbrev S_ : Shape := ⟨0, ![]⟩
abbrev S2640000x1 : Shape := ⟨2, ![2640000, 1]⟩
abbrev S80000x32 : Shape := ⟨2, ![80000, 32]⟩
abbrev S2640000x32 : Shape := ⟨2, ![2640000, 32]⟩
abbrev S1x32 : Shape := ⟨2, ![1, 32]⟩
abbrev S80000x64 : Shape := ⟨2, ![80000, 64]⟩
abbrev S2640000x64 : Shape := ⟨2, ![2640000, 64]⟩
abbrev S1x64 : Shape := ⟨2, ![1, 64]⟩
abbrev S8x640000 : Shape := ⟨2, ![8, 640000]⟩
abbrev S8x1 : Shape := ⟨2, ![8, 1]⟩
abbrev S1x1 : Shape := ⟨2, ![1, 1]⟩

abbrev nBuf : Space → Nat
  | .hbm => 98
  | .vmem => 0
  | .smem => 0
  | _ => 0

abbrev bufTy : (tb : Table) → Fin (tcTables nBuf tb) → BufTy
  | .hbm, ⟨0, _⟩ => ⟨S80000x128, .f32⟩
  | .hbm, ⟨1, _⟩ => ⟨S2x2560000, .i32⟩
  | .hbm, ⟨2, _⟩ => ⟨S128x32, .f32⟩
  | .hbm, ⟨3, _⟩ => ⟨S32, .f32⟩
  | .hbm, ⟨4, _⟩ => ⟨S32x64, .f32⟩
  | .hbm, ⟨5, _⟩ => ⟨S64, .f32⟩
  | .hbm, ⟨6, _⟩ => ⟨S640000x1, .f32⟩
  | .hbm, ⟨7, _⟩ => ⟨S1, .f32⟩
  | .hbm, ⟨8, _⟩ => ⟨S80000, .i32⟩
  | .hbm, ⟨9, _⟩ => ⟨S1x2560000, .i32⟩
  | .hbm, ⟨10, _⟩ => ⟨S2560000, .i32⟩
  | .hbm, ⟨11, _⟩ => ⟨S2640000, .i32⟩
  | .hbm, ⟨12, _⟩ => ⟨S1x2560000, .i32⟩
  | .hbm, ⟨13, _⟩ => ⟨S2560000, .i32⟩
  | .hbm, ⟨14, _⟩ => ⟨S2640000, .i32⟩
  | .hbm, ⟨15, _⟩ => ⟨S_, .f32⟩
  | .hbm, ⟨16, _⟩ => ⟨S2640000, .f32⟩
  | .hbm, ⟨17, _⟩ => ⟨S_, .f32⟩
  | .hbm, ⟨18, _⟩ => ⟨S80000, .f32⟩
  | .hbm, ⟨19, _⟩ => ⟨S2640000x1, .i32⟩
  | .hbm, ⟨20, _⟩ => ⟨S80000, .f32⟩
  | .hbm, ⟨21, _⟩ => ⟨S_, .f32⟩
  | .hbm, ⟨22, _⟩ => ⟨S80000, .f32⟩
  | .hbm, ⟨23, _⟩ => ⟨S80000, .i1⟩
  | .hbm, ⟨24, _⟩ => ⟨S80000, .f32⟩
  | .hbm, ⟨25, _⟩ => ⟨S_, .f32⟩
  | .hbm, ⟨26, _⟩ => ⟨S_, .f32⟩
  | .hbm, ⟨27, _⟩ => ⟨S80000, .f32⟩
  | .hbm, ⟨28, _⟩ => ⟨S80000, .f32⟩
  | .hbm, ⟨29, _⟩ => ⟨S_, .i32⟩
  | .hbm, ⟨30, _⟩ => ⟨S2640000, .i32⟩
  | .hbm, ⟨31, _⟩ => ⟨S2640000, .i1⟩
  | .hbm, ⟨32, _⟩ => ⟨S_, .i32⟩
  | .hbm, ⟨33, _⟩ => ⟨S2640000, .i32⟩
  | .hbm, ⟨34, _⟩ => ⟨S2640000, .i32⟩
  | .hbm, ⟨35, _⟩ => ⟨S2640000, .i32⟩
  | .hbm, ⟨36, _⟩ => ⟨S2640000x1, .i32⟩
  | .hbm, ⟨37, _⟩ => ⟨S2640000, .f32⟩
  | .hbm, ⟨38, _⟩ => ⟨S_, .i32⟩
  | .hbm, ⟨39, _⟩ => ⟨S2640000, .i32⟩
  | .hbm, ⟨40, _⟩ => ⟨S2640000, .i1⟩
  | .hbm, ⟨41, _⟩ => ⟨S_, .i32⟩
  | .hbm, ⟨42, _⟩ => ⟨S2640000, .i32⟩
  | .hbm, ⟨43, _⟩ => ⟨S2640000, .i32⟩
  | .hbm, ⟨44, _⟩ => ⟨S2640000, .i32⟩
  | .hbm, ⟨45, _⟩ => ⟨S2640000x1, .i32⟩
  | .hbm, ⟨46, _⟩ => ⟨S2640000, .f32⟩
  | .hbm, ⟨47, _⟩ => ⟨S2640000, .f32⟩
  | .hbm, ⟨48, _⟩ => ⟨S2640000x1, .f32⟩
  | .hbm, ⟨49, _⟩ => ⟨S80000x32, .f32⟩
  | .hbm, ⟨50, _⟩ => ⟨S_, .i32⟩
  | .hbm, ⟨51, _⟩ => ⟨S2640000, .i32⟩
  | .hbm, ⟨52, _⟩ => ⟨S2640000, .i1⟩
  | .hbm, ⟨53, _⟩ => ⟨S_, .i32⟩
  | .hbm, ⟨54, _⟩ => ⟨S2640000, .i32⟩
  | .hbm, ⟨55, _⟩ => ⟨S2640000, .i32⟩
  | .hbm, ⟨56, _⟩ => ⟨S2640000, .i32⟩
  | .hbm, ⟨57, _⟩ => ⟨S2640000x1, .i32⟩
  | .hbm, ⟨58, _⟩ => ⟨S2640000x32, .f32⟩
  | .hbm, ⟨59, _⟩ => ⟨S2640000x32, .f32⟩
  | .hbm, ⟨60, _⟩ => ⟨S2640000x32, .f32⟩
  | .hbm, ⟨61, _⟩ => ⟨S_, .f32⟩
  | .hbm, ⟨62, _⟩ => ⟨S80000x32, .f32⟩
  | .hbm, ⟨63, _⟩ => ⟨S2640000x1, .i32⟩
  | .hbm, ⟨64, _⟩ => ⟨S80000x32, .f32⟩
  | .hbm, ⟨65, _⟩ => ⟨S1x32, .f32⟩
  | .hbm, ⟨66, _⟩ => ⟨S80000x32, .f32⟩
  | .hbm, ⟨67, _⟩ => ⟨S80000x32, .f32⟩
  | .hbm, ⟨68, _⟩ => ⟨S_, .f32⟩
  | .hbm, ⟨69, _⟩ => ⟨S80000x32, .f32⟩
  | .hbm, ⟨70, _⟩ => ⟨S80000x32, .f32⟩
  | .hbm, ⟨71, _⟩ => ⟨S80000x64, .f32⟩
  | .hbm, ⟨72, _⟩ => ⟨S_, .i32⟩
  | .hbm, ⟨73, _⟩ => ⟨S2640000, .i32⟩
  | .hbm, ⟨74, _⟩ => ⟨S2640000, .i1⟩
  | .hbm, ⟨75, _⟩ => ⟨S_, .i32⟩
  | .hbm, ⟨76, _⟩ => ⟨S2640000, .i32⟩
  | .hbm, ⟨77, _⟩ => ⟨S2640000, .i32⟩
  | .hbm, ⟨78, _⟩ => ⟨S2640000, .i32⟩
  | .hbm, ⟨79, _⟩ => ⟨S2640000x1, .i32⟩
  | .hbm, ⟨80, _⟩ => ⟨S2640000x64, .f32⟩
  | .hbm, ⟨81, _⟩ => ⟨S2640000x64, .f32⟩
  | .hbm, ⟨82, _⟩ => ⟨S2640000x64, .f32⟩
  | .hbm, ⟨83, _⟩ => ⟨S_, .f32⟩
  | .hbm, ⟨84, _⟩ => ⟨S80000x64, .f32⟩
  | .hbm, ⟨85, _⟩ => ⟨S2640000x1, .i32⟩
  | .hbm, ⟨86, _⟩ => ⟨S80000x64, .f32⟩
  | .hbm, ⟨87, _⟩ => ⟨S1x64, .f32⟩
  | .hbm, ⟨88, _⟩ => ⟨S80000x64, .f32⟩
  | .hbm, ⟨89, _⟩ => ⟨S80000x64, .f32⟩
  | .hbm, ⟨90, _⟩ => ⟨S_, .f32⟩
  | .hbm, ⟨91, _⟩ => ⟨S80000x64, .f32⟩
  | .hbm, ⟨92, _⟩ => ⟨S80000x64, .f32⟩
  | .hbm, ⟨93, _⟩ => ⟨S8x640000, .f32⟩
  | .hbm, ⟨94, _⟩ => ⟨S8x1, .f32⟩
  | .hbm, ⟨95, _⟩ => ⟨S1x1, .f32⟩
  | .hbm, ⟨96, _⟩ => ⟨S8x1, .f32⟩
  | .hbm, ⟨97, _⟩ => ⟨S8x1, .f32⟩
  | _, _ => ⟨S80000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call2_cst : Ref sig .tc := ⟨.hbm, 90, rfl⟩
abbrev main_call2_v0 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x2560000_S1x2560000_0_0 : S2x2560000.Slices ![0, 0] S1x2560000
  shapeCasts_S1x2560000_S2560000 : S1x2560000.ShapeCasts S2560000
  concatenates_S2560000_S80000_S2640000_d0 : Shape.Concatenates [S2560000, S80000] S2640000 0
  slices_S2x2560000_S1x2560000_1_0 : S2x2560000.Slices ![1, 0] S1x2560000
  bcast_S_S2640000 : S_.BroadcastsInDim S2640000 (![] : Fin 0 → Fin S2640000.rank)
  bcast_S_S80000 : S_.BroadcastsInDim S80000 (![] : Fin 0 → Fin S80000.rank)
  bcast_S2640000_S2640000x1_0 : S2640000.BroadcastsInDim S2640000x1 (![0] : Fin 1 → Fin S2640000x1.rank)
  bcast_S2640000x1_S2640000x32_0_1 : S2640000x1.BroadcastsInDim S2640000x32 (![0, 1] : Fin 2 → Fin S2640000x32.rank)
  bcast_S_S80000x32 : S_.BroadcastsInDim S80000x32 (![] : Fin 0 → Fin S80000x32.rank)
  bcast_S32_S1x32_1 : S32.BroadcastsInDim S1x32 (![1] : Fin 1 → Fin S1x32.rank)
  bcast_S1x32_S80000x32_0_1 : S1x32.BroadcastsInDim S80000x32 (![0, 1] : Fin 2 → Fin S80000x32.rank)
  bcast_S2640000x1_S2640000x64_0_1 : S2640000x1.BroadcastsInDim S2640000x64 (![0, 1] : Fin 2 → Fin S2640000x64.rank)
  bcast_S_S80000x64 : S_.BroadcastsInDim S80000x64 (![] : Fin 0 → Fin S80000x64.rank)
  bcast_S64_S1x64_1 : S64.BroadcastsInDim S1x64 (![1] : Fin 1 → Fin S1x64.rank)
  bcast_S1x64_S80000x64_0_1 : S1x64.BroadcastsInDim S80000x64 (![0, 1] : Fin 2 → Fin S80000x64.rank)
  shapeCasts_S80000x64_S8x640000 : S80000x64.ShapeCasts S8x640000
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  scatter_S80000_S2640000x1_S2640000_n_0_0_1_wf : ScatterDims.WF S80000 S2640000x1 S2640000 [] [0] [0] 1
  gather_S80000_S2640000x1_S2640000_n_0_n_n_0_1_1_wf : GatherDims.WF S80000 S2640000x1 S2640000 [] [0] [] [0] [] 1 ![1]
  dot_S80000x128_S128x32_S80000x32_1_0_0_1_n_n_wf : DotDims.WF S80000x128 S128x32 S80000x32 [1] [0] [0] [1] [] []
  gather_S80000x32_S2640000x1_S2640000x32_1_0_n_n_0_1_132_wf : GatherDims.WF S80000x32 S2640000x1 S2640000x32 [1] [0] [] [0] [] 1 ![1, 32]
  scatter_S80000x32_S2640000x1_S2640000x32_1_0_0_1_wf : ScatterDims.WF S80000x32 S2640000x1 S2640000x32 [1] [0] [0] 1
  dot_S80000x32_S32x64_S80000x64_1_0_0_1_n_n_wf : DotDims.WF S80000x32 S32x64 S80000x64 [1] [0] [0] [1] [] []
  gather_S80000x64_S2640000x1_S2640000x64_1_0_n_n_0_1_164_wf : GatherDims.WF S80000x64 S2640000x1 S2640000x64 [1] [0] [] [0] [] 1 ![1, 64]
  scatter_S80000x64_S2640000x1_S2640000x64_1_0_0_1_wf : ScatterDims.WF S80000x64 S2640000x1 S2640000x64 [1] [0] [0] 1
  dot_S8x640000_S640000x1_S8x1_1_0_0_1_n_n_wf : DotDims.WF S8x640000 S640000x1 S8x1 [1] [0] [0] [1] [] []

variable [Facts₀]

def scatter_S80000_S2640000x1_S2640000_n_0_0_1 : ScatterDims S80000 S2640000x1 S2640000 where
  updateWindowDims := []
  insertedWindowDims := [0]
  scatterDimsToOperandDims := [0]
  indexVectorDim := 1
  wf := scatter_S80000_S2640000x1_S2640000_n_0_0_1_wf
def gather_S80000_S2640000x1_S2640000_n_0_n_n_0_1_1 : GatherDims S80000 S2640000x1 S2640000 where
  offsetDims := []
  collapsedSliceDims := [0]
  operandBatchingDims := []
  startIndicesBatchingDims := []
  startIndexMap := [0]
  indexVectorDim := 1
  sliceSizes := ![1]
  wf := gather_S80000_S2640000x1_S2640000_n_0_n_n_0_1_1_wf
def dot_S80000x128_S128x32_S80000x32_1_0_0_1_n_n : DotDims S80000x128 S128x32 S80000x32 where
  lhsContracting := [1]
  rhsContracting := [0]
  lhsNonContracting := [0]
  rhsNonContracting := [1]
  lhsBatch := []
  rhsBatch := []
  wf := dot_S80000x128_S128x32_S80000x32_1_0_0_1_n_n_wf
def gather_S80000x32_S2640000x1_S2640000x32_1_0_n_n_0_1_132 : GatherDims S80000x32 S2640000x1 S2640000x32 where
  offsetDims := [1]
  collapsedSliceDims := [0]
  operandBatchingDims := []
  startIndicesBatchingDims := []
  startIndexMap := [0]
  indexVectorDim := 1
  sliceSizes := ![1, 32]
  wf := gather_S80000x32_S2640000x1_S2640000x32_1_0_n_n_0_1_132_wf
def scatter_S80000x32_S2640000x1_S2640000x32_1_0_0_1 : ScatterDims S80000x32 S2640000x1 S2640000x32 where
  updateWindowDims := [1]
  insertedWindowDims := [0]
  scatterDimsToOperandDims := [0]
  indexVectorDim := 1
  wf := scatter_S80000x32_S2640000x1_S2640000x32_1_0_0_1_wf
def dot_S80000x32_S32x64_S80000x64_1_0_0_1_n_n : DotDims S80000x32 S32x64 S80000x64 where
  lhsContracting := [1]
  rhsContracting := [0]
  lhsNonContracting := [0]
  rhsNonContracting := [1]
  lhsBatch := []
  rhsBatch := []
  wf := dot_S80000x32_S32x64_S80000x64_1_0_0_1_n_n_wf
def gather_S80000x64_S2640000x1_S2640000x64_1_0_n_n_0_1_164 : GatherDims S80000x64 S2640000x1 S2640000x64 where
  offsetDims := [1]
  collapsedSliceDims := [0]
  operandBatchingDims := []
  startIndicesBatchingDims := []
  startIndexMap := [0]
  indexVectorDim := 1
  sliceSizes := ![1, 64]
  wf := gather_S80000x64_S2640000x1_S2640000x64_1_0_n_n_0_1_164_wf
def scatter_S80000x64_S2640000x1_S2640000x64_1_0_0_1 : ScatterDims S80000x64 S2640000x1 S2640000x64 where
  updateWindowDims := [1]
  insertedWindowDims := [0]
  scatterDimsToOperandDims := [0]
  indexVectorDim := 1
  wf := scatter_S80000x64_S2640000x1_S2640000x64_1_0_0_1_wf
def dot_S8x640000_S640000x1_S8x1_1_0_0_1_n_n : DotDims S8x640000 S640000x1 S8x1 where
  lhsContracting := [1]
  rhsContracting := [0]
  lhsNonContracting := [0]
  rhsNonContracting := [1]
  lhsBatch := []
  rhsBatch := []
  wf := dot_S8x640000_S640000x1_S8x1_1_0_0_1_n_n_wf

class Facts : Prop extends Facts₀ where

variable [Facts]
-- ==== Proof.K.Reg0.lean ====
import proofs.«104075_j8031588844234_2_alg».proof.Proof.Gen.Kernel.Launch
import proofs.«104075_j8031588844234_2_alg».proof.Proof.Gen.Kernel.Skeleton
import proofs.«104075_j8031588844234_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: `cc0__matmul_kernel` (pipeline 0), at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block index
    has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each whole buffer as one rectangle -/

abbrev r0_0 : Rect S10000x128 := Rect.unit (s := S10000x128) ![0, 0] S10000x128.size inb_S10000x128_S10000x128_0_0
abbrev r0_1 : Rect S128x32 := Rect.unit (s := S128x32) ![0, 0] S128x32.size inb_S128x32_S128x32_0_0
abbrev r0_2 : Rect S10000x32 := Rect.unit (s := S10000x32) ![0, 0] S10000x32.size inb_S10000x32_S10000x32_0_0

/-! ## What the body leaves in the output window's buffer -/

/-- Window 2's staging buffer after the body, from the input windows' blocks: its one store, a piece over the whole
    buffer whose payload is the kernel's value of the loaded inputs. -/
def out0_2 (x0 : Vec F S10000x128 .f32) (x1 : Vec F S128x32 .f32) : Vec F S10000x32 .f32 :=
  View.canon [⟨r0_2, k0_pay1 (View.ld x0 r0_0) (View.ld x1 r0_1)⟩]

/-- The store tiles the buffer, so it covers it. -/
theorem cover0_2 (p0 : Vec F S10000x32 .f32) (y : S10000x32.Idx) :
    ∃ pc ∈ ([⟨r0_2, p0⟩] : List (View.Piece (Elt F) S10000x32 .f32)), y ∈ pc.1.set :=
  View.cover_of_tiled [⟨r0_2, p0⟩] S10000x32.size (by rfl) y

/-! ## The body's triple -/

set_option maxHeartbeats 1000000 in
/-- The kernel body on whole staging memrefs, the inputs' at read contents `xW` and the output's at anything, runs to
    the continuation holding the inputs' as they were and the output's at `out0_2` of the inputs'. -/
theorem sound_kernel0 (c : Dev nD) (E : Set ℕ) (i : grid0.Coords) (arg0 : Memref sig .tc .vmem S10000x128 .f32) (harg0 : arg0.IsWhole) (arg1 : Memref sig .tc .vmem S128x32 .f32) (harg1 : arg1.IsWhole) (arg2 : Memref sig .tc .vmem S10000x32 .f32) (harg2 : arg2.IsWhole)
    (x0 : Vec F S10000x128 .f32) (x1 : Vec F S128x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«104075_j8031588844234_2_alg».proof.Proof.Gen.Kernel.Launch
import proofs.«104075_j8031588844234_2_alg».proof.Proof.Gen.Kernel.Skeleton
import proofs.«104075_j8031588844234_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: `cc1__biasrelu_matmul_kernel` (pipeline 1), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each whole buffer as one rectangle -/

abbrev r1_0 : Rect S10000x32 := Rect.unit (s := S10000x32) ![0, 0] S10000x32.size inb_S10000x32_S10000x32_0_0
abbrev r1_1 : Rect S1x32 := Rect.unit (s := S1x32) ![0, 0] S1x32.size inb_S1x32_S1x32_0_0
abbrev r1_2 : Rect S32x64 := Rect.unit (s := S32x64) ![0, 0] S32x64.size inb_S32x64_S32x64_0_0
abbrev r1_3 : Rect S10000x64 := Rect.unit (s := S10000x64) ![0, 0] S10000x64.size inb_S10000x64_S10000x64_0_0

/-! ## What the body leaves in the output window's buffer -/

/-- Window 3's staging buffer after the body, from the input windows' blocks: its one store, a piece over the whole
    buffer whose payload is the kernel's value of the loaded inputs. -/
def out1_3 (x0 : Vec F S10000x32 .f32) (x1 : Vec F S1x32 .f32) (x2 : Vec F S32x64 .f32) : Vec F S10000x64 .f32 :=
  View.canon [⟨r1_3, k1_pay1 (View.ld x0 r1_0) (View.ld x1 r1_1) (View.ld x2 r1_2)⟩]

/-- The store tiles the buffer, so it covers it. -/
theorem cover1_3 (p0 : Vec F S10000x64 .f32) (y : S10000x64.Idx) :
    ∃ pc ∈ ([⟨r1_3, p0⟩] : List (View.Piece (Elt F) S10000x64 .f32)), y ∈ pc.1.set :=
  View.cover_of_tiled [⟨r1_3, p0⟩] S10000x64.size (by rfl) y

/-! ## The body's triple -/

set_option maxHeartbeats 1000000 in
/-- The kernel body on whole staging memrefs, the inputs' at read contents `xW` and the output's at anything, runs to
    the continuation holding the inputs' as they were and the output's at `out1_3` of the inputs'. -/
theorem sound_kernel1 (c : Dev nD) (E : Set ℕ) (i : grid1.Coords) (arg0 : Memref sig .tc .vmem S10000x32 .f32) (harg0 : arg0.IsWhole) (arg1 : Memref sig .tc .vmem S1x32 .f32) (harg1 : arg1.IsWhole) (arg2 : Memref sig .tc .vmem S32x64 .f32) (harg2 : arg2.IsWhole) (arg3 : Memref sig .tc .vmem S10000x64 .f32) (harg3 : arg3.IsWhole)
    (x0 : Vec F S10000x32 .f32) (x1 : Vec F S1x32 .f32) (x2 : Vec F S32x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__biasrelu_matmul_kernel i arg0 harg0 arg1 harg1 arg2 harg2 arg3 harg3) K := by
  simp only [cc1__biasrelu_matmul_kernel_eq_skeleton]; unfold cc1__biasrelu_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point
    `t` each input's buffer at its block and the output's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«104075_j8031588844234_2_alg».proof.Proof.Gen.Kernel.Launch
import proofs.«104075_j8031588844234_2_alg».proof.Proof.Gen.Kernel.Skeleton
import proofs.«104075_j8031588844234_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: `cc2__biasrelu_kernel` (pipeline 2), at the entry contents `V` -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block index
    has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each whole buffer as one rectangle -/

abbrev r2_0 : Rect S10000x64 := Rect.unit (s := S10000x64) ![0, 0] S10000x64.size inb_S10000x64_S10000x64_0_0
abbrev r2_1 : Rect S1x64 := Rect.unit (s := S1x64) ![0, 0] S1x64.size inb_S1x64_S1x64_0_0
abbrev r2_2 : Rect S10000x64 := Rect.unit (s := S10000x64) ![0, 0] S10000x64.size inb_S10000x64_S10000x64_0_0

/-! ## What the body leaves in the output window's buffer -/

/-- Window 2's staging buffer after the body, from the input windows' blocks: its one store, a piece over the whole
    buffer whose payload is the kernel's value of the loaded inputs. -/
def out2_2 (x0 : Vec F S10000x64 .f32) (x1 : Vec F S1x64 .f32) : Vec F S10000x64 .f32 :=
  View.canon [⟨r2_2, k2_pay1 (View.ld x0 r2_0) (View.ld x1 r2_1)⟩]

/-- The store tiles the buffer, so it covers it. -/
theorem cover2_2 (p0 : Vec F S10000x64 .f32) (y : S10000x64.Idx) :
    ∃ pc ∈ ([⟨r2_2, p0⟩] : List (View.Piece (Elt F) S10000x64 .f32)), y ∈ pc.1.set :=
  View.cover_of_tiled [⟨r2_2, p0⟩] S10000x64.size (by rfl) y

/-! ## The body's triple -/

set_option maxHeartbeats 1000000 in
/-- The kernel body on whole staging memrefs, the inputs' at read contents `xW` and the output's at anything, runs to
    the continuation holding the inputs' as they were and the output's at `out2_2` of the inputs'. -/
theorem sound_kernel2 (c : Dev nD) (E : Set ℕ) (i : grid2.Coords) (arg0 : Memref sig .tc .vmem S10000x64 .f32) (harg0 : arg0.IsWhole) (arg1 : Memref sig .tc .vmem S1x64 .f32) (harg1 : arg1.IsWhole) (arg2 : Memref sig .tc .vmem S10000x64 .f32) (harg2 : arg2.IsWhole)
    (x0 : Vec F S10000x64 .f32) (x1 : Vec F S1x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__biasrelu_kernel i arg0 harg0 arg1 harg1 arg2 harg2) K := by
  simp only [cc2__biasrelu_kernel_eq_skeleton]; unfold cc2__biasrelu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point
    `t` each input's buffer at its block and the output's at `out2_2` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3a.lean ====
import proofs.«104075_j8031588844234_2_alg».proof.Proof.Gen.Kernel.Launch
import proofs.«104075_j8031588844234_2_alg».proof.Proof.Gen.Kernel.Skeleton
import proofs.«104075_j8031588844234_2_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the body of `cc3__final_matmul_kernel`, case by case

The body keeps a running sum in its scratch operand: at the first grid point it zeroes the scratch, at every
point it adds the product of the two input blocks to it, and at the last point it stores the sum plus the
bias (window 2) into the output buffer. -/

/-- The whole-buffer unit rectangles of the body's loads and stores. -/
abbrev rS : Rect S8x1 := Rect.unit (s := S8x1) ![0, 0] S8x1.size inb_S8x1_S8x1_0_0
abbrev rO : Rect S8x1 := Rect.unit (s := S8x1) ![0, 0] S8x1.size inb_S8x1_S8x1_0_0
abbrev r0 : Rect S8x6400 := Rect.unit (s := S8x6400) ![0, 0] S8x6400.size inb_S8x6400_S8x6400_0_0
abbrev r1 : Rect S6400x1 := Rect.unit (s := S6400x1) ![0, 0] S6400x1.size inb_S6400x1_S6400x1_0_0
abbrev r2 : Rect S1x1 := Rect.unit (s := S1x1) ![0, 0] S1x1.size inb_S1x1_S1x1_0_0

/-- The condition of the body's first conditional, from the grid coordinates. -/
abbrev cond3_0 (i : grid3.Coords) : Prop := (Scalar.cmpi .ne (Scalar.extui (Scalar.cmpi .eq (BitVec.ofNat 32 (i 0).val) 0#32)) 0#32) = 1#1
/-- The condition of the body's second conditional. -/
abbrev cond3_1 (i : grid3.Coords) : Prop := k3_cond2 i = 1#1

/-- The first conditional is taken at the first point only. -/
theorem hcond3_0 : ∀ t : Fin cfg3.N, cond3_0 (grid3.coords t) ↔ t.val = 0 :=
  (by decide +kernel : ∀ t : Fin grid3.N, cond3_0 (grid3.coords t) ↔ t.val = 0)
/-- The second conditional is taken at the last point only. -/
theorem hcond3_1 : ∀ t : Fin cfg3.N, cond3_1 (grid3.coords t) ↔ t.val = 99 :=
  (by decide +kernel : ∀ t : Fin grid3.N, cond3_1 (grid3.coords t) ↔ t.val = 99)

/-- The input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Off the last point the output window is idle and not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
/-- At the last point it is live. -/
theorem liveAt3_3 : ∀ t : Fin cfg3.N, cond3_1 (grid3.coords t) → cfg3.idle 3 (grid3.coords t) = false := by decide +kernel

/-! ## Whole-buffer pieces -/

/-- One store through `rS` covers the buffer. -/
theorem coverS (p : Vec F S8x1 .f32) (L : List (View.Piece (Elt F) S8x1 .f32)) (y : S8x1.Idx) :
    ∃ pc ∈ ((⟨rS, p⟩ :: L : List (View.Piece (Elt F) S8x1 .f32))), y ∈ pc.1.set := by
  obtain ⟨pc, hm, hy⟩ := View.cover_of_tiled ([⟨rS, p⟩] : List (View.Piece (Elt F) S8x1 .f32)) S8x1.size (by rfl) y
  rw [List.mem_singleton] at hm; subst hm
  exact ⟨_, List.Mem.head _, hy⟩

/-- A whole-buffer store read back through the same rectangle is its payload. -/
theorem ld_canon_whole (w : Vec F S8x1 .f32) : View.ld (View.canon [⟨rS, w⟩]) rS = w :=
  funext fun x => View.canon_cons_emb rS w [] x

/-- What the writes before a whole-buffer store left does not matter. -/
theorem canon_whole (w : Vec F S8x1 .f32) (L : List (View.Piece (Elt F) S8x1 .f32)) :
    View.canon (⟨rS, w⟩ :: L) = View.canon [⟨rS, w⟩] := by
  funext y
  obtain ⟨pc, hm, hy⟩ := coverS w [] y
  rw [List.mem_singleton] at hm; subst hm
  obtain ⟨x, rfl⟩ := rS.exists_idx_of_mem hy
  exact (View.canon_cons_emb rS w L x).trans (View.canon_cons_emb rS w [] x).symm

/-! ## What the body leaves -/

/-- The scratch after the zeroing store of the first point. -/
def accInit : Vec F S8x1 .f32 := View.canon [⟨rS, k3_pay1⟩]
/-- The scratch after a point that found it at `xs` and the input blocks at `x0`, `x1`. -/
def accStep (xs : Vec F S8x1 .f32) (x0 : Vec F S8x6400 .f32) (x1 : Vec F S6400x1 .f32) : Vec F S8x1 .f32 :=
  View.canon [⟨rS, k3_pay2 (View.ld xs rS) (View.ld x0 r0) (View.ld x1 r1)⟩]
/-- The output buffer after the last point, the scratch then at `A` and window 2's block at `x2`. -/
def outStep (A : Vec F S8x1 .f32) (x2 : Vec F S1x1 .f32) : Vec F S8x1 .f32 :=
  View.canon [⟨rO, k3_pay3 (View.ld A rS) (View.ld x2 r2)⟩]

/-! ## The body's triples, one per case of its two conditionals -/

set_option maxHeartbeats 1000000 in
/-- The first point: the scratch, at anything, is zeroed and then receives the first product. -/
theorem run3_first (c : Dev nD) (E : Set ℕ) (i : grid3.Coords)
    (arg1 : Memref sig .tc .vmem S8x6400 .f32) (harg1 : arg1.IsWhole) (arg2 : Memref sig .tc .vmem S6400x1 .f32) (harg2 : arg2.IsWhole)
    (arg3 : Memref sig .tc .vmem S1x1 .f32) (harg3 : arg3.IsWhole) (arg4 : Memref sig .tc .vmem S8x1 .f32) (harg4 : arg4.IsWhole)
    (arg5 : Memref sig .tc .vmem S8x1 .f32) (harg5 : arg5.IsWhole) (hc0 : cond3_0 i) (hc1 : ¬cond3_1 i)
    (x0 : Vec F S8x6400 .f32) (x1 : Vec F S6400x1 .f32) (K : PUnit → sProp 𝕄) :
    iprop(owns (c : Thread nD τ) arg1 fullShare x0 ∗ owns (c : Thread nD τ) arg2 fullShare x1 ∗ (∃ d, owns (c : Thread nD τ) arg5 fullShare d)
        ∗ (iprop(owns (c : Thread nD τ) arg1 fullShare x0 ∗ owns (c : Thread nD τ) arg2 fullShare x1 ∗ owns (c : Thread nD τ) arg5 fullShare (accStep accInit x0 x1)) -∗ K ⟨⟩))
      ⊢ wp frame (wpE (defs₀ (F := F)) Variants.none c none) E (cc3__final_matmul_kernel i arg1 harg1 arg2 harg2 arg3 harg3 arg4 harg4 arg5 harg5) K := by
  simp only [cc3__final_matmul_kernel_eq_skeleton]; unfold cc3__final_matmul_kernel_skel
  unfold owns
  iintro ⟨⟨%f0, %hf0, H0⟩, ⟨%f1, %hf1, H1⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  sl_unfold_run_names
  rw [View.readCov_cons_toLoadRect, View.read_writes_eq_canon _ _ _ (coverS _ _), canon_whole]
  unfold accStep accInit
  rw [ld_canon_whole]
  rfl

set_option maxHeartbeats 1000000 in
/-- A point that is neither the first nor the last: the scratch, at `xs`, receives one more product. -/
theorem run3_mid (c : Dev nD) (E : Set ℕ) (i : grid3.Coords)
    (arg1 : Memref sig .tc .vmem S8x6400 .f32) (harg1 : arg1.IsWhole) (arg2 : Memref sig .tc .vmem S6400x1 .f32) (harg2 : arg2.IsWhole)
    (arg3 : Memref sig .tc .vmem S1x1 .f32) (harg3 : arg3.IsWhole) (arg4 : Memref sig .tc .vmem S8x1 .f32) (harg4 : arg4.IsWhole)
    (arg5 : Memref sig .tc .vmem S8x1 .f32) (harg5 : arg5.IsWhole) (hc0 : ¬cond3_0 i) (hc1 : ¬cond3_1 i)
    (x0 : Vec F S8x6400 .f32) (x1 : Vec F S6400x1 .f32) (xs : Vec F S8x1 .f32) (K : PUnit → sProp 𝕄) :
    iprop(owns (c : Thread nD τ) arg1 fullShare x0 ∗ owns (c : Thread nD τ) arg2 fullShare x1 ∗ owns (c : Thread nD τ) arg5 fullShare xs
        ∗ (iprop(owns (c : Thread nD τ) arg1 fullShare x0 ∗ owns (c : Thread nD τ) arg2 fullShare x1 ∗ owns (c : Thread nD τ) arg5 fullShare (accStep xs x0 x1)) -∗ K ⟨⟩))
      ⊢ wp frame (wpE (defs₀ (F := F)) Variants.none c none) E (cc3__final_matmul_kernel i arg1 harg1 arg2 harg2 arg3 harg3 arg4 harg4 arg5 harg5) K := by
  simp only [cc3__final_matmul_kernel_eq_skeleton]; unfold cc3__final_matmul_kernel_skel
  unfold owns
  iintro ⟨⟨%f0, %hf0, H0⟩, ⟨%f1, %hf1, H1⟩, ⟨%f5, %hf5, H5⟩, Hk⟩
  subst hf0; subst hf1; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  sl_unfold_run_names
  rw [View.read_writes_eq_canon _ _ _ (coverS _ _)]
  rfl

set_option maxHeartbeats 1000000 in
/-- The last point: the scratch receives the last product, and the output buffer the sum plus window 2's block. -/
theorem run3_last (c : Dev nD) (E : Set ℕ) (i : grid3.Coords)
    (arg1 : Memref sig .tc .vmem S8x6400 .f32) (harg1 : arg1.IsWhole) (arg2 : Memref sig .tc .vmem S6400x1 .f32) (harg2 : arg2.IsWhole)
    (arg3 : Memref sig .tc .vmem S1x1 .f32) (harg3 : arg3.IsWhole) (arg4 : Memref sig .tc .vmem S8x1 .f32) (harg4 : arg4.IsWhole)
    (arg5 : Memref sig .tc .vmem S8x1 .f32) (harg5 : arg5.IsWhole) (hc0 : ¬cond3_0 i) (hc1 : cond3_1 i)
    (x0 : Vec F S8x6400 .f32) (x1 : Vec F S6400x1 .f32) (x2 : Vec F S1x1 .f32) (xs : Vec F S8x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (outStep (accStep xs x0 x1) x2) ∗ owns (c : Thread nD τ) arg5 fullShare (accStep xs x0 x1)) -∗ K ⟨⟩))
      ⊢ wp frame (wpE (defs₀ (F := F)) Variants.none c none) E (cc3__final_matmul_kernel i arg1 harg1 arg2 harg2 arg3 harg3 arg4 harg4 arg5 harg5) K := by
  simp only [cc3__final_matmul_kernel_eq_skeleton]; unfold cc3__final_matmul_kernel_skel
  unfold owns
  iintro ⟨⟨%f0, %hf0, H0⟩, ⟨%f1, %hf1, H1⟩, ⟨%f2, %hf2, H2⟩, ⟨%d4, %f4, -, H4⟩, ⟨%f5, %hf5, H5⟩, Hk⟩
  subst hf0; subst hf1; subst hf2; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    sl_unfold_run_names
    rw [View.readCov_cons_toLoadRect, View.read_writes_eq_canon _ _ _ (coverS _ _)]
    unfold outStep accStep
    rw [ld_canon_whole]
    rfl
  iexists _; isplitr
  swap; · iexact H5
  ipureintro
  sl_unfold_run_names
  rw [View.read_writes_eq_canon _ _ _ (coverS _ _)]
  rfl

end Cert.Kernel.Hand
end
-- ==== Proof.K.Reg3.lean ====
import proofs.«104075_j8031588844234_2_alg».proof.Proof.K.Reg3a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3 at the entry contents `V`: the blocks, the running sum, the proof data, the body obligation -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The running sum -/

/-- The scratch after point `n`: zeroed and one product added at the first point, one more product at each later one. -/
def acc3 (c : Dev nD) : (n : ℕ) → n < cfg3.N → Vec F S8x1 .f32
  | 0, h => accStep accInit (iblk3 V c 0 ⟨0, h⟩) (iblk3 V c 1 ⟨0, h⟩)
  | n + 1, h => accStep (acc3 c n (Nat.lt_of_succ_lt h)) (iblk3 V c 0 ⟨n + 1, h⟩) (iblk3 V c 1 ⟨n + 1, h⟩)

theorem acc3_zero (c : Dev nD) (h : 0 < cfg3.N) :
    acc3 V c 0 h = View.canon [⟨rS, k3_pay2 (View.ld (View.canon [⟨rS, k3_pay1⟩]) rS) (View.ld (iblk3 V c 0 ⟨0, h⟩) r0) (View.ld (iblk3 V c 1 ⟨0, h⟩) r1)⟩] := rfl

theorem acc3_succ (c : Dev nD) (n : ℕ) (h : n + 1 < cfg3.N) :
    acc3 V c (n + 1) h = View.canon [⟨rS, k3_pay2 (View.ld (acc3 V c n (Nat.lt_of_succ_lt h)) rS) (View.ld (iblk3 V c 0 ⟨n + 1, h⟩) r0) (View.ld (iblk3 V c 1 ⟨n + 1, h⟩) r1)⟩] := rfl

theorem acc3_first (c : Dev nD) (t : Fin cfg3.N) (hz : t.val = 0) :
    acc3 V c t.val t.isLt = accStep accInit (iblk3 V c 0 t) (iblk3 V c 1 t) := by
  obtain ⟨n, hn⟩ := t
  cases n with
  | zero => rfl
  | succ n => exact absurd hz (Nat.succ_ne_zero n)

theorem acc3_pos (c : Dev nD) (t : Fin cfg3.N) (hz : t.val ≠ 0) :
    acc3 V c t.val t.isLt = accStep (acc3 V c (t.val - 1) (Nat.lt_of_le_of_lt (Nat.sub_le _ _) t.isLt)) (iblk3 V c 0 t) (iblk3 V c 1 t) := by
  obtain ⟨n, hn⟩ := t
  cases n with
  | zero => exact absurd rfl hz
  | succ n => rfl

/-- The last point. -/
abbrev tLast3 : Fin cfg3.N := ⟨99, lt_of_lt_of_eq (by decide : (99 : ℕ) < 100) N_3.symm⟩

/-- What the last point stores into the output buffer: the sum plus window 2's block. -/
def outLast3 (c : Dev nD) : Vec F S8x1 .f32 :=
  View.canon [⟨rO, k3_pay3 (View.ld (acc3 V c 99 tLast3.isLt) rS) (View.ld (iblk3 V c 2 tLast3) r2)⟩]

theorem outLast3_at (c : Dev nD) (t : Fin cfg3.N) (hl : t.val = 99) :
    outLast3 V c = outStep (accStep (acc3 V c (t.val - 1) (Nat.lt_of_le_of_lt (Nat.sub_le _ _) t.isLt)) (iblk3 V c 0 t) (iblk3 V c 1 t)) (iblk3 V c 2 t) := by
  obtain ⟨n, hn⟩ := t
  dsimp only at hl; subst hl
  rfl

/-! ## The invariant -/

/-- The scratch operand the body carries from point to point. -/
abbrev scM3 : Memref sig .tc .vmem S8x1 .f32 := Memref.whole cc3_scratch0

/-- The rest of the region's invariant: whatever, with the scratch at some contents, makes up the class's invariant. -/
def Rest3 (c : Dev nD) : sProp 𝕄 :=
  iprop((∃ d, owns (c : Thread nD τ) scM3 fullShare d) -∗ (Pipeline.ΦA spec3 c : sProp 𝕄))

/-- The class's invariant holds the scratch at some contents. -/
theorem PhiA3_split (c : Dev nD) :
    (Pipeline.ΦA spec3 c : sProp 𝕄) ⊢ iprop((∃ d, owns (c : Thread nD τ) scM3 fullShare d) ∗ Rest3 (F := F) c) := by
  unfold Rest3 Pipeline.ΦA; rw [scopedRest3_eq]; simp only [scM3, owns_whole]
  iintro ⟨⟨H1, H2, H3, H4, H5, H6, H7, H8, H9, H10, H11, H12, H13, H14, H15, H16, HS⟩, Hg⟩
  isplitl [HS]; · iexact HS
  iintro HS
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact HS

/-- The region invariant before position `n`: the class's before the first point; afterwards the scratch at the sum
    the point before left, and the rest. -/
def Phi3 (c : Dev nD) : (n : ℕ) → n ≤ cfg3.N → sProp 𝕄
  | 0, _ => Pipeline.ΦA spec3 c
  | n + 1, hn => iprop(owns (c : Thread nD τ) scM3 fullShare (acc3 V c n hn) ∗ Rest3 c)

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(owns (c : Thread nD τ) scM3 fullShare (acc3 V c n hn) ∗ Rest3 c) := rfl

theorem Phi3_pos (c : Dev nD) (n : ℕ) (h : n ≤ cfg3.N) (hz : n ≠ 0) :
    Phi3 V c n h = iprop(owns (c : Thread nD τ) scM3 fullShare (acc3 V c (n - 1) (by omega)) ∗ Rest3 c) := by
  cases n with
  | zero => exact absurd rfl hz
  | succ n => rfl

/-! ## The proof data -/

/-- The proof data of pipeline 3 on core `c`: the arrays as the region finds them; after the body each input's buffer
    at its block and the output's at what the last point stores; the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outLast3 V c
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outLast3 V c := by dsimp only [dat3]
theorem after3_3_last (c : Dev nD) : (dat3 V c).after 3 tLast3 = outLast3 V c := after3_3 V c tLast3

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' buffers hold their blocks; the closed forms of the two conditions say which
    case the point is in; the invariant hands the body the scratch (at anything at the first point, at the sum so far
    afterwards) and takes it back at the new sum; off the last point the output buffer is handed back untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Phi3 V c (t.val + 1) t.isLt from rfl, Phi3_succ]
  have hN : t.val < 100 := lt_of_lt_of_eq t.isLt (show cfg3.N = 100 from N_3)
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  by_cases hz : t.val = 0
  · have hc0 : cond3_0 (grid3.coords t) := (hcond3_0 t).mpr hz
    have hc1 : ¬cond3_1 (grid3.coords t) := fun h => by have := (hcond3_1 t).mp h; omega
    rw [Dat.leavesExact_idle (dat3 V c) 3 t (idleAt3_3 t hc1) (noFlush3_3 t hc1)]
    rw [acc3_first V c t hz]
    rw [Phi3_castSucc V c t, Phi3_zero V c _ _ hz]
    iintro ⟨HP, Ho, ⟨%d0, H0⟩, ⟨%d1, H1⟩, ⟨%d2, H2⟩, ⟨%d3, H3⟩⟩
    ihave ⟨HS, HR⟩ := (PhiA3_split c) $$ HP
    iapply (run3_first c Set.univ (grid3.coords t) _ _ _ _ _ _ _ _ _ _ hc0 hc1 (iblk3 V c 0 t) (iblk3 V c 1 t) _)
    isplitl [H0]; · iexact H0
    isplitl [H1]; · iexact H1
    isplitl [HS]; · iexact HS
    iintro ⟨H0, H1, HS⟩
    isplitl [HS HR]
    · isplitl [HS]; · iexact HS
      iexact HR
    isplitl [Ho]; · iexact Ho
    isplitl [H0]; · iexact H0
    isplitl [H1]; · iexact H1
    isplitl [H2]; · iexact H2
    iexists _; iexact H3
  · have hc0 : ¬cond3_0 (grid3.coords t) := fun h => hz ((hcond3_0 t).mp h)
    by_cases hl : t.val = 99
    · have hc1 : cond3_1 (grid3.coords t) := (hcond3_1 t).mpr hl
      rw [show (dat3 V c).leavesExact 3 t = owns (c : Thread nD τ) (st3_3 t) fullShare ((dat3 V c).after 3 t) from by
        unfold Dat.leavesExact; rw [liveAt3_3 t hc1], after3_3, outLast3_at V c t hl]
      rw [acc3_pos V c t hz]
      rw [Phi3_castSucc V c t, Phi3_pos V c _ _ hz]
      iintro ⟨⟨HS, HR⟩, Ho, ⟨%d0, H0⟩, ⟨%d1, H1⟩, ⟨%d2, H2⟩, ⟨%d3, H3⟩⟩
      iapply (run3_last c Set.univ (grid3.coords t) _ _ _ _ _ _ _ _ _ _ hc0 hc1 (iblk3 V c 0 t) (iblk3 V c 1 t) (iblk3 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexact H3
    · have hc1 : ¬cond3_1 (grid3.coords t) := fun h => hl ((hcond3_1 t).mp h)
      rw [Dat.leavesExact_idle (dat3 V c) 3 t (idleAt3_3 t hc1) (noFlush3_3 t hc1)]
      rw [acc3_pos V c t hz]
      rw [Phi3_castSucc V c t, Phi3_pos V c _ _ hz]
      iintro ⟨⟨HS, HR⟩, Ho, ⟨%d0, H0⟩, ⟨%d1, H1⟩, ⟨%d2, H2⟩, ⟨%d3, H3⟩⟩
      iapply (run3_mid c Set.univ (grid3.coords t) _ _ _ _ _ _ _ _ _ _ hc0 hc1 (iblk3 V c 0 t) (iblk3 V c 1 t) _ _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = Phi3 V c 0 (Nat.zero_le _) from rfl, Phi3_zero V c 0 _ rfl]
  try exact Idealize.SL.BI.Entails.refl _

/-- After any point but the first the invariant gives the class's back: the sum in the scratch is forgotten. -/
theorem Phi_out3 (c : Dev nD) (t : Fin (cfg3.N + 1)) (ht : t.val ≠ 0) : (dat3 V c).Φ t ⊢ Pipeline.ΦA spec3 c := by
  rw [show (dat3 V c).Φ t = Phi3 V c t.val (Nat.le_of_lt_succ t.isLt) from rfl, Phi3_pos V c _ _ ht]
  unfold Rest3
  iintro ⟨HS, HR⟩
  iapply HR
  iexists _; iexact HS

/-- The same after the last point. -/
theorem hout3 (c : Dev nD) : (dat3 V c).Φ (Fin.last cfg3.N) ⊢ Pipeline.ΦA spec3 c :=
  Phi_out3 V c _ (by rw [Fin.val_last]; have : cfg3.N = 100 := N_3; omega)

end Cert.Kernel.Hand
end
-- ==== Proof.K.Run.lean ====
import proofs.«104075_j8031588844234_2_alg».proof.Proof.K.Reg0
import proofs.«104075_j8031588844234_2_alg».proof.Proof.K.Reg1
import proofs.«104075_j8031588844234_2_alg».proof.Proof.K.Reg2
import proofs.«104075_j8031588844234_2_alg».proof.Proof.K.Reg3
import proofs.«104075_j8031588844234_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-
  The run of the whole program: its four kernel regions among the stretches of host operations, from the launch
  memory to the return. The contents of every unscoped buffer at each boundary are a fold from the launch memory: a
  host stretch applies its operations, a region leaves its output array at what its write-backs give and every other
  buffer as entered. The run ends with every unscoped buffer at the last stage of that fold; the frame (each argument
  ends as launched) and the result's contents are both read off it.
-/
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the first three host stretches (region 0's entry). -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b

/-- At region 0's exit: its arrays at what the pipeline leaves (an input as entered, the output's write-backs folded),
    every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- After the host stretch between regions 0 and 1. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b

/-- At region 1's exit: its arrays at what the pipeline leaves (an input as entered, the output's write-backs folded),
    every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- After the host stretch between regions 1 and 2. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b

/-- At region 2's exit: its arrays at what the pipeline leaves (an input as entered, the output's write-backs folded),
    every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- The same read at the TensorCore's references. -/
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-- After the host stretch between regions 2 and 3. -/
abbrev W9 : Dev nD → Valuation τ sig (Elt F) := fun c => StableHlo.after hostOps3 (W8 m c)
abbrev V9 : (c : Dev nD) → (b : Ref sig .tc) → Buf (Elt F) ((c : Thread nD τ).loc b) := fun c b => W9 m c b

/-- At region 3's exit: its arrays at what the pipeline leaves (an input as entered, the output's write-backs folded),
    every other buffer as entered. -/
def W10 (c : Dev nD) : Valuation τ sig (Elt F) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
/-- The same read at the TensorCore's references. -/
abbrev V10 : (c : Dev nD) → (b : Ref sig .tc) → Buf (Elt F) ((c : Thread nD τ).loc b) := fun c b => W10 m c b
theorem hF3 (c : Dev nD) (w : Fin cfg3.W) : (dat3 (V9 m) c).arrAt w cfg3.N = V10 m c (Pipeline.arrRef spec3 w) :=
  (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 over the thread state: entered from every unscoped buffer at `W3`, left at `W4`. Its arrays are split
    out of the unscoped buffers and put back at the exit contents; the generator register goes into the region's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split
    out of the unscoped buffers and put back at the exit contents; the generator register goes into the region's
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`. Its arrays are split
    out of the unscoped buffers and put back at the exit contents; the generator register goes into the region's
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W9`, left at `W10`. Its arrays are split
    out of the unscoped buffers and put back at the exit contents; the generator register goes into the region's
    invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h3 := hin3 (V9 m) c
    unfold Pipeline.ΦA at h3
    rw [show (pdats m 3 c).Φ 0 = (dat3 (V9 m) c).Φ 0 from rfl]
    iintro ⟨Hp, -, Hr⟩
    iapply h3
    isplitl [Hr]; · iexact Hr
    iexact Hp
  hout c := by
    have h3 := hout3 (V9 m) c
    unfold Pipeline.ΦA at h3
    rw [Pipeline.ownSems0_none, show (pdats m 3 c).Φ (Fin.last _) = (dat3 (V9 m) c).Φ (Fin.last _) from rfl]
    iintro HPhi
    ihave Hx := h3 $$ HPhi
    icases Hx with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer of every core at the last stage of the fold. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.Kernel.Hand

end
-- ==== Proof.K.Post.lean ====
import proofs.«104075_j8031588844234_2_alg».proof.Proof.K.Run

/-
  What the run's last stage holds at the argument arrays and at the result: each argument as launched (no host
  operation writes an argument, and a region at most reads it), the result at what the last region's write-back leaves.
-/
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- `main_arg0` reaches the end as launched: no host operation writes it and a region at most reads it. -/
theorem W10_main_arg0 (c : Dev nD) : W10 m c (Proc.devRef .tc main_arg0) = m ((c : Thread nD τ).loc main_arg0) :=
  calc W10 m c (Proc.devRef .tc main_arg0)
    _ = W9 m c (Proc.devRef .tc main_arg0) := W10_of_ne m c main_arg0 (by decide)
    _ = W8 m c (Proc.devRef .tc main_arg0) := StableHlo.after_of_writes_sub hostOps3 _ hostOps3_writes (by decide)
    _ = W7 m c (Proc.devRef .tc main_arg0) := W8_of_ne m c main_arg0 (by decide)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1 _ hostOps1_writes (by decide)
    _ = W3 m c (Proc.devRef .tc main_arg0) := (W4_arr m c 0).trans (((dat0 (V3 m) c).arrAt_in 0 rfl _).trans (A_eq0 (V3 m) c 0))
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

/-- `main_arg1` reaches the end as launched: no host operation writes it and a region at most reads it. -/
theorem W10_main_arg1 (c : Dev nD) : W10 m c (Proc.devRef .tc main_arg1) = m ((c : Thread nD τ).loc main_arg1) :=
  calc W10 m c (Proc.devRef .tc main_arg1)
    _ = W9 m c (Proc.devRef .tc main_arg1) := W10_of_ne m c main_arg1 (by decide)
    _ = W8 m c (Proc.devRef .tc main_arg1) := StableHlo.after_of_writes_sub hostOps3 _ hostOps3_writes (by decide)
    _ = W7 m c (Proc.devRef .tc main_arg1) := W8_of_ne m c main_arg1 (by decide)
    _ = W6 m c (Proc.devRef .tc main_arg1) := StableHlo.after_of_writes_sub hostOps2 _ hostOps2_writes (by decide)
    _ = W5 m c (Proc.devRef .tc main_arg1) := W6_of_ne m c main_arg1 (by decide)
    _ = W4 m c (Proc.devRef .tc main_arg1) := StableHlo.after_of_writes_sub hostOps1 _ hostOps1_writes (by decide)
    _ = W3 m c (Proc.devRef .tc main_arg1) := W4_of_ne m c main_arg1 (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl

/-- `main_arg2` reaches the end as launched: no host operation writes it and a region at most reads it. -/
theorem W10_main_arg2 (c : Dev nD) : W10 m c (Proc.devRef .tc main_arg2) = m ((c : Thread nD τ).loc main_arg2) :=
  calc W10 m c (Proc.devRef .tc main_arg2)
    _ = W9 m c (Proc.devRef .tc main_arg2) := W10_of_ne m c main_arg2 (by decide)
    _ = W8 m c (Proc.devRef .tc main_arg2) := StableHlo.after_of_writes_sub hostOps3 _ hostOps3_writes (by decide)
    _ = W7 m c (Proc.devRef .tc main_arg2) := W8_of_ne m c main_arg2 (by decide)
    _ = W6 m c (Proc.devRef .tc main_arg2) := StableHlo.after_of_writes_sub hostOps2 _ hostOps2_writes (by decide)
    _ = W5 m c (Proc.devRef .tc main_arg2) := W6_of_ne m c main_arg2 (by decide)
    _ = W4 m c (Proc.devRef .tc main_arg2) := StableHlo.after_of_writes_sub hostOps1 _ hostOps1_writes (by decide)
    _ = W3 m c (Proc.devRef .tc main_arg2) := (W4_arr m c 1).trans (((dat0 (V3 m) c).arrAt_in 1 rfl _).trans (A_eq0 (V3 m) c 1))
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl

/-- `main_arg3` reaches the end as launched: no host operation writes it and a region at most reads it. -/
theorem W10_main_arg3 (c : Dev nD) : W10 m c (Proc.devRef .tc main_arg3) = m ((c : Thread nD τ).loc main_arg3) :=
  calc W10 m c (Proc.devRef .tc main_arg3)
    _ = W9 m c (Proc.devRef .tc main_arg3) := W10_of_ne m c main_arg3 (by decide)
    _ = W8 m c (Proc.devRef .tc main_arg3) := StableHlo.after_of_writes_sub hostOps3 _ hostOps3_writes (by decide)
    _ = W7 m c (Proc.devRef .tc main_arg3) := W8_of_ne m c main_arg3 (by decide)
    _ = W6 m c (Proc.devRef .tc main_arg3) := StableHlo.after_of_writes_sub hostOps2 _ hostOps2_writes (by decide)
    _ = W5 m c (Proc.devRef .tc main_arg3) := W6_of_ne m c main_arg3 (by decide)
    _ = W4 m c (Proc.devRef .tc main_arg3) := StableHlo.after_of_writes_sub hostOps1 _ hostOps1_writes (by decide)
    _ = W3 m c (Proc.devRef .tc main_arg3) := W4_of_ne m c main_arg3 (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl

/-- `main_arg4` reaches the end as launched: no host operation writes it and a region at most reads it. -/
theorem W10_main_arg4 (c : Dev nD) : W10 m c (Proc.devRef .tc main_arg4) = m ((c : Thread nD τ).loc main_arg4) :=
  calc W10 m c (Proc.devRef .tc main_arg4)
    _ = W9 m c (Proc.devRef .tc main_arg4) := W10_of_ne m c main_arg4 (by decide)
    _ = W8 m c (Proc.devRef .tc main_arg4) := StableHlo.after_of_writes_sub hostOps3 _ hostOps3_writes (by decide)
    _ = W7 m c (Proc.devRef .tc main_arg4) := W8_of_ne m c main_arg4 (by decide)
    _ = W6 m c (Proc.devRef .tc main_arg4) := StableHlo.after_of_writes_sub hostOps2 _ hostOps2_writes (by decide)
    _ = W5 m c (Proc.devRef .tc main_arg4) := (W6_arr m c 2).trans (((dat1 (V5 m) c).arrAt_in 2 rfl _).trans (A_eq1 (V5 m) c 2))
    _ = W4 m c (Proc.devRef .tc main_arg4) := StableHlo.after_of_writes_sub hostOps1 _ hostOps1_writes (by decide)
    _ = W3 m c (Proc.devRef .tc main_arg4) := W4_of_ne m c main_arg4 (by decide)
    _ = W2 m c (Proc.devRef .tc main_arg4) := StableHlo.after_of_writes_sub hostOps0_2 _ hostOps0_2_writes (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl

/-- `main_arg5` reaches the end as launched: no host operation writes it and a region at most reads it. -/
theorem W10_main_arg5 (c : Dev nD) : W10 m c (Proc.devRef .tc main_arg5) = m ((c : Thread nD τ).loc main_arg5) :=
  calc W10 m c (Proc.devRef .tc main_arg5)
    _ = W9 m c (Proc.devRef .tc main_arg5) := W10_of_ne m c main_arg5 (by decide)
    _ = W8 m c (Proc.devRef .tc main_arg5) := StableHlo.after_of_writes_sub hostOps3 _ hostOps3_writes (by decide)
    _ = W7 m c (Proc.devRef .tc main_arg5) := W8_of_ne m c main_arg5 (by decide)
    _ = W6 m c (Proc.devRef .tc main_arg5) := StableHlo.after_of_writes_sub hostOps2 _ hostOps2_writes (by decide)
    _ = W5 m c (Proc.devRef .tc main_arg5) := W6_of_ne m c main_arg5 (by decide)
    _ = W4 m c (Proc.devRef .tc main_arg5) := StableHlo.after_of_writes_sub hostOps1 _ hostOps1_writes (by decide)
    _ = W3 m c (Proc.devRef .tc main_arg5) := W4_of_ne m c main_arg5 (by decide)
    _ = W2 m c (Proc.devRef .tc main_arg5) := StableHlo.after_of_writes_sub hostOps0_2 _ hostOps0_2_writes (by decide)
    _ = W1 m c (Proc.devRef .tc main_arg5) := StableHlo.after_of_writes_sub hostOps0_1 _ hostOps0_1_writes (by decide)
    _ = W0 m c (Proc.devRef .tc main_arg5) := StableHlo.after_of_writes_sub hostOps0 _ hostOps0_writes (by decide)
    _ = m ((c : Thread nD τ).loc main_arg5) := rfl

/-- `main_arg6` reaches the end as launched: no host operation writes it and a region at most reads it. -/
theorem W10_main_arg6 (c : Dev nD) : W10 m c (Proc.devRef .tc main_arg6) = m ((c : Thread nD τ).loc main_arg6) :=
  calc W10 m c (Proc.devRef .tc main_arg6)
    _ = W9 m c (Proc.devRef .tc main_arg6) := (W10_arr m c 1).trans (((dat3 (V9 m) c).arrAt_in 1 rfl _).trans (A_eq3 (V9 m) c 1))
    _ = W8 m c (Proc.devRef .tc main_arg6) := StableHlo.after_of_writes_sub hostOps3 _ hostOps3_writes (by decide)
    _ = W7 m c (Proc.devRef .tc main_arg6) := W8_of_ne m c main_arg6 (by decide)
    _ = W6 m c (Proc.devRef .tc main_arg6) := StableHlo.after_of_writes_sub hostOps2 _ hostOps2_writes (by decide)
    _ = W5 m c (Proc.devRef .tc main_arg6) := W6_of_ne m c main_arg6 (by decide)
    _ = W4 m c (Proc.devRef .tc main_arg6) := StableHlo.after_of_writes_sub hostOps1 _ hostOps1_writes (by decide)
    _ = W3 m c (Proc.devRef .tc main_arg6) := W4_of_ne m c main_arg6 (by decide)
    _ = W2 m c (Proc.devRef .tc main_arg6) := StableHlo.after_of_writes_sub hostOps0_2 _ hostOps0_2_writes (by decide)
    _ = W1 m c (Proc.devRef .tc main_arg6) := StableHlo.after_of_writes_sub hostOps0_1 _ hostOps0_1_writes (by decide)
    _ = W0 m c (Proc.devRef .tc main_arg6) := StableHlo.after_of_writes_sub hostOps0 _ hostOps0_writes (by decide)
    _ = m ((c : Thread nD τ).loc main_arg6) := rfl

/-- `main_arg7` reaches the end as launched: no host operation writes it and a region at most reads it. -/
theorem W10_main_arg7 (c : Dev nD) : W10 m c (Proc.devRef .tc main_arg7) = m ((c : Thread nD τ).loc main_arg7) :=
  calc W10 m c (Proc.devRef .tc main_arg7)
    _ = W9 m c (Proc.devRef .tc main_arg7) := W10_of_ne m c main_arg7 (by decide)
    _ = W8 m c (Proc.devRef .tc main_arg7) := StableHlo.after_of_writes_sub hostOps3 _ hostOps3_writes (by decide)
    _ = W7 m c (Proc.devRef .tc main_arg7) := W8_of_ne m c main_arg7 (by decide)
    _ = W6 m c (Proc.devRef .tc main_arg7) := StableHlo.after_of_writes_sub hostOps2 _ hostOps2_writes (by decide)
    _ = W5 m c (Proc.devRef .tc main_arg7) := W6_of_ne m c main_arg7 (by decide)
    _ = W4 m c (Proc.devRef .tc main_arg7) := StableHlo.after_of_writes_sub hostOps1 _ hostOps1_writes (by decide)
    _ = W3 m c (Proc.devRef .tc main_arg7) := W4_of_ne m c main_arg7 (by decide)
    _ = W2 m c (Proc.devRef .tc main_arg7) := StableHlo.after_of_writes_sub hostOps0_2 _ hostOps0_2_writes (by decide)
    _ = W1 m c (Proc.devRef .tc main_arg7) := StableHlo.after_of_writes_sub hostOps0_1 _ hostOps0_1_writes (by decide)
    _ = W0 m c (Proc.devRef .tc main_arg7) := StableHlo.after_of_writes_sub hostOps0 _ hostOps0_writes (by decide)
    _ = m ((c : Thread nD τ).loc main_arg7) := rfl

/-- The result array ends at what region 3's one write-back leaves. -/
theorem W10_result (c : Dev nD) : W10 m c (Proc.devRef .tc main_v62) = (dat3 (V9 m) c).arrAt 3 cfg3.N :=
  W10_arr m c 3

/-- THE FRAME at any float instance: every weakly fair execution terminates, nothing faulting, each argument array as
    launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
      (h c _ (mem_uc main_arg0 (by decide))).trans (W10_main_arg0 m c),
      (h c _ (mem_uc main_arg1 (by decide))).trans (W10_main_arg1 m c),
      (h c _ (mem_uc main_arg2 (by decide))).trans (W10_main_arg2 m c),
      (h c _ (mem_uc main_arg3 (by decide))).trans (W10_main_arg3 m c),
      (h c _ (mem_uc main_arg4 (by decide))).trans (W10_main_arg4 m c),
      (h c _ (mem_uc main_arg5 (by decide))).trans (W10_main_arg5 m c),
      (h c _ (mem_uc main_arg6 (by decide))).trans (W10_main_arg6 m c),
      (h c _ (mem_uc main_arg7 (by decide))).trans (W10_main_arg7 m c)⟩) (run_all m ρ)

/-- The same run with the result named too. -/
theorem run_result (ρ : Dev nD → PrngReg) : θ_run defs (onTc (τ := τ) (main (F := F))) ⟨m, fun _ => 0, ρ⟩ (fun r => ∀ c : Dev nD,
      r.2.mem ((c.tc : Thread nD τ).loc main_v62) = (dat3 (V9 m) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
      (h c _ (mem_uc main_v62 (by decide))).trans (W10_result m c),
      (h c _ (mem_uc main_arg0 (by decide))).trans (W10_main_arg0 m c),
      (h c _ (mem_uc main_arg1 (by decide))).trans (W10_main_arg1 m c),
      (h c _ (mem_uc main_arg2 (by decide))).trans (W10_main_arg2 m c),
      (h c _ (mem_uc main_arg3 (by decide))).trans (W10_main_arg3 m c),
      (h c _ (mem_uc main_arg4 (by decide))).trans (W10_main_arg4 m c),
      (h c _ (mem_uc main_arg5 (by decide))).trans (W10_main_arg5 m c),
      (h c _ (mem_uc main_arg6 (by decide))).trans (W10_main_arg6 m c),
      (h c _ (mem_uc main_arg7 (by decide))).trans (W10_main_arg7 m c)⟩) (run_all m ρ)

end Cert.Kernel.Hand

end
-- ==== Proof.KI.Reg0.lean ====
import proofs.«104075_j8031588844234_2_alg».proof.Proof.Gen.KernelIdeal.Launch
import proofs.«104075_j8031588844234_2_alg».proof.Proof.Gen.KernelIdeal.Skeleton
import proofs.«104075_j8031588844234_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: `cc0__matmul_kernel` (pipeline 0), at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block index
    has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each whole buffer as one rectangle -/

abbrev r0_0 : Rect S10000x128 := Rect.unit (s := S10000x128) ![0, 0] S10000x128.size inb_S10000x128_S10000x128_0_0
abbrev r0_1 : Rect S128x32 := Rect.unit (s := S128x32) ![0, 0] S128x32.size inb_S128x32_S128x32_0_0
abbrev r0_2 : Rect S10000x32 := Rect.unit (s := S10000x32) ![0, 0] S10000x32.size inb_S10000x32_S10000x32_0_0

/-! ## What the body leaves in the output window's buffer -/

/-- Window 2's staging buffer after the body, from the input windows' blocks: its one store, a piece over the whole
    buffer whose payload is the kernel's value of the loaded inputs. -/
def out0_2 (x0 : Vec F S10000x128 .f32) (x1 : Vec F S128x32 .f32) : Vec F S10000x32 .f32 :=
  View.canon [⟨r0_2, k0_pay1 (View.ld x0 r0_0) (View.ld x1 r0_1)⟩]

/-- The store tiles the buffer, so it covers it. -/
theorem cover0_2 (p0 : Vec F S10000x32 .f32) (y : S10000x32.Idx) :
    ∃ pc ∈ ([⟨r0_2, p0⟩] : List (View.Piece (Elt F) S10000x32 .f32)), y ∈ pc.1.set :=
  View.cover_of_tiled [⟨r0_2, p0⟩] S10000x32.size (by rfl) y

/-! ## The body's triple -/

set_option maxHeartbeats 1000000 in
/-- The kernel body on whole staging memrefs, the inputs' at read contents `xW` and the output's at anything, runs to
    the continuation holding the inputs' as they were and the output's at `out0_2` of the inputs'. -/
theorem sound_kernel0 (c : Dev nD) (E : Set ℕ) (i : grid0.Coords) (arg0 : Memref sig .tc .vmem S10000x128 .f32) (harg0 : arg0.IsWhole) (arg1 : Memref sig .tc .vmem S128x32 .f32) (harg1 : arg1.IsWhole) (arg2 : Memref sig .tc .vmem S10000x32 .f32) (harg2 : arg2.IsWhole)
    (x0 : Vec F S10000x128 .f32) (x1 : Vec F S128x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«104075_j8031588844234_2_alg».proof.Proof.Gen.KernelIdeal.Launch
import proofs.«104075_j8031588844234_2_alg».proof.Proof.Gen.KernelIdeal.Skeleton
import proofs.«104075_j8031588844234_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: `cc1__biasrelu_matmul_kernel` (pipeline 1), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each whole buffer as one rectangle -/

abbrev r1_0 : Rect S10000x32 := Rect.unit (s := S10000x32) ![0, 0] S10000x32.size inb_S10000x32_S10000x32_0_0
abbrev r1_1 : Rect S1x32 := Rect.unit (s := S1x32) ![0, 0] S1x32.size inb_S1x32_S1x32_0_0
abbrev r1_2 : Rect S32x64 := Rect.unit (s := S32x64) ![0, 0] S32x64.size inb_S32x64_S32x64_0_0
abbrev r1_3 : Rect S10000x64 := Rect.unit (s := S10000x64) ![0, 0] S10000x64.size inb_S10000x64_S10000x64_0_0

/-! ## What the body leaves in the output window's buffer -/

/-- Window 3's staging buffer after the body, from the input windows' blocks: its one store, a piece over the whole
    buffer whose payload is the kernel's value of the loaded inputs. -/
def out1_3 (x0 : Vec F S10000x32 .f32) (x1 : Vec F S1x32 .f32) (x2 : Vec F S32x64 .f32) : Vec F S10000x64 .f32 :=
  View.canon [⟨r1_3, k1_pay1 (View.ld x0 r1_0) (View.ld x1 r1_1) (View.ld x2 r1_2)⟩]

/-- The store tiles the buffer, so it covers it. -/
theorem cover1_3 (p0 : Vec F S10000x64 .f32) (y : S10000x64.Idx) :
    ∃ pc ∈ ([⟨r1_3, p0⟩] : List (View.Piece (Elt F) S10000x64 .f32)), y ∈ pc.1.set :=
  View.cover_of_tiled [⟨r1_3, p0⟩] S10000x64.size (by rfl) y

/-! ## The body's triple -/

set_option maxHeartbeats 1000000 in
/-- The kernel body on whole staging memrefs, the inputs' at read contents `xW` and the output's at anything, runs to
    the continuation holding the inputs' as they were and the output's at `out1_3` of the inputs'. -/
theorem sound_kernel1 (c : Dev nD) (E : Set ℕ) (i : grid1.Coords) (arg0 : Memref sig .tc .vmem S10000x32 .f32) (harg0 : arg0.IsWhole) (arg1 : Memref sig .tc .vmem S1x32 .f32) (harg1 : arg1.IsWhole) (arg2 : Memref sig .tc .vmem S32x64 .f32) (harg2 : arg2.IsWhole) (arg3 : Memref sig .tc .vmem S10000x64 .f32) (harg3 : arg3.IsWhole)
    (x0 : Vec F S10000x32 .f32) (x1 : Vec F S1x32 .f32) (x2 : Vec F S32x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__biasrelu_matmul_kernel i arg0 harg0 arg1 harg1 arg2 harg2 arg3 harg3) K := by
  simp only [cc1__biasrelu_matmul_kernel_eq_skeleton]; unfold cc1__biasrelu_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point
    `t` each input's buffer at its block and the output's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«104075_j8031588844234_2_alg».proof.Proof.Gen.KernelIdeal.Launch
import proofs.«104075_j8031588844234_2_alg».proof.Proof.Gen.KernelIdeal.Skeleton
import proofs.«104075_j8031588844234_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: `cc2__biasrelu_kernel` (pipeline 2), at the entry contents `V` -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block index
    has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each whole buffer as one rectangle -/

abbrev r2_0 : Rect S10000x64 := Rect.unit (s := S10000x64) ![0, 0] S10000x64.size inb_S10000x64_S10000x64_0_0
abbrev r2_1 : Rect S1x64 := Rect.unit (s := S1x64) ![0, 0] S1x64.size inb_S1x64_S1x64_0_0
abbrev r2_2 : Rect S10000x64 := Rect.unit (s := S10000x64) ![0, 0] S10000x64.size inb_S10000x64_S10000x64_0_0

/-! ## What the body leaves in the output window's buffer -/

/-- Window 2's staging buffer after the body, from the input windows' blocks: its one store, a piece over the whole
    buffer whose payload is the kernel's value of the loaded inputs. -/
def out2_2 (x0 : Vec F S10000x64 .f32) (x1 : Vec F S1x64 .f32) : Vec F S10000x64 .f32 :=
  View.canon [⟨r2_2, k2_pay1 (View.ld x0 r2_0) (View.ld x1 r2_1)⟩]

/-- The store tiles the buffer, so it covers it. -/
theorem cover2_2 (p0 : Vec F S10000x64 .f32) (y : S10000x64.Idx) :
    ∃ pc ∈ ([⟨r2_2, p0⟩] : List (View.Piece (Elt F) S10000x64 .f32)), y ∈ pc.1.set :=
  View.cover_of_tiled [⟨r2_2, p0⟩] S10000x64.size (by rfl) y

/-! ## The body's triple -/

set_option maxHeartbeats 1000000 in
/-- The kernel body on whole staging memrefs, the inputs' at read contents `xW` and the output's at anything, runs to
    the continuation holding the inputs' as they were and the output's at `out2_2` of the inputs'. -/
theorem sound_kernel2 (c : Dev nD) (E : Set ℕ) (i : grid2.Coords) (arg0 : Memref sig .tc .vmem S10000x64 .f32) (harg0 : arg0.IsWhole) (arg1 : Memref sig .tc .vmem S1x64 .f32) (harg1 : arg1.IsWhole) (arg2 : Memref sig .tc .vmem S10000x64 .f32) (harg2 : arg2.IsWhole)
    (x0 : Vec F S10000x64 .f32) (x1 : Vec F S1x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__biasrelu_kernel i arg0 harg0 arg1 harg1 arg2 harg2) K := by
  simp only [cc2__biasrelu_kernel_eq_skeleton]; unfold cc2__biasrelu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point
    `t` each input's buffer at its block and the output's at `out2_2` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3a.lean ====
import proofs.«104075_j8031588844234_2_alg».proof.Proof.Gen.KernelIdeal.Launch
import proofs.«104075_j8031588844234_2_alg».proof.Proof.Gen.KernelIdeal.Skeleton
import proofs.«104075_j8031588844234_2_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the body of `cc3__final_matmul_kernel`, case by case

The body keeps a running sum in its scratch operand: at the first grid point it zeroes the scratch, at every
point it adds the product of the two input blocks to it, and at the last point it stores the sum plus the
bias (window 2) into the output buffer. -/

/-- The whole-buffer unit rectangles of the body's loads and stores. -/
abbrev rS : Rect S8x1 := Rect.unit (s := S8x1) ![0, 0] S8x1.size inb_S8x1_S8x1_0_0
abbrev rO : Rect S8x1 := Rect.unit (s := S8x1) ![0, 0] S8x1.size inb_S8x1_S8x1_0_0
abbrev r0 : Rect S8x6400 := Rect.unit (s := S8x6400) ![0, 0] S8x6400.size inb_S8x6400_S8x6400_0_0
abbrev r1 : Rect S6400x1 := Rect.unit (s := S6400x1) ![0, 0] S6400x1.size inb_S6400x1_S6400x1_0_0
abbrev r2 : Rect S1x1 := Rect.unit (s := S1x1) ![0, 0] S1x1.size inb_S1x1_S1x1_0_0

/-- The condition of the body's first conditional, from the grid coordinates. -/
abbrev cond3_0 (i : grid3.Coords) : Prop := (Scalar.cmpi .ne (Scalar.extui (Scalar.cmpi .eq (BitVec.ofNat 32 (i 0).val) 0#32)) 0#32) = 1#1
/-- The condition of the body's second conditional. -/
abbrev cond3_1 (i : grid3.Coords) : Prop := k3_cond2 i = 1#1

/-- The first conditional is taken at the first point only. -/
theorem hcond3_0 : ∀ t : Fin cfg3.N, cond3_0 (grid3.coords t) ↔ t.val = 0 :=
  (by decide +kernel : ∀ t : Fin grid3.N, cond3_0 (grid3.coords t) ↔ t.val = 0)
/-- The second conditional is taken at the last point only. -/
theorem hcond3_1 : ∀ t : Fin cfg3.N, cond3_1 (grid3.coords t) ↔ t.val = 99 :=
  (by decide +kernel : ∀ t : Fin grid3.N, cond3_1 (grid3.coords t) ↔ t.val = 99)

/-- The input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Off the last point the output window is idle and not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
/-- At the last point it is live. -/
theorem liveAt3_3 : ∀ t : Fin cfg3.N, cond3_1 (grid3.coords t) → cfg3.idle 3 (grid3.coords t) = false := by decide +kernel

/-! ## Whole-buffer pieces -/

/-- One store through `rS` covers the buffer. -/
theorem coverS (p : Vec F S8x1 .f32) (L : List (View.Piece (Elt F) S8x1 .f32)) (y : S8x1.Idx) :
    ∃ pc ∈ ((⟨rS, p⟩ :: L : List (View.Piece (Elt F) S8x1 .f32))), y ∈ pc.1.set := by
  obtain ⟨pc, hm, hy⟩ := View.cover_of_tiled ([⟨rS, p⟩] : List (View.Piece (Elt F) S8x1 .f32)) S8x1.size (by rfl) y
  rw [List.mem_singleton] at hm; subst hm
  exact ⟨_, List.Mem.head _, hy⟩

/-- A whole-buffer store read back through the same rectangle is its payload. -/
theorem ld_canon_whole (w : Vec F S8x1 .f32) : View.ld (View.canon [⟨rS, w⟩]) rS = w :=
  funext fun x => View.canon_cons_emb rS w [] x

/-- What the writes before a whole-buffer store left does not matter. -/
theorem canon_whole (w : Vec F S8x1 .f32) (L : List (View.Piece (Elt F) S8x1 .f32)) :
    View.canon (⟨rS, w⟩ :: L) = View.canon [⟨rS, w⟩] := by
  funext y
  obtain ⟨pc, hm, hy⟩ := coverS w [] y
  rw [List.mem_singleton] at hm; subst hm
  obtain ⟨x, rfl⟩ := rS.exists_idx_of_mem hy
  exact (View.canon_cons_emb rS w L x).trans (View.canon_cons_emb rS w [] x).symm

/-! ## What the body leaves -/

/-- The scratch after the zeroing store of the first point. -/
def accInit : Vec F S8x1 .f32 := View.canon [⟨rS, k3_pay1⟩]
/-- The scratch after a point that found it at `xs` and the input blocks at `x0`, `x1`. -/
def accStep (xs : Vec F S8x1 .f32) (x0 : Vec F S8x6400 .f32) (x1 : Vec F S6400x1 .f32) : Vec F S8x1 .f32 :=
  View.canon [⟨rS, k3_pay2 (View.ld xs rS) (View.ld x0 r0) (View.ld x1 r1)⟩]
/-- The output buffer after the last point, the scratch then at `A` and window 2's block at `x2`. -/
def outStep (A : Vec F S8x1 .f32) (x2 : Vec F S1x1 .f32) : Vec F S8x1 .f32 :=
  View.canon [⟨rO, k3_pay3 (View.ld A rS) (View.ld x2 r2)⟩]

/-! ## The body's triples, one per case of its two conditionals -/

set_option maxHeartbeats 1000000 in
/-- The first point: the scratch, at anything, is zeroed and then receives the first product. -/
theorem run3_first (c : Dev nD) (E : Set ℕ) (i : grid3.Coords)
    (arg1 : Memref sig .tc .vmem S8x6400 .f32) (harg1 : arg1.IsWhole) (arg2 : Memref sig .tc .vmem S6400x1 .f32) (harg2 : arg2.IsWhole)
    (arg3 : Memref sig .tc .vmem S1x1 .f32) (harg3 : arg3.IsWhole) (arg4 : Memref sig .tc .vmem S8x1 .f32) (harg4 : arg4.IsWhole)
    (arg5 : Memref sig .tc .vmem S8x1 .f32) (harg5 : arg5.IsWhole) (hc0 : cond3_0 i) (hc1 : ¬cond3_1 i)
    (x0 : Vec F S8x6400 .f32) (x1 : Vec F S6400x1 .f32) (K : PUnit → sProp 𝕄) :
    iprop(owns (c : Thread nD τ) arg1 fullShare x0 ∗ owns (c : Thread nD τ) arg2 fullShare x1 ∗ (∃ d, owns (c : Thread nD τ) arg5 fullShare d)
        ∗ (iprop(owns (c : Thread nD τ) arg1 fullShare x0 ∗ owns (c : Thread nD τ) arg2 fullShare x1 ∗ owns (c : Thread nD τ) arg5 fullShare (accStep accInit x0 x1)) -∗ K ⟨⟩))
      ⊢ wp frame (wpE (defs₀ (F := F)) Variants.none c none) E (cc3__final_matmul_kernel i arg1 harg1 arg2 harg2 arg3 harg3 arg4 harg4 arg5 harg5) K := by
  simp only [cc3__final_matmul_kernel_eq_skeleton]; unfold cc3__final_matmul_kernel_skel
  unfold owns
  iintro ⟨⟨%f0, %hf0, H0⟩, ⟨%f1, %hf1, H1⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  sl_unfold_run_names
  rw [View.readCov_cons_toLoadRect, View.read_writes_eq_canon _ _ _ (coverS _ _), canon_whole]
  unfold accStep accInit
  rw [ld_canon_whole]
  rfl

set_option maxHeartbeats 1000000 in
/-- A point that is neither the first nor the last: the scratch, at `xs`, receives one more product. -/
theorem run3_mid (c : Dev nD) (E : Set ℕ) (i : grid3.Coords)
    (arg1 : Memref sig .tc .vmem S8x6400 .f32) (harg1 : arg1.IsWhole) (arg2 : Memref sig .tc .vmem S6400x1 .f32) (harg2 : arg2.IsWhole)
    (arg3 : Memref sig .tc .vmem S1x1 .f32) (harg3 : arg3.IsWhole) (arg4 : Memref sig .tc .vmem S8x1 .f32) (harg4 : arg4.IsWhole)
    (arg5 : Memref sig .tc .vmem S8x1 .f32) (harg5 : arg5.IsWhole) (hc0 : ¬cond3_0 i) (hc1 : ¬cond3_1 i)
    (x0 : Vec F S8x6400 .f32) (x1 : Vec F S6400x1 .f32) (xs : Vec F S8x1 .f32) (K : PUnit → sProp 𝕄) :
    iprop(owns (c : Thread nD τ) arg1 fullShare x0 ∗ owns (c : Thread nD τ) arg2 fullShare x1 ∗ owns (c : Thread nD τ) arg5 fullShare xs
        ∗ (iprop(owns (c : Thread nD τ) arg1 fullShare x0 ∗ owns (c : Thread nD τ) arg2 fullShare x1 ∗ owns (c : Thread nD τ) arg5 fullShare (accStep xs x0 x1)) -∗ K ⟨⟩))
      ⊢ wp frame (wpE (defs₀ (F := F)) Variants.none c none) E (cc3__final_matmul_kernel i arg1 harg1 arg2 harg2 arg3 harg3 arg4 harg4 arg5 harg5) K := by
  simp only [cc3__final_matmul_kernel_eq_skeleton]; unfold cc3__final_matmul_kernel_skel
  unfold owns
  iintro ⟨⟨%f0, %hf0, H0⟩, ⟨%f1, %hf1, H1⟩, ⟨%f5, %hf5, H5⟩, Hk⟩
  subst hf0; subst hf1; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  sl_unfold_run_names
  rw [View.read_writes_eq_canon _ _ _ (coverS _ _)]
  rfl

set_option maxHeartbeats 1000000 in
/-- The last point: the scratch receives the last product, and the output buffer the sum plus window 2's block. -/
theorem run3_last (c : Dev nD) (E : Set ℕ) (i : grid3.Coords)
    (arg1 : Memref sig .tc .vmem S8x6400 .f32) (harg1 : arg1.IsWhole) (arg2 : Memref sig .tc .vmem S6400x1 .f32) (harg2 : arg2.IsWhole)
    (arg3 : Memref sig .tc .vmem S1x1 .f32) (harg3 : arg3.IsWhole) (arg4 : Memref sig .tc .vmem S8x1 .f32) (harg4 : arg4.IsWhole)
    (arg5 : Memref sig .tc .vmem S8x1 .f32) (harg5 : arg5.IsWhole) (hc0 : ¬cond3_0 i) (hc1 : cond3_1 i)
    (x0 : Vec F S8x6400 .f32) (x1 : Vec F S6400x1 .f32) (x2 : Vec F S1x1 .f32) (xs : Vec F S8x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (outStep (accStep xs x0 x1) x2) ∗ owns (c : Thread nD τ) arg5 fullShare (accStep xs x0 x1)) -∗ K ⟨⟩))
      ⊢ wp frame (wpE (defs₀ (F := F)) Variants.none c none) E (cc3__final_matmul_kernel i arg1 harg1 arg2 harg2 arg3 harg3 arg4 harg4 arg5 harg5) K := by
  simp only [cc3__final_matmul_kernel_eq_skeleton]; unfold cc3__final_matmul_kernel_skel
  unfold owns
  iintro ⟨⟨%f0, %hf0, H0⟩, ⟨%f1, %hf1, H1⟩, ⟨%f2, %hf2, H2⟩, ⟨%d4, %f4, -, H4⟩, ⟨%f5, %hf5, H5⟩, Hk⟩
  subst hf0; subst hf1; subst hf2; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    sl_unfold_run_names
    rw [View.readCov_cons_toLoadRect, View.read_writes_eq_canon _ _ _ (coverS _ _)]
    unfold outStep accStep
    rw [ld_canon_whole]
    rfl
  iexists _; isplitr
  swap; · iexact H5
  ipureintro
  sl_unfold_run_names
  rw [View.read_writes_eq_canon _ _ _ (coverS _ _)]
  rfl

end Cert.KernelIdeal.Hand
end
-- ==== Proof.KI.Reg3.lean ====
import proofs.«104075_j8031588844234_2_alg».proof.Proof.KI.Reg3a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3 at the entry contents `V`: the blocks, the running sum, the proof data, the body obligation -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The running sum -/

/-- The scratch after point `n`: zeroed and one product added at the first point, one more product at each later one. -/
def acc3 (c : Dev nD) : (n : ℕ) → n < cfg3.N → Vec F S8x1 .f32
  | 0, h => accStep accInit (iblk3 V c 0 ⟨0, h⟩) (iblk3 V c 1 ⟨0, h⟩)
  | n + 1, h => accStep (acc3 c n (Nat.lt_of_succ_lt h)) (iblk3 V c 0 ⟨n + 1, h⟩) (iblk3 V c 1 ⟨n + 1, h⟩)

theorem acc3_zero (c : Dev nD) (h : 0 < cfg3.N) :
    acc3 V c 0 h = View.canon [⟨rS, k3_pay2 (View.ld (View.canon [⟨rS, k3_pay1⟩]) rS) (View.ld (iblk3 V c 0 ⟨0, h⟩) r0) (View.ld (iblk3 V c 1 ⟨0, h⟩) r1)⟩] := rfl

theorem acc3_succ (c : Dev nD) (n : ℕ) (h : n + 1 < cfg3.N) :
    acc3 V c (n + 1) h = View.canon [⟨rS, k3_pay2 (View.ld (acc3 V c n (Nat.lt_of_succ_lt h)) rS) (View.ld (iblk3 V c 0 ⟨n + 1, h⟩) r0) (View.ld (iblk3 V c 1 ⟨n + 1, h⟩) r1)⟩] := rfl

theorem acc3_first (c : Dev nD) (t : Fin cfg3.N) (hz : t.val = 0) :
    acc3 V c t.val t.isLt = accStep accInit (iblk3 V c 0 t) (iblk3 V c 1 t) := by
  obtain ⟨n, hn⟩ := t
  cases n with
  | zero => rfl
  | succ n => exact absurd hz (Nat.succ_ne_zero n)

theorem acc3_pos (c : Dev nD) (t : Fin cfg3.N) (hz : t.val ≠ 0) :
    acc3 V c t.val t.isLt = accStep (acc3 V c (t.val - 1) (Nat.lt_of_le_of_lt (Nat.sub_le _ _) t.isLt)) (iblk3 V c 0 t) (iblk3 V c 1 t) := by
  obtain ⟨n, hn⟩ := t
  cases n with
  | zero => exact absurd rfl hz
  | succ n => rfl

/-- The last point. -/
abbrev tLast3 : Fin cfg3.N := ⟨99, lt_of_lt_of_eq (by decide : (99 : ℕ) < 100) N_3.symm⟩

/-- What the last point stores into the output buffer: the sum plus window 2's block. -/
def outLast3 (c : Dev nD) : Vec F S8x1 .f32 :=
  View.canon [⟨rO, k3_pay3 (View.ld (acc3 V c 99 tLast3.isLt) rS) (View.ld (iblk3 V c 2 tLast3) r2)⟩]

theorem outLast3_at (c : Dev nD) (t : Fin cfg3.N) (hl : t.val = 99) :
    outLast3 V c = outStep (accStep (acc3 V c (t.val - 1) (Nat.lt_of_le_of_lt (Nat.sub_le _ _) t.isLt)) (iblk3 V c 0 t) (iblk3 V c 1 t)) (iblk3 V c 2 t) := by
  obtain ⟨n, hn⟩ := t
  dsimp only at hl; subst hl
  rfl

/-! ## The invariant -/

/-- The scratch operand the body carries from point to point. -/
abbrev scM3 : Memref sig .tc .vmem S8x1 .f32 := Memref.whole cc3_scratch0

/-- The rest of the region's invariant: whatever, with the scratch at some contents, makes up the class's invariant. -/
def Rest3 (c : Dev nD) : sProp 𝕄 :=
  iprop((∃ d, owns (c : Thread nD τ) scM3 fullShare d) -∗ (Pipeline.ΦA spec3 c : sProp 𝕄))

/-- The class's invariant holds the scratch at some contents. -/
theorem PhiA3_split (c : Dev nD) :
    (Pipeline.ΦA spec3 c : sProp 𝕄) ⊢ iprop((∃ d, owns (c : Thread nD τ) scM3 fullShare d) ∗ Rest3 (F := F) c) := by
  unfold Rest3 Pipeline.ΦA; rw [scopedRest3_eq]; simp only [scM3, owns_whole]
  iintro ⟨⟨H1, H2, H3, H4, H5, H6, H7, H8, H9, H10, H11, H12, H13, H14, H15, H16, HS⟩, Hg⟩
  isplitl [HS]; · iexact HS
  iintro HS
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact HS

/-- The region invariant before position `n`: the class's before the first point; afterwards the scratch at the sum
    the point before left, and the rest. -/
def Phi3 (c : Dev nD) : (n : ℕ) → n ≤ cfg3.N → sProp 𝕄
  | 0, _ => Pipeline.ΦA spec3 c
  | n + 1, hn => iprop(owns (c : Thread nD τ) scM3 fullShare (acc3 V c n hn) ∗ Rest3 c)

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(owns (c : Thread nD τ) scM3 fullShare (acc3 V c n hn) ∗ Rest3 c) := rfl

theorem Phi3_pos (c : Dev nD) (n : ℕ) (h : n ≤ cfg3.N) (hz : n ≠ 0) :
    Phi3 V c n h = iprop(owns (c : Thread nD τ) scM3 fullShare (acc3 V c (n - 1) (by omega)) ∗ Rest3 c) := by
  cases n with
  | zero => exact absurd rfl hz
  | succ n => rfl

/-! ## The proof data -/

/-- The proof data of pipeline 3 on core `c`: the arrays as the region finds them; after the body each input's buffer
    at its block and the output's at what the last point stores; the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outLast3 V c
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outLast3 V c := by dsimp only [dat3]
theorem after3_3_last (c : Dev nD) : (dat3 V c).after 3 tLast3 = outLast3 V c := after3_3 V c tLast3

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' buffers hold their blocks; the closed forms of the two conditions say which
    case the point is in; the invariant hands the body the scratch (at anything at the first point, at the sum so far
    afterwards) and takes it back at the new sum; off the last point the output buffer is handed back untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Phi3 V c (t.val + 1) t.isLt from rfl, Phi3_succ]
  have hN : t.val < 100 := lt_of_lt_of_eq t.isLt (show cfg3.N = 100 from N_3)
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  by_cases hz : t.val = 0
  · have hc0 : cond3_0 (grid3.coords t) := (hcond3_0 t).mpr hz
    have hc1 : ¬cond3_1 (grid3.coords t) := fun h => by have := (hcond3_1 t).mp h; omega
    rw [Dat.leavesExact_idle (dat3 V c) 3 t (idleAt3_3 t hc1) (noFlush3_3 t hc1)]
    rw [acc3_first V c t hz]
    rw [Phi3_castSucc V c t, Phi3_zero V c _ _ hz]
    iintro ⟨HP, Ho, ⟨%d0, H0⟩, ⟨%d1, H1⟩, ⟨%d2, H2⟩, ⟨%d3, H3⟩⟩
    ihave ⟨HS, HR⟩ := (PhiA3_split c) $$ HP
    iapply (run3_first c Set.univ (grid3.coords t) _ _ _ _ _ _ _ _ _ _ hc0 hc1 (iblk3 V c 0 t) (iblk3 V c 1 t) _)
    isplitl [H0]; · iexact H0
    isplitl [H1]; · iexact H1
    isplitl [HS]; · iexact HS
    iintro ⟨H0, H1, HS⟩
    isplitl [HS HR]
    · isplitl [HS]; · iexact HS
      iexact HR
    isplitl [Ho]; · iexact Ho
    isplitl [H0]; · iexact H0
    isplitl [H1]; · iexact H1
    isplitl [H2]; · iexact H2
    iexists _; iexact H3
  · have hc0 : ¬cond3_0 (grid3.coords t) := fun h => hz ((hcond3_0 t).mp h)
    by_cases hl : t.val = 99
    · have hc1 : cond3_1 (grid3.coords t) := (hcond3_1 t).mpr hl
      rw [show (dat3 V c).leavesExact 3 t = owns (c : Thread nD τ) (st3_3 t) fullShare ((dat3 V c).after 3 t) from by
        unfold Dat.leavesExact; rw [liveAt3_3 t hc1], after3_3, outLast3_at V c t hl]
      rw [acc3_pos V c t hz]
      rw [Phi3_castSucc V c t, Phi3_pos V c _ _ hz]
      iintro ⟨⟨HS, HR⟩, Ho, ⟨%d0, H0⟩, ⟨%d1, H1⟩, ⟨%d2, H2⟩, ⟨%d3, H3⟩⟩
      iapply (run3_last c Set.univ (grid3.coords t) _ _ _ _ _ _ _ _ _ _ hc0 hc1 (iblk3 V c 0 t) (iblk3 V c 1 t) (iblk3 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexact H3
    · have hc1 : ¬cond3_1 (grid3.coords t) := fun h => hl ((hcond3_1 t).mp h)
      rw [Dat.leavesExact_idle (dat3 V c) 3 t (idleAt3_3 t hc1) (noFlush3_3 t hc1)]
      rw [acc3_pos V c t hz]
      rw [Phi3_castSucc V c t, Phi3_pos V c _ _ hz]
      iintro ⟨⟨HS, HR⟩, Ho, ⟨%d0, H0⟩, ⟨%d1, H1⟩, ⟨%d2, H2⟩, ⟨%d3, H3⟩⟩
      iapply (run3_mid c Set.univ (grid3.coords t) _ _ _ _ _ _ _ _ _ _ hc0 hc1 (iblk3 V c 0 t) (iblk3 V c 1 t) _ _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = Phi3 V c 0 (Nat.zero_le _) from rfl, Phi3_zero V c 0 _ rfl]
  try exact Idealize.SL.BI.Entails.refl _

/-- After any point but the first the invariant gives the class's back: the sum in the scratch is forgotten. -/
theorem Phi_out3 (c : Dev nD) (t : Fin (cfg3.N + 1)) (ht : t.val ≠ 0) : (dat3 V c).Φ t ⊢ Pipeline.ΦA spec3 c := by
  rw [show (dat3 V c).Φ t = Phi3 V c t.val (Nat.le_of_lt_succ t.isLt) from rfl, Phi3_pos V c _ _ ht]
  unfold Rest3
  iintro ⟨HS, HR⟩
  iapply HR
  iexists _; iexact HS

/-- The same after the last point. -/
theorem hout3 (c : Dev nD) : (dat3 V c).Φ (Fin.last cfg3.N) ⊢ Pipeline.ΦA spec3 c :=
  Phi_out3 V c _ (by rw [Fin.val_last]; have : cfg3.N = 100 := N_3; omega)

end Cert.KernelIdeal.Hand
end
-- ==== Proof.KI.Run.lean ====
import proofs.«104075_j8031588844234_2_alg».proof.Proof.KI.Reg0
import proofs.«104075_j8031588844234_2_alg».proof.Proof.KI.Reg1
import proofs.«104075_j8031588844234_2_alg».proof.Proof.KI.Reg2
import proofs.«104075_j8031588844234_2_alg».proof.Proof.KI.Reg3
import proofs.«104075_j8031588844234_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-
  The run of the whole program: its four kernel regions among the stretches of host operations, from the launch
  memory to the return. The contents of every unscoped buffer at each boundary are a fold from the launch memory: a
  host stretch applies its operations, a region leaves its output array at what its write-backs give and every other
  buffer as entered. The run ends with every unscoped buffer at the last stage of that fold; the frame (each argument
  ends as launched) and the result's contents are both read off it.
-/
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the first three host stretches (region 0's entry). -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b

/-- At region 0's exit: its arrays at what the pipeline leaves (an input as entered, the output's write-backs folded),
    every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- After the host stretch between regions 0 and 1. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b

/-- At region 1's exit: its arrays at what the pipeline leaves (an input as entered, the output's write-backs folded),
    every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- After the host stretch between regions 1 and 2. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b

/-- At region 2's exit: its arrays at what the pipeline leaves (an input as entered, the output's write-backs folded),
    every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- The same read at the TensorCore's references. -/
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-- After the host stretch between regions 2 and 3. -/
abbrev W9 : Dev nD → Valuation τ sig (Elt F) := fun c => StableHlo.after hostOps3 (W8 m c)
abbrev V9 : (c : Dev nD) → (b : Ref sig .tc) → Buf (Elt F) ((c : Thread nD τ).loc b) := fun c b => W9 m c b

/-- At region 3's exit: its arrays at what the pipeline leaves (an input as entered, the output's write-backs folded),
    every other buffer as entered. -/
def W10 (c : Dev nD) : Valuation τ sig (Elt F) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
/-- The same read at the TensorCore's references. -/
abbrev V10 : (c : Dev nD) → (b : Ref sig .tc) → Buf (Elt F) ((c : Thread nD τ).loc b) := fun c b => W10 m c b
theorem hF3 (c : Dev nD) (w : Fin cfg3.W) : (dat3 (V9 m) c).arrAt w cfg3.N = V10 m c (Pipeline.arrRef spec3 w) :=
  (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 over the thread state: entered from every unscoped buffer at `W3`, left at `W4`. Its arrays are split
    out of the unscoped buffers and put back at the exit contents; the generator register goes into the region's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split
    out of the unscoped buffers and put back at the exit contents; the generator register goes into the region's
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`. Its arrays are split
    out of the unscoped buffers and put back at the exit contents; the generator register goes into the region's
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W9`, left at `W10`. Its arrays are split
    out of the unscoped buffers and put back at the exit contents; the generator register goes into the region's
    invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h3 := hin3 (V9 m) c
    unfold Pipeline.ΦA at h3
    rw [show (pdats m 3 c).Φ 0 = (dat3 (V9 m) c).Φ 0 from rfl]
    iintro ⟨Hp, -, Hr⟩
    iapply h3
    isplitl [Hr]; · iexact Hr
    iexact Hp
  hout c := by
    have h3 := hout3 (V9 m) c
    unfold Pipeline.ΦA at h3
    rw [Pipeline.ownSems0_none, show (pdats m 3 c).Φ (Fin.last _) = (dat3 (V9 m) c).Φ (Fin.last _) from rfl]
    iintro HPhi
    ihave Hx := h3 $$ HPhi
    icases Hx with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer of every core at the last stage of the fold. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.KernelIdeal.Hand

end
-- ==== Proof.KI.Post.lean ====
import proofs.«104075_j8031588844234_2_alg».proof.Proof.KI.Run

/-
  What the run's last stage holds at the argument arrays and at the result: each argument as launched (no host
  operation writes an argument, and a region at most reads it), the result at what the last region's write-back leaves.
-/
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- `main_arg0` reaches the end as launched: no host operation writes it and a region at most reads it. -/
theorem W10_main_arg0 (c : Dev nD) : W10 m c (Proc.devRef .tc main_arg0) = m ((c : Thread nD τ).loc main_arg0) :=
  calc W10 m c (Proc.devRef .tc main_arg0)
    _ = W9 m c (Proc.devRef .tc main_arg0) := W10_of_ne m c main_arg0 (by decide)
    _ = W8 m c (Proc.devRef .tc main_arg0) := StableHlo.after_of_writes_sub hostOps3 _ hostOps3_writes (by decide)
    _ = W7 m c (Proc.devRef .tc main_arg0) := W8_of_ne m c main_arg0 (by decide)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1 _ hostOps1_writes (by decide)
    _ = W3 m c (Proc.devRef .tc main_arg0) := (W4_arr m c 0).trans (((dat0 (V3 m) c).arrAt_in 0 rfl _).trans (A_eq0 (V3 m) c 0))
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

/-- `main_arg1` reaches the end as launched: no host operation writes it and a region at most reads it. -/
theorem W10_main_arg1 (c : Dev nD) : W10 m c (Proc.devRef .tc main_arg1) = m ((c : Thread nD τ).loc main_arg1) :=
  calc W10 m c (Proc.devRef .tc main_arg1)
    _ = W9 m c (Proc.devRef .tc main_arg1) := W10_of_ne m c main_arg1 (by decide)
    _ = W8 m c (Proc.devRef .tc main_arg1) := StableHlo.after_of_writes_sub hostOps3 _ hostOps3_writes (by decide)
    _ = W7 m c (Proc.devRef .tc main_arg1) := W8_of_ne m c main_arg1 (by decide)
    _ = W6 m c (Proc.devRef .tc main_arg1) := StableHlo.after_of_writes_sub hostOps2 _ hostOps2_writes (by decide)
    _ = W5 m c (Proc.devRef .tc main_arg1) := W6_of_ne m c main_arg1 (by decide)
    _ = W4 m c (Proc.devRef .tc main_arg1) := StableHlo.after_of_writes_sub hostOps1 _ hostOps1_writes (by decide)
    _ = W3 m c (Proc.devRef .tc main_arg1) := W4_of_ne m c main_arg1 (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl

/-- `main_arg2` reaches the end as launched: no host operation writes it and a region at most reads it. -/
theorem W10_main_arg2 (c : Dev nD) : W10 m c (Proc.devRef .tc main_arg2) = m ((c : Thread nD τ).loc main_arg2) :=
  calc W10 m c (Proc.devRef .tc main_arg2)
    _ = W9 m c (Proc.devRef .tc main_arg2) := W10_of_ne m c main_arg2 (by decide)
    _ = W8 m c (Proc.devRef .tc main_arg2) := StableHlo.after_of_writes_sub hostOps3 _ hostOps3_writes (by decide)
    _ = W7 m c (Proc.devRef .tc main_arg2) := W8_of_ne m c main_arg2 (by decide)
    _ = W6 m c (Proc.devRef .tc main_arg2) := StableHlo.after_of_writes_sub hostOps2 _ hostOps2_writes (by decide)
    _ = W5 m c (Proc.devRef .tc main_arg2) := W6_of_ne m c main_arg2 (by decide)
    _ = W4 m c (Proc.devRef .tc main_arg2) := StableHlo.after_of_writes_sub hostOps1 _ hostOps1_writes (by decide)
    _ = W3 m c (Proc.devRef .tc main_arg2) := (W4_arr m c 1).trans (((dat0 (V3 m) c).arrAt_in 1 rfl _).trans (A_eq0 (V3 m) c 1))
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl

/-- `main_arg3` reaches the end as launched: no host operation writes it and a region at most reads it. -/
theorem W10_main_arg3 (c : Dev nD) : W10 m c (Proc.devRef .tc main_arg3) = m ((c : Thread nD τ).loc main_arg3) :=
  calc W10 m c (Proc.devRef .tc main_arg3)
    _ = W9 m c (Proc.devRef .tc main_arg3) := W10_of_ne m c main_arg3 (by decide)
    _ = W8 m c (Proc.devRef .tc main_arg3) := StableHlo.after_of_writes_sub hostOps3 _ hostOps3_writes (by decide)
    _ = W7 m c (Proc.devRef .tc main_arg3) := W8_of_ne m c main_arg3 (by decide)
    _ = W6 m c (Proc.devRef .tc main_arg3) := StableHlo.after_of_writes_sub hostOps2 _ hostOps2_writes (by decide)
    _ = W5 m c (Proc.devRef .tc main_arg3) := W6_of_ne m c main_arg3 (by decide)
    _ = W4 m c (Proc.devRef .tc main_arg3) := StableHlo.after_of_writes_sub hostOps1 _ hostOps1_writes (by decide)
    _ = W3 m c (Proc.devRef .tc main_arg3) := W4_of_ne m c main_arg3 (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl

/-- `main_arg4` reaches the end as launched: no host operation writes it and a region at most reads it. -/
theorem W10_main_arg4 (c : Dev nD) : W10 m c (Proc.devRef .tc main_arg4) = m ((c : Thread nD τ).loc main_arg4) :=
  calc W10 m c (Proc.devRef .tc main_arg4)
    _ = W9 m c (Proc.devRef .tc main_arg4) := W10_of_ne m c main_arg4 (by decide)
    _ = W8 m c (Proc.devRef .tc main_arg4) := StableHlo.after_of_writes_sub hostOps3 _ hostOps3_writes (by decide)
    _ = W7 m c (Proc.devRef .tc main_arg4) := W8_of_ne m c main_arg4 (by decide)
    _ = W6 m c (Proc.devRef .tc main_arg4) := StableHlo.after_of_writes_sub hostOps2 _ hostOps2_writes (by decide)
    _ = W5 m c (Proc.devRef .tc main_arg4) := (W6_arr m c 2).trans (((dat1 (V5 m) c).arrAt_in 2 rfl _).trans (A_eq1 (V5 m) c 2))
    _ = W4 m c (Proc.devRef .tc main_arg4) := StableHlo.after_of_writes_sub hostOps1 _ hostOps1_writes (by decide)
    _ = W3 m c (Proc.devRef .tc main_arg4) := W4_of_ne m c main_arg4 (by decide)
    _ = W2 m c (Proc.devRef .tc main_arg4) := StableHlo.after_of_writes_sub hostOps0_2 _ hostOps0_2_writes (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl

/-- `main_arg5` reaches the end as launched: no host operation writes it and a region at most reads it. -/
theorem W10_main_arg5 (c : Dev nD) : W10 m c (Proc.devRef .tc main_arg5) = m ((c : Thread nD τ).loc main_arg5) :=
  calc W10 m c (Proc.devRef .tc main_arg5)
    _ = W9 m c (Proc.devRef .tc main_arg5) := W10_of_ne m c main_arg5 (by decide)
    _ = W8 m c (Proc.devRef .tc main_arg5) := StableHlo.after_of_writes_sub hostOps3 _ hostOps3_writes (by decide)
    _ = W7 m c (Proc.devRef .tc main_arg5) := W8_of_ne m c main_arg5 (by decide)
    _ = W6 m c (Proc.devRef .tc main_arg5) := StableHlo.after_of_writes_sub hostOps2 _ hostOps2_writes (by decide)
    _ = W5 m c (Proc.devRef .tc main_arg5) := W6_of_ne m c main_arg5 (by decide)
    _ = W4 m c (Proc.devRef .tc main_arg5) := StableHlo.after_of_writes_sub hostOps1 _ hostOps1_writes (by decide)
    _ = W3 m c (Proc.devRef .tc main_arg5) := W4_of_ne m c main_arg5 (by decide)
    _ = W2 m c (Proc.devRef .tc main_arg5) := StableHlo.after_of_writes_sub hostOps0_2 _ hostOps0_2_writes (by decide)
    _ = W1 m c (Proc.devRef .tc main_arg5) := StableHlo.after_of_writes_sub hostOps0_1 _ hostOps0_1_writes (by decide)
    _ = W0 m c (Proc.devRef .tc main_arg5) := StableHlo.after_of_writes_sub hostOps0 _ hostOps0_writes (by decide)
    _ = m ((c : Thread nD τ).loc main_arg5) := rfl

/-- `main_arg6` reaches the end as launched: no host operation writes it and a region at most reads it. -/
theorem W10_main_arg6 (c : Dev nD) : W10 m c (Proc.devRef .tc main_arg6) = m ((c : Thread nD τ).loc main_arg6) :=
  calc W10 m c (Proc.devRef .tc main_arg6)
    _ = W9 m c (Proc.devRef .tc main_arg6) := (W10_arr m c 1).trans (((dat3 (V9 m) c).arrAt_in 1 rfl _).trans (A_eq3 (V9 m) c 1))
    _ = W8 m c (Proc.devRef .tc main_arg6) := StableHlo.after_of_writes_sub hostOps3 _ hostOps3_writes (by decide)
    _ = W7 m c (Proc.devRef .tc main_arg6) := W8_of_ne m c main_arg6 (by decide)
    _ = W6 m c (Proc.devRef .tc main_arg6) := StableHlo.after_of_writes_sub hostOps2 _ hostOps2_writes (by decide)
    _ = W5 m c (Proc.devRef .tc main_arg6) := W6_of_ne m c main_arg6 (by decide)
    _ = W4 m c (Proc.devRef .tc main_arg6) := StableHlo.after_of_writes_sub hostOps1 _ hostOps1_writes (by decide)
    _ = W3 m c (Proc.devRef .tc main_arg6) := W4_of_ne m c main_arg6 (by decide)
    _ = W2 m c (Proc.devRef .tc main_arg6) := StableHlo.after_of_writes_sub hostOps0_2 _ hostOps0_2_writes (by decide)
    _ = W1 m c (Proc.devRef .tc main_arg6) := StableHlo.after_of_writes_sub hostOps0_1 _ hostOps0_1_writes (by decide)
    _ = W0 m c (Proc.devRef .tc main_arg6) := StableHlo.after_of_writes_sub hostOps0 _ hostOps0_writes (by decide)
    _ = m ((c : Thread nD τ).loc main_arg6) := rfl

/-- `main_arg7` reaches the end as launched: no host operation writes it and a region at most reads it. -/
theorem W10_main_arg7 (c : Dev nD) : W10 m c (Proc.devRef .tc main_arg7) = m ((c : Thread nD τ).loc main_arg7) :=
  calc W10 m c (Proc.devRef .tc main_arg7)
    _ = W9 m c (Proc.devRef .tc main_arg7) := W10_of_ne m c main_arg7 (by decide)
    _ = W8 m c (Proc.devRef .tc main_arg7) := StableHlo.after_of_writes_sub hostOps3 _ hostOps3_writes (by decide)
    _ = W7 m c (Proc.devRef .tc main_arg7) := W8_of_ne m c main_arg7 (by decide)
    _ = W6 m c (Proc.devRef .tc main_arg7) := StableHlo.after_of_writes_sub hostOps2 _ hostOps2_writes (by decide)
    _ = W5 m c (Proc.devRef .tc main_arg7) := W6_of_ne m c main_arg7 (by decide)
    _ = W4 m c (Proc.devRef .tc main_arg7) := StableHlo.after_of_writes_sub hostOps1 _ hostOps1_writes (by decide)
    _ = W3 m c (Proc.devRef .tc main_arg7) := W4_of_ne m c main_arg7 (by decide)
    _ = W2 m c (Proc.devRef .tc main_arg7) := StableHlo.after_of_writes_sub hostOps0_2 _ hostOps0_2_writes (by decide)
    _ = W1 m c (Proc.devRef .tc main_arg7) := StableHlo.after_of_writes_sub hostOps0_1 _ hostOps0_1_writes (by decide)
    _ = W0 m c (Proc.devRef .tc main_arg7) := StableHlo.after_of_writes_sub hostOps0 _ hostOps0_writes (by decide)
    _ = m ((c : Thread nD τ).loc main_arg7) := rfl

/-- The result array ends at what region 3's one write-back leaves. -/
theorem W10_result (c : Dev nD) : W10 m c (Proc.devRef .tc main_v62) = (dat3 (V9 m) c).arrAt 3 cfg3.N :=
  W10_arr m c 3

/-- THE FRAME at any float instance: every weakly fair execution terminates, nothing faulting, each argument array as
    launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
      (h c _ (mem_uc main_arg0 (by decide))).trans (W10_main_arg0 m c),
      (h c _ (mem_uc main_arg1 (by decide))).trans (W10_main_arg1 m c),
      (h c _ (mem_uc main_arg2 (by decide))).trans (W10_main_arg2 m c),
      (h c _ (mem_uc main_arg3 (by decide))).trans (W10_main_arg3 m c),
      (h c _ (mem_uc main_arg4 (by decide))).trans (W10_main_arg4 m c),
      (h c _ (mem_uc main_arg5 (by decide))).trans (W10_main_arg5 m c),
      (h c _ (mem_uc main_arg6 (by decide))).trans (W10_main_arg6 m c),
      (h c _ (mem_uc main_arg7 (by decide))).trans (W10_main_arg7 m c)⟩) (run_all m ρ)

/-- The same run with the result named too. -/
theorem run_result (ρ : Dev nD → PrngReg) : θ_run defs (onTc (τ := τ) (main (F := F))) ⟨m, fun _ => 0, ρ⟩ (fun r => ∀ c : Dev nD,
      r.2.mem ((c.tc : Thread nD τ).loc main_v62) = (dat3 (V9 m) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
      (h c _ (mem_uc main_v62 (by decide))).trans (W10_result m c),
      (h c _ (mem_uc main_arg0 (by decide))).trans (W10_main_arg0 m c),
      (h c _ (mem_uc main_arg1 (by decide))).trans (W10_main_arg1 m c),
      (h c _ (mem_uc main_arg2 (by decide))).trans (W10_main_arg2 m c),
      (h c _ (mem_uc main_arg3 (by decide))).trans (W10_main_arg3 m c),
      (h c _ (mem_uc main_arg4 (by decide))).trans (W10_main_arg4 m c),
      (h c _ (mem_uc main_arg5 (by decide))).trans (W10_main_arg5 m c),
      (h c _ (mem_uc main_arg6 (by decide))).trans (W10_main_arg6 m c),
      (h c _ (mem_uc main_arg7 (by decide))).trans (W10_main_arg7 m c)⟩) (run_all m ρ)

end Cert.KernelIdeal.Hand

end
-- ==== Proof.KI.Fin0.lean ====
import proofs.«104075_j8031588844234_2_alg».proof.Proof.KI.Reg0
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
-- the TensorCore's buffer contents when the region is entered
variable (V : (c : Dev nD) → (b : Ref sig .tc) → Buf (Elt F) ((c : Thread nD τ).loc b))

/-! # Region 0: the output array after the run, as one function of the input arrays -/

/-- The `t`-th band of 10000 rows of an array of 80000 rows and 128 columns. -/
def rows128 (x : S80000x128.Idx → Elt F .f32) (t : Fin 8) : Vec F S10000x128 .f32 :=
  fun y => x (ix2 ⟨10000 * t.val + (y 0).val, by have h0 := idx2_lt0 y; have ht := t.isLt; omega⟩ ⟨(y 1).val, idx2_lt1 y⟩)

/-- The output array from the input arrays: row `r` is row `r % 10000` of the kernel's value on band `r / 10000`
    of the first input and the whole of the others. -/
def G0 (a0 : S80000x128.Idx → Elt F .f32) (a1 : S128x32.Idx → Elt F .f32) : S80000x32.Idx → Elt F .f32 :=
  fun i => k0_pay1 (rows128 a0 ⟨(i 0).val / 10000, by have h := idx2_lt0 i; omega⟩) a1
    (ix2 ⟨(i 0).val % 10000, Nat.mod_lt _ (by decide)⟩ ⟨(i 1).val, idx2_lt1 i⟩)

/-- `G0` at row `10000 * t + r`, `r < 10000`: row `r` of the kernel's value on band `t`. -/
theorem G0_at (a0 : S80000x128.Idx → Elt F .f32) (a1 : S128x32.Idx → Elt F .f32)
    (i : S80000x32.Idx) (t : Fin 8) (j : S10000x32.Idx)
    (h0 : (i 0).val = 10000 * t.val + (j 0).val) (h1 : (i 1).val = (j 1).val) :
    G0 a0 a1 i = k0_pay1 (rows128 a0 t) a1 j := by
  have hj := idx2_lt0 j
  have ht : (⟨(i 0).val / 10000, by have h := idx2_lt0 i; omega⟩ : Fin 8) = t := Fin.ext (by show (i 0).val / 10000 = t.val; omega)
  have hx : (ix2 ⟨(i 0).val % 10000, Nat.mod_lt _ (by decide)⟩ ⟨(i 1).val, idx2_lt1 i⟩ : S10000x32.Idx) = j := by
    funext a; apply Fin.ext
    match a with
    | ⟨0, _⟩ => show (i 0).val % 10000 = (j 0).val; omega
    | ⟨1, _⟩ => show (i 1).val = (j 1).val; exact h1
  unfold G0
  rw [ht, hx]

theorem zeroOff0 : (![0, 0] : Fin 2 → Nat) = fun _ => 0 := funext fun a => by fin_cases a <;> rfl

/-- The printed index maps, decided over the grid: the first input and the output are at block `t` of the rows at point
    `t`, the other inputs at their one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt8_0 (t : Fin cfg0.N) : t.val < 8 := Nat.lt_of_lt_of_eq t.isLt N_0

/-- The first input's block at point `t` is band `t` of its array. -/
theorem blk0_0 (c : Dev nD) (t : Fin cfg0.N) : iblk0 V c 0 t = rows128 (V c main_arg0) ⟨t.val, lt8_0 t⟩ := by
  obtain ⟨e00, e01, e10, e11, e20, e21⟩ := idx0 t
  funext y
  show V c main_arg0 (((cfg0.win 0).blk t).view.emb y) = V c main_arg0 (ix2 ⟨10000 * t.val + (y 0).val, _⟩ ⟨(y 1).val, _⟩)
  refine congrArg _ ?_
  funext a; apply Fin.ext
  match a with
  | ⟨0, _⟩ => show win0_0.index t (0 : Fin 2) * 10000 + 1 * (y 0).val = 10000 * t.val + (y 0).val; omega
  | ⟨1, _⟩ => show win0_0.index t (1 : Fin 2) * 128 + 1 * (y 1).val = (y 1).val; omega

/-- Input 1's block at every point is its whole array. -/
theorem blk0_1 (c : Dev nD) (t : Fin cfg0.N) : iblk0 V c 1 t = (V c main_arg2 : S128x32.Idx → Elt F .f32) := by
  obtain ⟨e00, e01, e10, e11, e20, e21⟩ := idx0 t
  funext y
  show V c main_arg2 (((cfg0.win 1).blk t).view.emb y) = V c main_arg2 y
  refine congrArg _ ?_
  funext a; apply Fin.ext
  match a with
  | ⟨0, _⟩ => show win0_1.index t (0 : Fin 2) * 128 + 1 * (y 0).val = (y 0).val; omega
  | ⟨1, _⟩ => show win0_1.index t (1 : Fin 2) * 32 + 1 * (y 1).val = (y 1).val; omega

/-- What point `t` writes back is block `t` of `G0` of the input arrays as the region finds them. -/
theorem flushed0_eq (c : Dev nD) (t : Fin cfg0.N) :
    (dat0 V c).flushed 2 t = ((cfg0.win 2).blk t).view.read (Elt F) (G0 (V c main_arg0) (V c main_arg2)) := by
  show (cfg0.win 2).cut (grid0.coords t) ((dat0 V c).after 2 t) = _
  rw [after0_2]
  unfold out0_2
  rw [View.canon_unit_zero zeroOff0]
  simp only [View.ld_unit_zero (S := S10000x128) zeroOff0, View.ld_unit_zero (S := S128x32) zeroOff0]
  obtain ⟨e00, e01, e10, e11, e20, e21⟩ := idx0 t
  funext j
  show k0_pay1 (iblk0 V c 0 t) (iblk0 V c 1 t) j = G0 (V c main_arg0) (V c main_arg2) (((cfg0.win 2).blk t).view.emb j)
  rw [blk0_0 V c t, blk0_1 V c t]
  exact (G0_at _ _ _ ⟨t.val, lt8_0 t⟩ j
    (by show win0_2.index t (0 : Fin 2) * 10000 + 1 * (j 0).val = 10000 * t.val + (j 0).val; omega)
    (by show win0_2.index t (1 : Fin 2) * 32 + 1 * (j 1).val = (j 1).val; omega)).symm

/-- An index of the array is in point `t`'s block iff each coordinate is in the block's range on its axis. -/
theorem mem_blk0 (t : Fin cfg0.N) (i : S80000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v31).slice (win0_2.rect t)).set ↔ _
  rw [View.set_slice_whole, Rect.mem_set_unit]
  exact Iff.rfl

/-- Every index of the array is in the block of the point its row's band names, and every point writes back. -/
theorem cover0 (i : S80000x32.Idx) :
    ∃ t : Fin cfg0.N, (cfg0.win 2).flush t = true ∧ i ∈ ((cfg0.win 2).blk t).view.set := by
  have hi0 := idx2_lt0 i
  have hi1 := idx2_lt1 i
  have hN : (i 0).val / 10000 < cfg0.N := Nat.lt_of_lt_of_eq (by omega : (i 0).val / 10000 < 8) N_0.symm
  obtain ⟨e00, e01, e10, e11, e20, e21⟩ := idx0 ⟨(i 0).val / 10000, hN⟩
  refine ⟨⟨(i 0).val / 10000, hN⟩, flush0_2 _, ?_⟩
  rw [mem_blk0]
  intro a
  match a with
  | ⟨0, _⟩ =>
    show win0_2.index ⟨(i 0).val / 10000, hN⟩ (0 : Fin 2) * 10000 ≤ (i 0).val ∧ (i 0).val < win0_2.index ⟨(i 0).val / 10000, hN⟩ (0 : Fin 2) * 10000 + 10000
    rw [e20]; show (i 0).val / 10000 * 10000 ≤ (i 0).val ∧ (i 0).val < (i 0).val / 10000 * 10000 + 10000; omega
  | ⟨1, _⟩ =>
    show win0_2.index ⟨(i 0).val / 10000, hN⟩ (1 : Fin 2) * 32 ≤ (i 1).val ∧ (i 1).val < win0_2.index ⟨(i 0).val / 10000, hN⟩ (1 : Fin 2) * 32 + 32
    rw [e21]; omega

/-- The output array after the run is `G0` of the input arrays as the region finds them. -/
theorem final0 (c : Dev nD) : (dat0 V c).arrAt 2 cfg0.N = G0 (V c main_arg0) (V c main_arg2) :=
  (dat0 V c).arrAt_eq_of_cover 2 (G0 (V c main_arg0) (V c main_arg2)) (fun t _ => flushed0_eq V c t) cover0

end Cert.KernelIdeal.Hand

end
-- ==== Proof.KI.Fin1.lean ====
import proofs.«104075_j8031588844234_2_alg».proof.Proof.KI.Reg1
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
-- the TensorCore's buffer contents when the region is entered
variable (V : (c : Dev nD) → (b : Ref sig .tc) → Buf (Elt F) ((c : Thread nD τ).loc b))

/-! # Region 1: the output array after the run, as one function of the input arrays -/

/-- The `t`-th band of 10000 rows of an array of 80000 rows and 32 columns. -/
def rows32 (x : S80000x32.Idx → Elt F .f32) (t : Fin 8) : Vec F S10000x32 .f32 :=
  fun y => x (ix2 ⟨10000 * t.val + (y 0).val, by have h0 := idx2_lt0 y; have ht := t.isLt; omega⟩ ⟨(y 1).val, idx2_lt1 y⟩)

/-- The output array from the input arrays: row `r` is row `r % 10000` of the kernel's value on band `r / 10000`
    of the first input and the whole of the others. -/
def G1 (a0 : S80000x32.Idx → Elt F .f32) (a1 : S1x32.Idx → Elt F .f32) (a2 : S32x64.Idx → Elt F .f32) : S80000x64.Idx → Elt F .f32 :=
  fun i => k1_pay1 (rows32 a0 ⟨(i 0).val / 10000, by have h := idx2_lt0 i; omega⟩) a1 a2
    (ix2 ⟨(i 0).val % 10000, Nat.mod_lt _ (by decide)⟩ ⟨(i 1).val, idx2_lt1 i⟩)

/-- `G1` at row `10000 * t + r`, `r < 10000`: row `r` of the kernel's value on band `t`. -/
theorem G1_at (a0 : S80000x32.Idx → Elt F .f32) (a1 : S1x32.Idx → Elt F .f32) (a2 : S32x64.Idx → Elt F .f32)
    (i : S80000x64.Idx) (t : Fin 8) (j : S10000x64.Idx)
    (h0 : (i 0).val = 10000 * t.val + (j 0).val) (h1 : (i 1).val = (j 1).val) :
    G1 a0 a1 a2 i = k1_pay1 (rows32 a0 t) a1 a2 j := by
  have hj := idx2_lt0 j
  have ht : (⟨(i 0).val / 10000, by have h := idx2_lt0 i; omega⟩ : Fin 8) = t := Fin.ext (by show (i 0).val / 10000 = t.val; omega)
  have hx : (ix2 ⟨(i 0).val % 10000, Nat.mod_lt _ (by decide)⟩ ⟨(i 1).val, idx2_lt1 i⟩ : S10000x64.Idx) = j := by
    funext a; apply Fin.ext
    match a with
    | ⟨0, _⟩ => show (i 0).val % 10000 = (j 0).val; omega
    | ⟨1, _⟩ => show (i 1).val = (j 1).val; exact h1
  unfold G1
  rw [ht, hx]

theorem zeroOff1 : (![0, 0] : Fin 2 → Nat) = fun _ => 0 := funext fun a => by fin_cases a <;> rfl

/-- The printed index maps, decided over the grid: the first input and the output are at block `t` of the rows at point
    `t`, the other inputs at their one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt8_1 (t : Fin cfg1.N) : t.val < 8 := Nat.lt_of_lt_of_eq t.isLt N_1

/-- The first input's block at point `t` is band `t` of its array. -/
theorem blk1_0 (c : Dev nD) (t : Fin cfg1.N) : iblk1 V c 0 t = rows32 (V c main_v43) ⟨t.val, lt8_1 t⟩ := by
  obtain ⟨e00, e01, e10, e11, e20, e21, e30, e31⟩ := idx1 t
  funext y
  show V c main_v43 (((cfg1.win 0).blk t).view.emb y) = V c main_v43 (ix2 ⟨10000 * t.val + (y 0).val, _⟩ ⟨(y 1).val, _⟩)
  refine congrArg _ ?_
  funext a; apply Fin.ext
  match a with
  | ⟨0, _⟩ => show win1_0.index t (0 : Fin 2) * 10000 + 1 * (y 0).val = 10000 * t.val + (y 0).val; omega
  | ⟨1, _⟩ => show win1_0.index t (1 : Fin 2) * 32 + 1 * (y 1).val = (y 1).val; omega

/-- Input 1's block at every point is its whole array. -/
theorem blk1_1 (c : Dev nD) (t : Fin cfg1.N) : iblk1 V c 1 t = (V c main_v44 : S1x32.Idx → Elt F .f32) := by
  obtain ⟨e00, e01, e10, e11, e20, e21, e30, e31⟩ := idx1 t
  funext y
  show V c main_v44 (((cfg1.win 1).blk t).view.emb y) = V c main_v44 y
  refine congrArg _ ?_
  funext a; apply Fin.ext
  match a with
  | ⟨0, _⟩ => show win1_1.index t (0 : Fin 2) * 1 + 1 * (y 0).val = (y 0).val; omega
  | ⟨1, _⟩ => show win1_1.index t (1 : Fin 2) * 32 + 1 * (y 1).val = (y 1).val; omega

/-- Input 2's block at every point is its whole array. -/
theorem blk1_2 (c : Dev nD) (t : Fin cfg1.N) : iblk1 V c 2 t = (V c main_arg4 : S32x64.Idx → Elt F .f32) := by
  obtain ⟨e00, e01, e10, e11, e20, e21, e30, e31⟩ := idx1 t
  funext y
  show V c main_arg4 (((cfg1.win 2).blk t).view.emb y) = V c main_arg4 y
  refine congrArg _ ?_
  funext a; apply Fin.ext
  match a with
  | ⟨0, _⟩ => show win1_2.index t (0 : Fin 2) * 32 + 1 * (y 0).val = (y 0).val; omega
  | ⟨1, _⟩ => show win1_2.index t (1 : Fin 2) * 64 + 1 * (y 1).val = (y 1).val; omega

/-- What point `t` writes back is block `t` of `G1` of the input arrays as the region finds them. -/
theorem flushed1_eq (c : Dev nD) (t : Fin cfg1.N) :
    (dat1 V c).flushed 3 t = ((cfg1.win 3).blk t).view.read (Elt F) (G1 (V c main_v43) (V c main_v44) (V c main_arg4)) := by
  show (cfg1.win 3).cut (grid1.coords t) ((dat1 V c).after 3 t) = _
  rw [after1_3]
  unfold out1_3
  rw [View.canon_unit_zero zeroOff1]
  simp only [View.ld_unit_zero (S := S10000x32) zeroOff1, View.ld_unit_zero (S := S1x32) zeroOff1, View.ld_unit_zero (S := S32x64) zeroOff1]
  obtain ⟨e00, e01, e10, e11, e20, e21, e30, e31⟩ := idx1 t
  funext j
  show k1_pay1 (iblk1 V c 0 t) (iblk1 V c 1 t) (iblk1 V c 2 t) j = G1 (V c main_v43) (V c main_v44) (V c main_arg4) (((cfg1.win 3).blk t).view.emb j)
  rw [blk1_0 V c t, blk1_1 V c t, blk1_2 V c t]
  exact (G1_at _ _ _ _ ⟨t.val, lt8_1 t⟩ j
    (by show win1_3.index t (0 : Fin 2) * 10000 + 1 * (j 0).val = 10000 * t.val + (j 0).val; omega)
    (by show win1_3.index t (1 : Fin 2) * 64 + 1 * (j 1).val = (j 1).val; omega)).symm

/-- An index of the array is in point `t`'s block iff each coordinate is in the block's range on its axis. -/
theorem mem_blk1 (t : Fin cfg1.N) (i : S80000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v45).slice (win1_3.rect t)).set ↔ _
  rw [View.set_slice_whole, Rect.mem_set_unit]
  exact Iff.rfl

/-- Every index of the array is in the block of the point its row's band names, and every point writes back. -/
theorem cover1 (i : S80000x64.Idx) :
    ∃ t : Fin cfg1.N, (cfg1.win 3).flush t = true ∧ i ∈ ((cfg1.win 3).blk t).view.set := by
  have hi0 := idx2_lt0 i
  have hi1 := idx2_lt1 i
  have hN : (i 0).val / 10000 < cfg1.N := Nat.lt_of_lt_of_eq (by omega : (i 0).val / 10000 < 8) N_1.symm
  obtain ⟨e00, e01, e10, e11, e20, e21, e30, e31⟩ := idx1 ⟨(i 0).val / 10000, hN⟩
  refine ⟨⟨(i 0).val / 10000, hN⟩, flush1_3 _, ?_⟩
  rw [mem_blk1]
  intro a
  match a with
  | ⟨0, _⟩ =>
    show win1_3.index ⟨(i 0).val / 10000, hN⟩ (0 : Fin 2) * 10000 ≤ (i 0).val ∧ (i 0).val < win1_3.index ⟨(i 0).val / 10000, hN⟩ (0 : Fin 2) * 10000 + 10000
    rw [e30]; show (i 0).val / 10000 * 10000 ≤ (i 0).val ∧ (i 0).val < (i 0).val / 10000 * 10000 + 10000; omega
  | ⟨1, _⟩ =>
    show win1_3.index ⟨(i 0).val / 10000, hN⟩ (1 : Fin 2) * 64 ≤ (i 1).val ∧ (i 1).val < win1_3.index ⟨(i 0).val / 10000, hN⟩ (1 : Fin 2) * 64 + 64
    rw [e31]; omega

/-- The output array after the run is `G1` of the input arrays as the region finds them. -/
theorem final1 (c : Dev nD) : (dat1 V c).arrAt 3 cfg1.N = G1 (V c main_v43) (V c main_v44) (V c main_arg4) :=
  (dat1 V c).arrAt_eq_of_cover 3 (G1 (V c main_v43) (V c main_v44) (V c main_arg4)) (fun t _ => flushed1_eq V c t) cover1

end Cert.KernelIdeal.Hand

end
-- ==== Proof.KI.Fin2.lean ====
import proofs.«104075_j8031588844234_2_alg».proof.Proof.KI.Reg2
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
-- the TensorCore's buffer contents when the region is entered
variable (V : (c : Dev nD) → (b : Ref sig .tc) → Buf (Elt F) ((c : Thread nD τ).loc b))

/-! # Region 2: the output array after the run, as one function of the input arrays -/

/-- The `t`-th band of 10000 rows of an array of 80000 rows and 64 columns. -/
def rows64 (x : S80000x64.Idx → Elt F .f32) (t : Fin 8) : Vec F S10000x64 .f32 :=
  fun y => x (ix2 ⟨10000 * t.val + (y 0).val, by have h0 := idx2_lt0 y; have ht := t.isLt; omega⟩ ⟨(y 1).val, idx2_lt1 y⟩)

/-- The output array from the input arrays: row `r` is row `r % 10000` of the kernel's value on band `r / 10000`
    of the first input and the whole of the others. -/
def G2 (a0 : S80000x64.Idx → Elt F .f32) (a1 : S1x64.Idx → Elt F .f32) : S80000x64.Idx → Elt F .f32 :=
  fun i => k2_pay1 (rows64 a0 ⟨(i 0).val / 10000, by have h := idx2_lt0 i; omega⟩) a1
    (ix2 ⟨(i 0).val % 10000, Nat.mod_lt _ (by decide)⟩ ⟨(i 1).val, idx2_lt1 i⟩)

/-- `G2` at row `10000 * t + r`, `r < 10000`: row `r` of the kernel's value on band `t`. -/
theorem G2_at (a0 : S80000x64.Idx → Elt F .f32) (a1 : S1x64.Idx → Elt F .f32)
    (i : S80000x64.Idx) (t : Fin 8) (j : S10000x64.Idx)
    (h0 : (i 0).val = 10000 * t.val + (j 0).val) (h1 : (i 1).val = (j 1).val) :
    G2 a0 a1 i = k2_pay1 (rows64 a0 t) a1 j := by
  have hj := idx2_lt0 j
  have ht : (⟨(i 0).val / 10000, by have h := idx2_lt0 i; omega⟩ : Fin 8) = t := Fin.ext (by show (i 0).val / 10000 = t.val; omega)
  have hx : (ix2 ⟨(i 0).val % 10000, Nat.mod_lt _ (by decide)⟩ ⟨(i 1).val, idx2_lt1 i⟩ : S10000x64.Idx) = j := by
    funext a; apply Fin.ext
    match a with
    | ⟨0, _⟩ => show (i 0).val % 10000 = (j 0).val; omega
    | ⟨1, _⟩ => show (i 1).val = (j 1).val; exact h1
  unfold G2
  rw [ht, hx]

theorem zeroOff2 : (![0, 0] : Fin 2 → Nat) = fun _ => 0 := funext fun a => by fin_cases a <;> rfl

/-- The printed index maps, decided over the grid: the first input and the output are at block `t` of the rows at point
    `t`, the other inputs at their one block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem lt8_2 (t : Fin cfg2.N) : t.val < 8 := Nat.lt_of_lt_of_eq t.isLt N_2

/-- The first input's block at point `t` is band `t` of its array. -/
theorem blk2_0 (c : Dev nD) (t : Fin cfg2.N) : iblk2 V c 0 t = rows64 (V c main_v57) ⟨t.val, lt8_2 t⟩ := by
  obtain ⟨e00, e01, e10, e11, e20, e21⟩ := idx2 t
  funext y
  show V c main_v57 (((cfg2.win 0).blk t).view.emb y) = V c main_v57 (ix2 ⟨10000 * t.val + (y 0).val, _⟩ ⟨(y 1).val, _⟩)
  refine congrArg _ ?_
  funext a; apply Fin.ext
  match a with
  | ⟨0, _⟩ => show win2_0.index t (0 : Fin 2) * 10000 + 1 * (y 0).val = 10000 * t.val + (y 0).val; omega
  | ⟨1, _⟩ => show win2_0.index t (1 : Fin 2) * 64 + 1 * (y 1).val = (y 1).val; omega

/-- Input 1's block at every point is its whole array. -/
theorem blk2_1 (c : Dev nD) (t : Fin cfg2.N) : iblk2 V c 1 t = (V c main_v58 : S1x64.Idx → Elt F .f32) := by
  obtain ⟨e00, e01, e10, e11, e20, e21⟩ := idx2 t
  funext y
  show V c main_v58 (((cfg2.win 1).blk t).view.emb y) = V c main_v58 y
  refine congrArg _ ?_
  funext a; apply Fin.ext
  match a with
  | ⟨0, _⟩ => show win2_1.index t (0 : Fin 2) * 1 + 1 * (y 0).val = (y 0).val; omega
  | ⟨1, _⟩ => show win2_1.index t (1 : Fin 2) * 64 + 1 * (y 1).val = (y 1).val; omega

/-- What point `t` writes back is block `t` of `G2` of the input arrays as the region finds them. -/
theorem flushed2_eq (c : Dev nD) (t : Fin cfg2.N) :
    (dat2 V c).flushed 2 t = ((cfg2.win 2).blk t).view.read (Elt F) (G2 (V c main_v57) (V c main_v58)) := by
  show (cfg2.win 2).cut (grid2.coords t) ((dat2 V c).after 2 t) = _
  rw [after2_2]
  unfold out2_2
  rw [View.canon_unit_zero zeroOff2]
  simp only [View.ld_unit_zero (S := S10000x64) zeroOff2, View.ld_unit_zero (S := S1x64) zeroOff2]
  obtain ⟨e00, e01, e10, e11, e20, e21⟩ := idx2 t
  funext j
  show k2_pay1 (iblk2 V c 0 t) (iblk2 V c 1 t) j = G2 (V c main_v57) (V c main_v58) (((cfg2.win 2).blk t).view.emb j)
  rw [blk2_0 V c t, blk2_1 V c t]
  exact (G2_at _ _ _ ⟨t.val, lt8_2 t⟩ j
    (by show win2_2.index t (0 : Fin 2) * 10000 + 1 * (j 0).val = 10000 * t.val + (j 0).val; omega)
    (by show win2_2.index t (1 : Fin 2) * 64 + 1 * (j 1).val = (j 1).val; omega)).symm

/-- An index of the array is in point `t`'s block iff each coordinate is in the block's range on its axis. -/
theorem mem_blk2 (t : Fin cfg2.N) (i : S80000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v59).slice (win2_2.rect t)).set ↔ _
  rw [View.set_slice_whole, Rect.mem_set_unit]
  exact Iff.rfl

/-- Every index of the array is in the block of the point its row's band names, and every point writes back. -/
theorem cover2 (i : S80000x64.Idx) :
    ∃ t : Fin cfg2.N, (cfg2.win 2).flush t = true ∧ i ∈ ((cfg2.win 2).blk t).view.set := by
  have hi0 := idx2_lt0 i
  have hi1 := idx2_lt1 i
  have hN : (i 0).val / 10000 < cfg2.N := Nat.lt_of_lt_of_eq (by omega : (i 0).val / 10000 < 8) N_2.symm
  obtain ⟨e00, e01, e10, e11, e20, e21⟩ := idx2 ⟨(i 0).val / 10000, hN⟩
  refine ⟨⟨(i 0).val / 10000, hN⟩, flush2_2 _, ?_⟩
  rw [mem_blk2]
  intro a
  match a with
  | ⟨0, _⟩ =>
    show win2_2.index ⟨(i 0).val / 10000, hN⟩ (0 : Fin 2) * 10000 ≤ (i 0).val ∧ (i 0).val < win2_2.index ⟨(i 0).val / 10000, hN⟩ (0 : Fin 2) * 10000 + 10000
    rw [e20]; show (i 0).val / 10000 * 10000 ≤ (i 0).val ∧ (i 0).val < (i 0).val / 10000 * 10000 + 10000; omega
  | ⟨1, _⟩ =>
    show win2_2.index ⟨(i 0).val / 10000, hN⟩ (1 : Fin 2) * 64 ≤ (i 1).val ∧ (i 1).val < win2_2.index ⟨(i 0).val / 10000, hN⟩ (1 : Fin 2) * 64 + 64
    rw [e21]; omega

/-- The output array after the run is `G2` of the input arrays as the region finds them. -/
theorem final2 (c : Dev nD) : (dat2 V c).arrAt 2 cfg2.N = G2 (V c main_v57) (V c main_v58) :=
  (dat2 V c).arrAt_eq_of_cover 2 (G2 (V c main_v57) (V c main_v58)) (fun t _ => flushed2_eq V c t) cover2

end Cert.KernelIdeal.Hand

end
-- ==== Proof.KI.Fin3.lean ====
import proofs.«104075_j8031588844234_2_alg».proof.Proof.KI.Reg3
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
-- the TensorCore's buffer contents when the region is entered
variable (V : (c : Dev nD) → (b : Ref sig .tc) → Buf (Elt F) ((c : Thread nD τ).loc b))

/-! # Region 3: the output array after the run, as one function of the input arrays -/

/-- The `t`-th band of 6400 columns of an array of 8 rows and 640000 columns. -/
def cols6400 (f : S8x640000.Idx → Elt F .f32) (t : Fin 100) : Vec F S8x6400 .f32 :=
  fun y => f (ix2 ⟨(y 0).val, idx2_lt0 y⟩ ⟨6400 * t.val + (y 1).val, by have h1 := idx2_lt1 y; have ht := t.isLt; omega⟩)

/-- The `t`-th band of 6400 rows of a column of 640000 rows. -/
def rows6400 (w : S640000x1.Idx → Elt F .f32) (t : Fin 100) : Vec F S6400x1 .f32 :=
  fun y => w (ix2 ⟨6400 * t.val + (y 0).val, by have h0 := idx2_lt0 y; have ht := t.isLt; omega⟩ ⟨(y 1).val, idx2_lt1 y⟩)

/-- The running sum after band `n`: the kernel's accumulation over bands `0 … n`, started from its zero fill. -/
def accG (f : S8x640000.Idx → Elt F .f32) (w : S640000x1.Idx → Elt F .f32) : (n : ℕ) → n < 100 → Vec F S8x1 .f32
  | 0, h => k3_pay2 k3_pay1 (cols6400 f ⟨0, h⟩) (rows6400 w ⟨0, h⟩)
  | n + 1, h => k3_pay2 (accG f w n (Nat.lt_of_succ_lt h)) (cols6400 f ⟨n + 1, h⟩) (rows6400 w ⟨n + 1, h⟩)

/-- The output array from the input arrays: the sum over all 100 bands, plus the bias. -/
def G3 (f : S8x640000.Idx → Elt F .f32) (w : S640000x1.Idx → Elt F .f32) (b : S1x1.Idx → Elt F .f32) : S8x1.Idx → Elt F .f32 :=
  k3_pay3 (accG f w 99 (by decide)) b

theorem zeroOff3 : (![0, 0] : Fin 2 → Nat) = fun _ => 0 := funext fun a => by fin_cases a <;> rfl

/-- The printed index maps, decided over the grid: at point `t` the first input is at column block `t`, the second at
    row block `t`, the third input and the output at their one block. -/
theorem idx3 : ∀ t : Fin cfg3.N, win3_0.index t (0 : Fin 2) = 0 ∧ win3_0.index t (1 : Fin 2) = t.val
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

theorem lt100_3 (t : Fin cfg3.N) : t.val < 100 := Nat.lt_of_lt_of_eq t.isLt N_3

/-- The first input's block at point `t` is column band `t` of its array. -/
theorem blk3_0 (c : Dev nD) (t : Fin cfg3.N) : iblk3 V c 0 t = cols6400 (V c main_v60) ⟨t.val, lt100_3 t⟩ := by
  obtain ⟨e00, e01, e10, e11, e20, e21, e30, e31⟩ := idx3 t
  funext y
  show V c main_v60 (((cfg3.win 0).blk t).view.emb y) = V c main_v60 (ix2 ⟨(y 0).val, _⟩ ⟨6400 * t.val + (y 1).val, _⟩)
  refine congrArg _ ?_
  funext a; apply Fin.ext
  match a with
  | ⟨0, _⟩ => show win3_0.index t (0 : Fin 2) * 8 + 1 * (y 0).val = (y 0).val; omega
  | ⟨1, _⟩ => show win3_0.index t (1 : Fin 2) * 6400 + 1 * (y 1).val = 6400 * t.val + (y 1).val; omega

/-- The second input's block at point `t` is row band `t` of its array. -/
theorem blk3_1 (c : Dev nD) (t : Fin cfg3.N) : iblk3 V c 1 t = rows6400 (V c main_arg6) ⟨t.val, lt100_3 t⟩ := by
  obtain ⟨e00, e01, e10, e11, e20, e21, e30, e31⟩ := idx3 t
  funext y
  show V c main_arg6 (((cfg3.win 1).blk t).view.emb y) = V c main_arg6 (ix2 ⟨6400 * t.val + (y 0).val, _⟩ ⟨(y 1).val, _⟩)
  refine congrArg _ ?_
  funext a; apply Fin.ext
  match a with
  | ⟨0, _⟩ => show win3_1.index t (0 : Fin 2) * 6400 + 1 * (y 0).val = 6400 * t.val + (y 0).val; omega
  | ⟨1, _⟩ => show win3_1.index t (1 : Fin 2) * 1 + 1 * (y 1).val = (y 1).val; omega

/-- The third input's block at every point is its whole array. -/
theorem blk3_2 (c : Dev nD) (t : Fin cfg3.N) : iblk3 V c 2 t = (V c main_v61 : S1x1.Idx → Elt F .f32) := by
  obtain ⟨e00, e01, e10, e11, e20, e21, e30, e31⟩ := idx3 t
  funext y
  show V c main_v61 (((cfg3.win 2).blk t).view.emb y) = V c main_v61 y
  refine congrArg _ ?_
  funext a; apply Fin.ext
  match a with
  | ⟨0, _⟩ => show win3_2.index t (0 : Fin 2) * 1 + 1 * (y 0).val = (y 0).val; omega
  | ⟨1, _⟩ => show win3_2.index t (1 : Fin 2) * 1 + 1 * (y 1).val = (y 1).val; omega

/-- The scratch after point `n` is the running sum over bands `0 … n` of the input arrays. -/
theorem acc3_eq (c : Dev nD) : ∀ (n : ℕ) (h : n < cfg3.N),
    acc3 V c n h = accG (V c main_v60) (V c main_arg6) n (Nat.lt_of_lt_of_eq h N_3)
  | 0, h => by
    rw [acc3_zero]
    simp only [View.canon_unit_zero (S := S8x1) zeroOff3, View.ld_unit_zero (S := S8x1) zeroOff3,
      View.ld_unit_zero (S := S8x6400) zeroOff3, View.ld_unit_zero (S := S6400x1) zeroOff3]
    rw [blk3_0 V c ⟨0, h⟩, blk3_1 V c ⟨0, h⟩]
    rfl
  | n + 1, h => by
    rw [acc3_succ]
    simp only [View.canon_unit_zero (S := S8x1) zeroOff3, View.ld_unit_zero (S := S8x1) zeroOff3,
      View.ld_unit_zero (S := S8x6400) zeroOff3, View.ld_unit_zero (S := S6400x1) zeroOff3]
    rw [acc3_eq c n (Nat.lt_of_succ_lt h), blk3_0 V c ⟨n + 1, h⟩, blk3_1 V c ⟨n + 1, h⟩]
    rfl

/-- What the last point stores into the output buffer is `G3` of the input arrays. -/
theorem outLast3_eq (c : Dev nD) : outLast3 V c = G3 (V c main_v60) (V c main_arg6) (V c main_v61) := by
  unfold outLast3
  simp only [View.canon_unit_zero (S := S8x1) zeroOff3, View.ld_unit_zero (S := S8x1) zeroOff3, View.ld_unit_zero (S := S1x1) zeroOff3]
  rw [acc3_eq V c 99 tLast3.isLt, blk3_2 V c tLast3]
  rfl

/-- What a point that writes back writes back is its block of `G3` of the input arrays as the region finds them. -/
theorem flushed3_eq (c : Dev nD) (t : Fin cfg3.N) :
    (dat3 V c).flushed 3 t = ((cfg3.win 3).blk t).view.read (Elt F) (G3 (V c main_v60) (V c main_arg6) (V c main_v61)) := by
  show (cfg3.win 3).cut (grid3.coords t) ((dat3 V c).after 3 t) = _
  rw [after3_3, outLast3_eq]
  obtain ⟨e00, e01, e10, e11, e20, e21, e30, e31⟩ := idx3 t
  funext j
  show G3 (V c main_v60) (V c main_arg6) (V c main_v61) j = G3 (V c main_v60) (V c main_arg6) (V c main_v61) (((cfg3.win 3).blk t).view.emb j)
  refine congrArg _ ?_
  funext a; apply Fin.ext
  match a with
  | ⟨0, _⟩ => show (j 0).val = win3_3.index t (0 : Fin 2) * 8 + 1 * (j 0).val; omega
  | ⟨1, _⟩ => show (j 1).val = win3_3.index t (1 : Fin 2) * 1 + 1 * (j 1).val; omega

/-- An index of the array is in point `t`'s block iff each coordinate is in the block's range on its axis. -/
theorem mem_blk3 (t : Fin cfg3.N) (i : S8x1.Idx) :
    i ∈ ((cfg3.win 3).blk t).view.set ↔ ∀ a : Fin 2, win3_3.index t a * S8x1.size a ≤ (i a).val ∧ (i a).val < win3_3.index t a * S8x1.size a + S8x1.size a := by
  show i ∈ ((View.whole main_v62).slice (win3_3.rect t)).set ↔ _
  rw [View.set_slice_whole, Rect.mem_set_unit]
  exact Iff.rfl

/-- Every index of the array is in the last point's block, and the last point writes back. -/
theorem cover3 (i : S8x1.Idx) :
    ∃ t : Fin cfg3.N, (cfg3.win 3).flush t = true ∧ i ∈ ((cfg3.win 3).blk t).view.set := by
  have hi0 := idx2_lt0 i
  have hi1 := idx2_lt1 i
  obtain ⟨e00, e01, e10, e11, e20, e21, e30, e31⟩ := idx3 tLast3
  refine ⟨tLast3, (flush3_3 tLast3).mpr (by decide), ?_⟩
  rw [mem_blk3]
  intro a
  match a with
  | ⟨0, _⟩ =>
    show win3_3.index tLast3 (0 : Fin 2) * 8 ≤ (i 0).val ∧ (i 0).val < win3_3.index tLast3 (0 : Fin 2) * 8 + 8
    rw [e30]; omega
  | ⟨1, _⟩ =>
    show win3_3.index tLast3 (1 : Fin 2) * 1 ≤ (i 1).val ∧ (i 1).val < win3_3.index tLast3 (1 : Fin 2) * 1 + 1
    rw [e31]; omega

/-- The output array after the run is `G3` of the input arrays as the region finds them. -/
theorem final3 (c : Dev nD) : (dat3 V c).arrAt 3 cfg3.N = G3 (V c main_v60) (V c main_arg6) (V c main_v61) :=
  (dat3 V c).arrAt_eq_of_cover 3 (G3 (V c main_v60) (V c main_arg6) (V c main_v61)) (fun t _ => flushed3_eq V c t) cover3

end Cert.KernelIdeal.Hand

end
-- ==== Proof.LibCat.lean ====
/-
  A two-piece concatenation as a plain binary function of its pieces, so that a rewriting pass can reach the pieces (they
  sit, in the printed form, inside a list of shape-indexed pairs), with its reading at an index: along the concatenated
  axis, coordinates below the first piece's extent read the first piece, the others read the second piece at the
  coordinate less that extent. And the evaluation of a line of host operations at a buffer as one rewriting pass that
  also folds such concatenations.
-/
import Idealize.ShloMosaic.PureOps.Ideal
import Idealize.ShloMosaic.Lib.Pipeline.Value
import Idealize.ShloMosaic.Lib.ValueIdx
import Idealize.ShloMosaic.Lib.StableHlo.Run

noncomputable section

namespace Cert.Cat

open Idealize.ShloMosaic Idealize.ShloMosaic.ValueIdx

variable {α : Type}

/-- The concatenation of two pieces along axis `a`. -/
def cat2 (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem cat2_fold (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = cat2 t a s₁ s₂ h x₁ x₂ := rfl

/-- Two `[R, A]` and `[R, B]` pieces side by side: a column below `A` reads the first piece. -/
theorem cat2_cols_left {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin A) :
    cat2 ⟨2, ![R, A + B]⟩ 1 ⟨2, ![R, A]⟩ ⟨2, ![R, B]⟩ h x₁ x₂ (ix2 r (Fin.castAdd B k)) = x₁ (ix2 r k) :=
  concatenate_pair_apply_left 1 x₁ x₂ h (ix2 r (Fin.castAdd B k)) rfl (ix2 r k) (fun b => by
    match b with
    | ⟨0, _⟩ => rfl
    | ⟨1, _⟩ => rfl)

/-- … and a column `A + k` reads the second piece at column `k`. -/
theorem cat2_cols_right {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin B) :
    cat2 ⟨2, ![R, A + B]⟩ 1 ⟨2, ![R, A]⟩ ⟨2, ![R, B]⟩ h x₁ x₂ (ix2 r (Fin.natAdd A k)) = x₂ (ix2 r k) :=
  concatenate_pair_apply_right 1 x₁ x₂ h (ix2 r (Fin.natAdd A k)) rfl rfl (ix2 r k) (fun b hb => by
    match b with
    | ⟨0, _⟩ => rfl
    | ⟨1, _⟩ => exact absurd rfl hb) (by show k.val + A = A + k.val; omega)

end Cert.Cat

open Idealize.ShloMosaic.StableHlo in
/-- A line's fold at a buffer: the library's one-pass evaluation, alternated with folding two-piece concatenations into
    binary functions (whose pieces the next pass then reaches), until neither makes progress. -/
macro "eval_line" : tactic =>
  `(tactic| repeat (first | after_results_simp | simp only [Cert.Cat.cat2_fold]))

end
-- ==== Proof.Chain.lean ====
/-
  The host-side chain the two programs share, as functions of the values it reads.

  Both programs compute, from the edge list, the source and destination index vectors (the edge list's two rows, each
  followed by the node numbers: every node is its own neighbour), the degree of every node by adding one at every
  destination, its reciprocal square root where the degree is positive and zero elsewhere, and the edge weight: the
  product of that quantity at the edge's two ends. A layer's aggregation then gathers the rows of a node table at the
  sources, scales each by its edge's weight and adds it into the destination's row of a zero table. The definitions
  below are those compositions, spelled operation by operation as the programs' lines compose (a two-piece
  concatenation as the binary function of its pieces), together with the reference's bias-and-rectify step.
-/
import proofs.«104075_j8031588844234_2_alg».proof.KernelIdeal
import proofs.«104075_j8031588844234_2_alg».proof.Proof.LibCat

noncomputable section

namespace Cert.Chain

open Cert.KernelIdeal Idealize.ShloMosaic

variable {F : FTy → Type} [FloatOps F]

/-- A length-32 vector is a one-row table along the table's column axis; -/
theorem bcast_S32_S1x32_1 : S32.BroadcastsInDim S1x32 (![1] : Fin 1 → Fin S1x32.rank) := by decide
/-- a one-row table repeats down the rows of a table with as many columns. -/
theorem bcast_S1x32_S80000x32_0_1 : S1x32.BroadcastsInDim S80000x32 (![0, 1] : Fin 2 → Fin S80000x32.rank) := by decide
theorem bcast_S64_S1x64_1 : S64.BroadcastsInDim S1x64 (![1] : Fin 1 → Fin S1x64.rank) := by decide
theorem bcast_S1x64_S80000x64_0_1 : S1x64.BroadcastsInDim S80000x64 (![0, 1] : Fin 2 → Fin S80000x64.rank) := by decide

variable [Facts₀]
open Cert.KernelIdeal.Facts₀

/-- The source index of every edge: the edge list's row 0, then the node numbers. -/
def srcOf (ei : (⟨S2x2560000, .i32⟩ : BufTy).Contents (Elt F)) : (⟨S2640000, .i32⟩ : BufTy).Contents (Elt F) :=
  Cert.Cat.cat2 S2640000 0 S2560000 S80000 concatenates_S2560000_S80000_S2640000_d0
    (shapeCast _ (extractStridedSlice S1x2560000 ![0, 0] ei slices_S2x2560000_S1x2560000_0_0) shapeCasts_S1x2560000_S2560000)
    (iotaInDim S80000 32 0)

/-- The destination index of every edge: the edge list's row 1, then the node numbers. -/
def dstOf (ei : (⟨S2x2560000, .i32⟩ : BufTy).Contents (Elt F)) : (⟨S2640000, .i32⟩ : BufTy).Contents (Elt F) :=
  Cert.Cat.cat2 S2640000 0 S2560000 S80000 concatenates_S2560000_S80000_S2640000_d0
    (shapeCast _ (extractStridedSlice S1x2560000 ![1, 0] ei slices_S2x2560000_S1x2560000_1_0) shapeCasts_S1x2560000_S2560000)
    (iotaInDim S80000 32 0)

/-- An index vector with every negative entry moved up by the node count (the gathers' wrap-around), as a column. -/
def fixIdx (s : (⟨S2640000, .i32⟩ : BufTy).Contents (Elt F)) : (⟨S2640000x1, .i32⟩ : BufTy).Contents (Elt F) :=
  broadcastInDim S2640000x1 ![0] bcast_S2640000_S2640000x1_0
    (select (cmpi .slt s (broadcastInDim S2640000 ![] bcast_S_S2640000 (constantI S_ 32 0#32)))
      (addi s (broadcastInDim S2640000 ![] bcast_S_S2640000 (constantI S_ 32 80000#32))) s)

/-- The degree of every node: one added at every edge's destination. -/
def degOf (d : (⟨S2640000, .i32⟩ : BufTy).Contents (Elt F)) : (⟨S80000, .f32⟩ : BufTy).Contents (Elt F) :=
  Host.scatterAdd scatter_S80000_S2640000x1_S2640000_n_0_0_1
    (broadcastInDim S80000 ![] bcast_S_S80000 (constant (F := F) S_ .f32 0x00000000#32))
    (broadcastInDim S2640000x1 ![0] bcast_S2640000_S2640000x1_0 d)
    (broadcastInDim S2640000 ![] bcast_S_S2640000 (constant (F := F) S_ .f32 0x3F800000#32))

/-- The reciprocal square root of the degree where it is positive, zero elsewhere. -/
def dinvOf (d : (⟨S2640000, .i32⟩ : BufTy).Contents (Elt F)) : (⟨S80000, .f32⟩ : BufTy).Contents (Elt F) :=
  select (cmpf (F := F) .ogt (degOf d) (broadcastInDim S80000 ![] bcast_S_S80000 (constant (F := F) S_ .f32 0x00000000#32)))
    (Host.rsqrt (degOf d))
    (broadcastInDim S80000 ![] bcast_S_S80000 (id (constant (F := F) S_ .f32 0x00000000#32)))

/-- The weight of every edge, from the two index vectors. -/
def normOfSD (s d : (⟨S2640000, .i32⟩ : BufTy).Contents (Elt F)) : (⟨S2640000x1, .f32⟩ : BufTy).Contents (Elt F) :=
  broadcastInDim S2640000x1 ![0] bcast_S2640000_S2640000x1_0
    (mulf (Host.gather gather_S80000_S2640000x1_S2640000_n_0_n_n_0_1_1 (dinvOf d) (fixIdx s))
      (Host.gather gather_S80000_S2640000x1_S2640000_n_0_n_n_0_1_1 (dinvOf d) (fixIdx d)))

/-- The weight of every edge: the product of the two ends' reciprocal-square-root degrees, as a column. -/
def normOf (ei : (⟨S2x2560000, .i32⟩ : BufTy).Contents (Elt F)) : (⟨S2640000x1, .f32⟩ : BufTy).Contents (Elt F) :=
  normOfSD (srcOf ei) (dstOf ei)

/-- A layer's aggregation over 32 columns: the rows of \`y\` at the sources, each scaled by its edge's weight, added
    into the destination's row of a zero table. -/
def aggr32 (y : (⟨S80000x32, .f32⟩ : BufTy).Contents (Elt F)) (s d : (⟨S2640000, .i32⟩ : BufTy).Contents (Elt F))
    (nrm : (⟨S2640000x1, .f32⟩ : BufTy).Contents (Elt F)) : (⟨S80000x32, .f32⟩ : BufTy).Contents (Elt F) :=
  Host.scatterAdd scatter_S80000x32_S2640000x1_S2640000x32_1_0_0_1
    (broadcastInDim S80000x32 ![] bcast_S_S80000x32 (constant (F := F) S_ .f32 0x00000000#32))
    (broadcastInDim S2640000x1 ![0] bcast_S2640000_S2640000x1_0 d)
    (mulf (Host.gather gather_S80000x32_S2640000x1_S2640000x32_1_0_n_n_0_1_132 y (fixIdx s))
      (broadcastInDim S2640000x32 ![0, 1] bcast_S2640000x1_S2640000x32_0_1 nrm))

/-- The same over 64 columns. -/
def aggr64 (y : (⟨S80000x64, .f32⟩ : BufTy).Contents (Elt F)) (s d : (⟨S2640000, .i32⟩ : BufTy).Contents (Elt F))
    (nrm : (⟨S2640000x1, .f32⟩ : BufTy).Contents (Elt F)) : (⟨S80000x64, .f32⟩ : BufTy).Contents (Elt F) :=
  Host.scatterAdd scatter_S80000x64_S2640000x1_S2640000x64_1_0_0_1
    (broadcastInDim S80000x64 ![] bcast_S_S80000x64 (constant (F := F) S_ .f32 0x00000000#32))
    (broadcastInDim S2640000x1 ![0] bcast_S2640000_S2640000x1_0 d)
    (mulf (Host.gather gather_S80000x64_S2640000x1_S2640000x64_1_0_n_n_0_1_164 y (fixIdx s))
      (broadcastInDim S2640000x64 ![0, 1] bcast_S2640000x1_S2640000x64_0_1 nrm))

/-- The bias added to every row, then the larger of that and zero, over 32 columns. -/
def biasRelu32 (a : (⟨S80000x32, .f32⟩ : BufTy).Contents (Elt F)) (b : (⟨S32, .f32⟩ : BufTy).Contents (Elt F)) :
    (⟨S80000x32, .f32⟩ : BufTy).Contents (Elt F) :=
  maximumf (addf a (broadcastInDim S80000x32 ![0, 1] bcast_S1x32_S80000x32_0_1 (broadcastInDim S1x32 ![1] bcast_S32_S1x32_1 b)))
    (broadcastInDim S80000x32 ![] bcast_S_S80000x32 (constant (F := F) S_ .f32 0x00000000#32))

/-- The same over 64 columns. -/
def biasRelu64 (a : (⟨S80000x64, .f32⟩ : BufTy).Contents (Elt F)) (b : (⟨S64, .f32⟩ : BufTy).Contents (Elt F)) :
    (⟨S80000x64, .f32⟩ : BufTy).Contents (Elt F) :=
  maximumf (addf a (broadcastInDim S80000x64 ![0, 1] bcast_S1x64_S80000x64_0_1 (broadcastInDim S1x64 ![1] bcast_S64_S1x64_1 b)))
    (broadcastInDim S80000x64 ![] bcast_S_S80000x64 (constant (F := F) S_ .f32 0x00000000#32))

end Cert.Chain

end
-- ==== Proof.LibTypedRef.lean ====
/-
  Typed references of an inlined function call: contents carried along a type equation and back.

  A value of a called function lives in a buffer whose declared type equals the value's type by an equation
  (`StableHlo.TRef.ty_eq`); the builders of a called function's operations carry contents across that equation in both
  directions (`toBuf`, `ofBuf`: a `cast`). Three facts, none of which looks inside the contents:
    * `ofBuf_toBuf`: to the buffer's type and back is the identity, for any typed reference;
    * `toBuf_of`, `ofBuf_of`: at a literal reference taken at its own type each direction is the identity.
  With them the result of a line of a called function's operations is read free of casts, whatever the contents are.
  Imports Lib/StableHlo only; general in the signature and the element values.
-/
import Idealize.ShloMosaic.Lib.StableHlo

namespace Cert.TypedRef

open Idealize.ShloMosaic

/-- Contents carried to a typed reference's buffer type and back are unchanged. -/
theorem ofBuf_toBuf {sg : RefSig} {Val : EltTy → Type} {T : BufTy} (x : StableHlo.TRef sg T) (v : T.Contents Val) :
    x.ofBuf (x.toBuf v) = v := by
  obtain ⟨r, h, h2, h3⟩ := x
  subst h
  rfl

/-- At a reference taken at its own type, carrying contents to the buffer's type is the identity. -/
theorem toBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).toBuf v = v := rfl

/-- And carrying them back is the identity. -/
theorem ofBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).ofBuf v = v := rfl

end Cert.TypedRef
-- ==== Proof.KI.Host.lean ====
/-
  The host operations of the program around its four kernel regions, each stretch evaluated once from ANY contents:
  the first three stretches (before the first region) leave the source and destination index vectors and the edge
  weights of Proof/Chain.lean; the stretch after the first region leaves the first layer's aggregation and the bias as a
  one-row table; the stretch after the second region likewise for the second layer; the last reshapes the second
  layer's output and the read-out's bias. Each stretch leaves the program's arguments as they were.
-/
import proofs.«104075_j8031588844234_2_alg».proof.Proof.Gen.KernelIdeal.Launch
import Idealize.ShloMosaic.Lib.StableHlo.Run
import proofs.«104075_j8031588844234_2_alg».proof.Proof.Chain
import proofs.«104075_j8031588844234_2_alg».proof.Proof.LibCat
import proofs.«104075_j8031588844234_2_alg».proof.Proof.LibTypedRef

noncomputable section

namespace Cert.KernelIdeal.Hand

open Cert.KernelIdeal Cert.KernelIdeal.Gen Idealize.ShloMosaic Idealize.ShloMosaic.TcCoe Idealize.SL.Sem

variable {F : FTy → Type} [FloatOps F]

/-! ## Before the first region -/

set_option maxRecDepth 8192 in
set_option maxHeartbeats 4000000 in
theorem hostOps0_v3 (W : Valuation τ sig (Elt F)) :
    StableHlo.after (hostOps0 (F := F)) W (Proc.devRef .tc main_v3) = Cert.Chain.srcOf (W (Proc.devRef .tc main_arg1)) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_v6 (W : Valuation τ sig (Elt F)) :
    StableHlo.after (hostOps0 (F := F)) W (Proc.devRef .tc main_v6) = Cert.Chain.dstOf (W (Proc.devRef .tc main_arg1)) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_v12 (W : Valuation τ sig (Elt F)) :
    StableHlo.after (hostOps0 (F := F)) W (Proc.devRef .tc main_v12) = cmpf (F := F) .ogt (Cert.Chain.degOf (Cert.Chain.dstOf (W (Proc.devRef .tc main_arg1)))) (broadcastInDim S80000 ![] bcast_S_S80000 (constant (F := F) S_ .f32 0x00000000#32)) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_v13 (W : Valuation τ sig (Elt F)) :
    StableHlo.after (hostOps0 (F := F)) W (Proc.devRef .tc main_v13) = Host.rsqrt (Cert.Chain.degOf (Cert.Chain.dstOf (W (Proc.devRef .tc main_arg1)))) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_cst_2 (W : Valuation τ sig (Elt F)) :
    StableHlo.after (hostOps0 (F := F)) W (Proc.devRef .tc main_cst_2) = constant (F := F) S_ .f32 0x00000000#32 := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_arg0 (W : Valuation τ sig (Elt F)) :
    StableHlo.after (hostOps0 (F := F)) W (Proc.devRef .tc main_arg0) = W (Proc.devRef .tc main_arg0) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_arg1 (W : Valuation τ sig (Elt F)) :
    StableHlo.after (hostOps0 (F := F)) W (Proc.devRef .tc main_arg1) = W (Proc.devRef .tc main_arg1) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_arg2 (W : Valuation τ sig (Elt F)) :
    StableHlo.after (hostOps0 (F := F)) W (Proc.devRef .tc main_arg2) = W (Proc.devRef .tc main_arg2) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_arg3 (W : Valuation τ sig (Elt F)) :
    StableHlo.after (hostOps0 (F := F)) W (Proc.devRef .tc main_arg3) = W (Proc.devRef .tc main_arg3) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_arg4 (W : Valuation τ sig (Elt F)) :
    StableHlo.after (hostOps0 (F := F)) W (Proc.devRef .tc main_arg4) = W (Proc.devRef .tc main_arg4) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_arg5 (W : Valuation τ sig (Elt F)) :
    StableHlo.after (hostOps0 (F := F)) W (Proc.devRef .tc main_arg5) = W (Proc.devRef .tc main_arg5) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_arg6 (W : Valuation τ sig (Elt F)) :
    StableHlo.after (hostOps0 (F := F)) W (Proc.devRef .tc main_arg6) = W (Proc.devRef .tc main_arg6) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_arg7 (W : Valuation τ sig (Elt F)) :
    StableHlo.after (hostOps0 (F := F)) W (Proc.devRef .tc main_arg7) = W (Proc.devRef .tc main_arg7) := by
  (eval_line) <;> (try simp only [Cert.TypedRef.ofBuf_toBuf, Cert.TypedRef.toBuf_of, Cert.TypedRef.ofBuf_of]) <;> rfl

set_option maxRecDepth 8192 in
set_option maxHeartbeats 4000000 in
theorem hostOps0_1_v14 (W : Valuation τ sig (Elt F)) :
    StableHlo.after (hostOps0_1 (F := F)) W (Proc.devRef .tc main_v14) = select (W (Proc.devRef .tc main_v12)) (W (Proc.devRef .tc main_v13)) (broadcastInDim S80000 ![] bcast_S_S80000 (id (W (Proc.devRef .tc main_cst_2)))) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_1_v3 (W : Valuation τ sig (Elt F)) :
    StableHlo.after (hostOps0_1 (F := F)) W (Proc.devRef .tc main_v3) = W (Proc.devRef .tc main_v3) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_1_v6 (W : Valuation τ sig (Elt F)) :
    StableHlo.after (hostOps0_1 (F := F)) W (Proc.devRef .tc main_v6) = W (Proc.devRef .tc main_v6) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_1_arg0 (W : Valuation τ sig (Elt F)) :
    StableHlo.after (hostOps0_1 (F := F)) W (Proc.devRef .tc main_arg0) = W (Proc.devRef .tc main_arg0) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_1_arg1 (W : Valuation τ sig (Elt F)) :
    StableHlo.after (hostOps0_1 (F := F)) W (Proc.devRef .tc main_arg1) = W (Proc.devRef .tc main_arg1) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_1_arg2 (W : Valuation τ sig (Elt F)) :
    StableHlo.after (hostOps0_1 (F := F)) W (Proc.devRef .tc main_arg2) = W (Proc.devRef .tc main_arg2) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_1_arg3 (W : Valuation τ sig (Elt F)) :
    StableHlo.after (hostOps0_1 (F := F)) W (Proc.devRef .tc main_arg3) = W (Proc.devRef .tc main_arg3) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_1_arg4 (W : Valuation τ sig (Elt F)) :
    StableHlo.after (hostOps0_1 (F := F)) W (Proc.devRef .tc main_arg4) = W (Proc.devRef .tc main_arg4) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_1_arg5 (W : Valuation τ sig (Elt F)) :
    StableHlo.after (hostOps0_1 (F := F)) W (Proc.devRef .tc main_arg5) = W (Proc.devRef .tc main_arg5) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_1_arg6 (W : Valuation τ sig (Elt F)) :
    StableHlo.after (hostOps0_1 (F := F)) W (Proc.devRef .tc main_arg6) = W (Proc.devRef .tc main_arg6) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_1_arg7 (W : Valuation τ sig (Elt F)) :
    StableHlo.after (hostOps0_1 (F := F)) W (Proc.devRef .tc main_arg7) = W (Proc.devRef .tc main_arg7) := by
  (eval_line) <;> (try simp only [Cert.TypedRef.ofBuf_toBuf, Cert.TypedRef.toBuf_of, Cert.TypedRef.ofBuf_of]) <;> rfl

set_option maxRecDepth 8192 in
set_option maxHeartbeats 4000000 in
theorem hostOps0_2_v30 (W : Valuation τ sig (Elt F)) :
    StableHlo.after (hostOps0_2 (F := F)) W (Proc.devRef .tc main_v30) = broadcastInDim S2640000x1 ![0] bcast_S2640000_S2640000x1_0 (mulf (Host.gather gather_S80000_S2640000x1_S2640000_n_0_n_n_0_1_1 (W (Proc.devRef .tc main_v14)) (Cert.Chain.fixIdx (W (Proc.devRef .tc main_v3)))) (Host.gather gather_S80000_S2640000x1_S2640000_n_0_n_n_0_1_1 (W (Proc.devRef .tc main_v14)) (Cert.Chain.fixIdx (W (Proc.devRef .tc main_v6))))) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_2_v3 (W : Valuation τ sig (Elt F)) :
    StableHlo.after (hostOps0_2 (F := F)) W (Proc.devRef .tc main_v3) = W (Proc.devRef .tc main_v3) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_2_v6 (W : Valuation τ sig (Elt F)) :
    StableHlo.after (hostOps0_2 (F := F)) W (Proc.devRef .tc main_v6) = W (Proc.devRef .tc main_v6) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_2_arg0 (W : Valuation τ sig (Elt F)) :
    StableHlo.after (hostOps0_2 (F := F)) W (Proc.devRef .tc main_arg0) = W (Proc.devRef .tc main_arg0) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_2_arg1 (W : Valuation τ sig (Elt F)) :
    StableHlo.after (hostOps0_2 (F := F)) W (Proc.devRef .tc main_arg1) = W (Proc.devRef .tc main_arg1) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_2_arg2 (W : Valuation τ sig (Elt F)) :
    StableHlo.after (hostOps0_2 (F := F)) W (Proc.devRef .tc main_arg2) = W (Proc.devRef .tc main_arg2) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_2_arg3 (W : Valuation τ sig (Elt F)) :
    StableHlo.after (hostOps0_2 (F := F)) W (Proc.devRef .tc main_arg3) = W (Proc.devRef .tc main_arg3) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_2_arg4 (W : Valuation τ sig (Elt F)) :
    StableHlo.after (hostOps0_2 (F := F)) W (Proc.devRef .tc main_arg4) = W (Proc.devRef .tc main_arg4) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_2_arg5 (W : Valuation τ sig (Elt F)) :
    StableHlo.after (hostOps0_2 (F := F)) W (Proc.devRef .tc main_arg5) = W (Proc.devRef .tc main_arg5) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_2_arg6 (W : Valuation τ sig (Elt F)) :
    StableHlo.after (hostOps0_2 (F := F)) W (Proc.devRef .tc main_arg6) = W (Proc.devRef .tc main_arg6) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps0_2_arg7 (W : Valuation τ sig (Elt F)) :
    StableHlo.after (hostOps0_2 (F := F)) W (Proc.devRef .tc main_arg7) = W (Proc.devRef .tc main_arg7) := by
  (eval_line) <;> (try simp only [Cert.TypedRef.ofBuf_toBuf, Cert.TypedRef.toBuf_of, Cert.TypedRef.ofBuf_of]) <;> rfl

/-- After the three stretches: the source index vector, -/
theorem host0_v3 (W : Valuation τ sig (Elt F)) :
    (StableHlo.after (hostOps0_2 (F := F)) (StableHlo.after (hostOps0_1 (F := F)) (StableHlo.after (hostOps0 (F := F)) W))) (Proc.devRef .tc main_v3) = Cert.Chain.srcOf (W (Proc.devRef .tc main_arg1)) := by
  rw [hostOps0_2_v3, hostOps0_1_v3, hostOps0_v3]
/-- the destination index vector, -/
theorem host0_v6 (W : Valuation τ sig (Elt F)) :
    (StableHlo.after (hostOps0_2 (F := F)) (StableHlo.after (hostOps0_1 (F := F)) (StableHlo.after (hostOps0 (F := F)) W))) (Proc.devRef .tc main_v6) = Cert.Chain.dstOf (W (Proc.devRef .tc main_arg1)) := by
  rw [hostOps0_2_v6, hostOps0_1_v6, hostOps0_v6]
/-- and the edge weights. -/
theorem host0_v30 (W : Valuation τ sig (Elt F)) :
    (StableHlo.after (hostOps0_2 (F := F)) (StableHlo.after (hostOps0_1 (F := F)) (StableHlo.after (hostOps0 (F := F)) W))) (Proc.devRef .tc main_v30) = Cert.Chain.normOf (W (Proc.devRef .tc main_arg1)) := by
  rw [hostOps0_2_v30, hostOps0_1_v14, hostOps0_1_v3, hostOps0_1_v6, hostOps0_v12, hostOps0_v13, hostOps0_cst_2, hostOps0_v3, hostOps0_v6]
  rfl
theorem host0_arg0 (W : Valuation τ sig (Elt F)) :
    (StableHlo.after (hostOps0_2 (F := F)) (StableHlo.after (hostOps0_1 (F := F)) (StableHlo.after (hostOps0 (F := F)) W))) (Proc.devRef .tc main_arg0) = W (Proc.devRef .tc main_arg0) := by
  rw [hostOps0_2_arg0, hostOps0_1_arg0, hostOps0_arg0]
theorem host0_arg1 (W : Valuation τ sig (Elt F)) :
    (StableHlo.after (hostOps0_2 (F := F)) (StableHlo.after (hostOps0_1 (F := F)) (StableHlo.after (hostOps0 (F := F)) W))) (Proc.devRef .tc main_arg1) = W (Proc.devRef .tc main_arg1) := by
  rw [hostOps0_2_arg1, hostOps0_1_arg1, hostOps0_arg1]
theorem host0_arg2 (W : Valuation τ sig (Elt F)) :
    (StableHlo.after (hostOps0_2 (F := F)) (StableHlo.after (hostOps0_1 (F := F)) (StableHlo.after (hostOps0 (F := F)) W))) (Proc.devRef .tc main_arg2) = W (Proc.devRef .tc main_arg2) := by
  rw [hostOps0_2_arg2, hostOps0_1_arg2, hostOps0_arg2]
theorem host0_arg3 (W : Valuation τ sig (Elt F)) :
    (StableHlo.after (hostOps0_2 (F := F)) (StableHlo.after (hostOps0_1 (F := F)) (StableHlo.after (hostOps0 (F := F)) W))) (Proc.devRef .tc main_arg3) = W (Proc.devRef .tc main_arg3) := by
  rw [hostOps0_2_arg3, hostOps0_1_arg3, hostOps0_arg3]
theorem host0_arg4 (W : Valuation τ sig (Elt F)) :
    (StableHlo.after (hostOps0_2 (F := F)) (StableHlo.after (hostOps0_1 (F := F)) (StableHlo.after (hostOps0 (F := F)) W))) (Proc.devRef .tc main_arg4) = W (Proc.devRef .tc main_arg4) := by
  rw [hostOps0_2_arg4, hostOps0_1_arg4, hostOps0_arg4]
theorem host0_arg5 (W : Valuation τ sig (Elt F)) :
    (StableHlo.after (hostOps0_2 (F := F)) (StableHlo.after (hostOps0_1 (F := F)) (StableHlo.after (hostOps0 (F := F)) W))) (Proc.devRef .tc main_arg5) = W (Proc.devRef .tc main_arg5) := by
  rw [hostOps0_2_arg5, hostOps0_1_arg5, hostOps0_arg5]
theorem host0_arg6 (W : Valuation τ sig (Elt F)) :
    (StableHlo.after (hostOps0_2 (F := F)) (StableHlo.after (hostOps0_1 (F := F)) (StableHlo.after (hostOps0 (F := F)) W))) (Proc.devRef .tc main_arg6) = W (Proc.devRef .tc main_arg6) := by
  rw [hostOps0_2_arg6, hostOps0_1_arg6, hostOps0_arg6]
theorem host0_arg7 (W : Valuation τ sig (Elt F)) :
    (StableHlo.after (hostOps0_2 (F := F)) (StableHlo.after (hostOps0_1 (F := F)) (StableHlo.after (hostOps0 (F := F)) W))) (Proc.devRef .tc main_arg7) = W (Proc.devRef .tc main_arg7) := by
  rw [hostOps0_2_arg7, hostOps0_1_arg7, hostOps0_arg7]

/-! ## After the first region -/

set_option maxRecDepth 8192 in
set_option maxHeartbeats 4000000 in
theorem hostOps1_v43 (W : Valuation τ sig (Elt F)) :
    StableHlo.after (hostOps1 (F := F)) W (Proc.devRef .tc main_v43) = Cert.Chain.aggr32 (W (Proc.devRef .tc main_v31)) (W (Proc.devRef .tc main_v3)) (W (Proc.devRef .tc main_v6)) (W (Proc.devRef .tc main_v30)) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps1_v44 (W : Valuation τ sig (Elt F)) :
    StableHlo.after (hostOps1 (F := F)) W (Proc.devRef .tc main_v44) = shapeCast _ (W (Proc.devRef .tc main_arg3)) shapeCasts_S32_S1x32 := by
  (eval_line) <;> (try simp only [Cert.TypedRef.ofBuf_toBuf, Cert.TypedRef.toBuf_of, Cert.TypedRef.ofBuf_of]) <;> rfl
set_option maxRecDepth 8192 in
set_option maxHeartbeats 4000000 in
theorem hostOps1_v3 (W : Valuation τ sig (Elt F)) :
    StableHlo.after (hostOps1 (F := F)) W (Proc.devRef .tc main_v3) = W (Proc.devRef .tc main_v3) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps1_v6 (W : Valuation τ sig (Elt F)) :
    StableHlo.after (hostOps1 (F := F)) W (Proc.devRef .tc main_v6) = W (Proc.devRef .tc main_v6) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps1_v30 (W : Valuation τ sig (Elt F)) :
    StableHlo.after (hostOps1 (F := F)) W (Proc.devRef .tc main_v30) = W (Proc.devRef .tc main_v30) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps1_arg0 (W : Valuation τ sig (Elt F)) :
    StableHlo.after (hostOps1 (F := F)) W (Proc.devRef .tc main_arg0) = W (Proc.devRef .tc main_arg0) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps1_arg1 (W : Valuation τ sig (Elt F)) :
    StableHlo.after (hostOps1 (F := F)) W (Proc.devRef .tc main_arg1) = W (Proc.devRef .tc main_arg1) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps1_arg2 (W : Valuation τ sig (Elt F)) :
    StableHlo.after (hostOps1 (F := F)) W (Proc.devRef .tc main_arg2) = W (Proc.devRef .tc main_arg2) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps1_arg3 (W : Valuation τ sig (Elt F)) :
    StableHlo.after (hostOps1 (F := F)) W (Proc.devRef .tc main_arg3) = W (Proc.devRef .tc main_arg3) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps1_arg4 (W : Valuation τ sig (Elt F)) :
    StableHlo.after (hostOps1 (F := F)) W (Proc.devRef .tc main_arg4) = W (Proc.devRef .tc main_arg4) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps1_arg5 (W : Valuation τ sig (Elt F)) :
    StableHlo.after (hostOps1 (F := F)) W (Proc.devRef .tc main_arg5) = W (Proc.devRef .tc main_arg5) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps1_arg6 (W : Valuation τ sig (Elt F)) :
    StableHlo.after (hostOps1 (F := F)) W (Proc.devRef .tc main_arg6) = W (Proc.devRef .tc main_arg6) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps1_arg7 (W : Valuation τ sig (Elt F)) :
    StableHlo.after (hostOps1 (F := F)) W (Proc.devRef .tc main_arg7) = W (Proc.devRef .tc main_arg7) := by
  (eval_line) <;> (try simp only [Cert.TypedRef.ofBuf_toBuf, Cert.TypedRef.toBuf_of, Cert.TypedRef.ofBuf_of]) <;> rfl

/-! ## After the second region -/

set_option maxRecDepth 8192 in
set_option maxHeartbeats 4000000 in
theorem hostOps2_v57 (W : Valuation τ sig (Elt F)) :
    StableHlo.after (hostOps2 (F := F)) W (Proc.devRef .tc main_v57) = Cert.Chain.aggr64 (W (Proc.devRef .tc main_v45)) (W (Proc.devRef .tc main_v3)) (W (Proc.devRef .tc main_v6)) (W (Proc.devRef .tc main_v30)) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps2_v58 (W : Valuation τ sig (Elt F)) :
    StableHlo.after (hostOps2 (F := F)) W (Proc.devRef .tc main_v58) = shapeCast _ (W (Proc.devRef .tc main_arg5)) shapeCasts_S64_S1x64 := by
  (eval_line) <;> (try simp only [Cert.TypedRef.ofBuf_toBuf, Cert.TypedRef.toBuf_of, Cert.TypedRef.ofBuf_of]) <;> rfl
set_option maxRecDepth 8192 in
set_option maxHeartbeats 4000000 in
theorem hostOps2_arg0 (W : Valuation τ sig (Elt F)) :
    StableHlo.after (hostOps2 (F := F)) W (Proc.devRef .tc main_arg0) = W (Proc.devRef .tc main_arg0) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps2_arg1 (W : Valuation τ sig (Elt F)) :
    StableHlo.after (hostOps2 (F := F)) W (Proc.devRef .tc main_arg1) = W (Proc.devRef .tc main_arg1) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps2_arg2 (W : Valuation τ sig (Elt F)) :
    StableHlo.after (hostOps2 (F := F)) W (Proc.devRef .tc main_arg2) = W (Proc.devRef .tc main_arg2) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps2_arg3 (W : Valuation τ sig (Elt F)) :
    StableHlo.after (hostOps2 (F := F)) W (Proc.devRef .tc main_arg3) = W (Proc.devRef .tc main_arg3) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps2_arg4 (W : Valuation τ sig (Elt F)) :
    StableHlo.after (hostOps2 (F := F)) W (Proc.devRef .tc main_arg4) = W (Proc.devRef .tc main_arg4) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps2_arg5 (W : Valuation τ sig (Elt F)) :
    StableHlo.after (hostOps2 (F := F)) W (Proc.devRef .tc main_arg5) = W (Proc.devRef .tc main_arg5) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps2_arg6 (W : Valuation τ sig (Elt F)) :
    StableHlo.after (hostOps2 (F := F)) W (Proc.devRef .tc main_arg6) = W (Proc.devRef .tc main_arg6) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps2_arg7 (W : Valuation τ sig (Elt F)) :
    StableHlo.after (hostOps2 (F := F)) W (Proc.devRef .tc main_arg7) = W (Proc.devRef .tc main_arg7) := by
  (eval_line) <;> (try simp only [Cert.TypedRef.ofBuf_toBuf, Cert.TypedRef.toBuf_of, Cert.TypedRef.ofBuf_of]) <;> rfl

/-! ## After the third region -/

set_option maxRecDepth 8192 in
set_option maxHeartbeats 4000000 in
theorem hostOps3_v60 (W : Valuation τ sig (Elt F)) :
    StableHlo.after (hostOps3 (F := F)) W (Proc.devRef .tc main_v60) = shapeCast _ (W (Proc.devRef .tc main_v59)) shapeCasts_S80000x64_S8x640000 := by
  (eval_line) <;> (try simp only [Cert.TypedRef.ofBuf_toBuf, Cert.TypedRef.toBuf_of, Cert.TypedRef.ofBuf_of]) <;> rfl
set_option maxRecDepth 8192 in
set_option maxHeartbeats 4000000 in
theorem hostOps3_v61 (W : Valuation τ sig (Elt F)) :
    StableHlo.after (hostOps3 (F := F)) W (Proc.devRef .tc main_v61) = shapeCast _ (W (Proc.devRef .tc main_arg7)) shapeCasts_S1_S1x1 := by
  (eval_line) <;> (try simp only [Cert.TypedRef.ofBuf_toBuf, Cert.TypedRef.toBuf_of, Cert.TypedRef.ofBuf_of]) <;> rfl
set_option maxRecDepth 8192 in
set_option maxHeartbeats 4000000 in
theorem hostOps3_arg0 (W : Valuation τ sig (Elt F)) :
    StableHlo.after (hostOps3 (F := F)) W (Proc.devRef .tc main_arg0) = W (Proc.devRef .tc main_arg0) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps3_arg1 (W : Valuation τ sig (Elt F)) :
    StableHlo.after (hostOps3 (F := F)) W (Proc.devRef .tc main_arg1) = W (Proc.devRef .tc main_arg1) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps3_arg2 (W : Valuation τ sig (Elt F)) :
    StableHlo.after (hostOps3 (F := F)) W (Proc.devRef .tc main_arg2) = W (Proc.devRef .tc main_arg2) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps3_arg3 (W : Valuation τ sig (Elt F)) :
    StableHlo.after (hostOps3 (F := F)) W (Proc.devRef .tc main_arg3) = W (Proc.devRef .tc main_arg3) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps3_arg4 (W : Valuation τ sig (Elt F)) :
    StableHlo.after (hostOps3 (F := F)) W (Proc.devRef .tc main_arg4) = W (Proc.devRef .tc main_arg4) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps3_arg5 (W : Valuation τ sig (Elt F)) :
    StableHlo.after (hostOps3 (F := F)) W (Proc.devRef .tc main_arg5) = W (Proc.devRef .tc main_arg5) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps3_arg6 (W : Valuation τ sig (Elt F)) :
    StableHlo.after (hostOps3 (F := F)) W (Proc.devRef .tc main_arg6) = W (Proc.devRef .tc main_arg6) := by
  (eval_line) <;> (try simp only [Cert.TypedRef.ofBuf_toBuf, Cert.TypedRef.toBuf_of, Cert.TypedRef.ofBuf_of]) <;> rfl
set_option maxRecDepth 8192 in
set_option maxHeartbeats 4000000 in
theorem hostOps3_arg7 (W : Valuation τ sig (Elt F)) :
    StableHlo.after (hostOps3 (F := F)) W (Proc.devRef .tc main_arg7) = W (Proc.devRef .tc main_arg7) := by
  (eval_line) <;> (try simp only [Cert.TypedRef.ofBuf_toBuf, Cert.TypedRef.toBuf_of, Cert.TypedRef.ofBuf_of]) <;> rfl

end Cert.KernelIdeal.Hand

end
-- ==== Proof.KI.Value.lean ====
/-
  The program's result as one composed term of its arguments.

  The contents of the buffers at each boundary of the run are a fold from the launch memory; read at the buffers that
  matter, stage by stage, they are: after the first host stretches, the index vectors and the edge weights of the shared
  chain; after the first region, the first product; after the next stretch, its aggregation and the bias as a one-row
  table; after the second region, the first layer's output multiplied into the second product; then its aggregation;
  after the third region, the second layer's output; then its reshaping; and the last region's read-out of it. Every
  step is one named fact: a host stretch's evaluation from any contents, a region's output array as a function of its
  input arrays, or a buffer no operation of a stage writes carried over it.
-/
import proofs.«104075_j8031588844234_2_alg».proof.Proof.KI.Run
import proofs.«104075_j8031588844234_2_alg».proof.Proof.KI.Fin0
import proofs.«104075_j8031588844234_2_alg».proof.Proof.KI.Fin1
import proofs.«104075_j8031588844234_2_alg».proof.Proof.KI.Fin2
import proofs.«104075_j8031588844234_2_alg».proof.Proof.KI.Fin3
import proofs.«104075_j8031588844234_2_alg».proof.Proof.KI.Host

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

variable (m : (ℓ : Loc nD τ sig) → Buf (Elt F) ℓ)

/-! ## Stage 3: before the first region -/

theorem W3_main_v3 (c : Dev nD) : W3 m c (Proc.devRef .tc main_v3) = (Cert.Chain.srcOf (m ((c : Thread nD τ).loc main_arg1))) :=
  host0_v3 (W0 m c)
theorem W3_main_v6 (c : Dev nD) : W3 m c (Proc.devRef .tc main_v6) = (Cert.Chain.dstOf (m ((c : Thread nD τ).loc main_arg1))) :=
  host0_v6 (W0 m c)
theorem W3_main_v30 (c : Dev nD) : W3 m c (Proc.devRef .tc main_v30) = (Cert.Chain.normOf (m ((c : Thread nD τ).loc main_arg1))) :=
  host0_v30 (W0 m c)
theorem W3_main_arg0 (c : Dev nD) : W3 m c (Proc.devRef .tc main_arg0) = (m ((c : Thread nD τ).loc main_arg0)) :=
  host0_arg0 (W0 m c)
theorem W3_main_arg2 (c : Dev nD) : W3 m c (Proc.devRef .tc main_arg2) = (m ((c : Thread nD τ).loc main_arg2)) :=
  host0_arg2 (W0 m c)
theorem W3_main_arg3 (c : Dev nD) : W3 m c (Proc.devRef .tc main_arg3) = (m ((c : Thread nD τ).loc main_arg3)) :=
  host0_arg3 (W0 m c)
theorem W3_main_arg4 (c : Dev nD) : W3 m c (Proc.devRef .tc main_arg4) = (m ((c : Thread nD τ).loc main_arg4)) :=
  host0_arg4 (W0 m c)
theorem W3_main_arg5 (c : Dev nD) : W3 m c (Proc.devRef .tc main_arg5) = (m ((c : Thread nD τ).loc main_arg5)) :=
  host0_arg5 (W0 m c)
theorem W3_main_arg6 (c : Dev nD) : W3 m c (Proc.devRef .tc main_arg6) = (m ((c : Thread nD τ).loc main_arg6)) :=
  host0_arg6 (W0 m c)
theorem W3_main_arg7 (c : Dev nD) : W3 m c (Proc.devRef .tc main_arg7) = (m ((c : Thread nD τ).loc main_arg7)) :=
  host0_arg7 (W0 m c)

/-! ## Stage 4: after the first region -/

/-- The first product. -/
theorem W4_main_v31 (c : Dev nD) : W4 m c (Proc.devRef .tc main_v31) = (G0 (m ((c : Thread nD τ).loc main_arg0)) (m ((c : Thread nD τ).loc main_arg2))) :=
  (W4_arr m c 2).trans ((final0 (V3 m) c).trans (by
    rw [show V3 m c main_arg0 = (m ((c : Thread nD τ).loc main_arg0)) from W3_main_arg0 m c, show V3 m c main_arg2 = (m ((c : Thread nD τ).loc main_arg2)) from W3_main_arg2 m c]))
theorem W4_main_v3 (c : Dev nD) : W4 m c (Proc.devRef .tc main_v3) = (Cert.Chain.srcOf (m ((c : Thread nD τ).loc main_arg1))) :=
  (W4_of_ne m c main_v3 (by decide)).trans (W3_main_v3 m c)
theorem W4_main_v6 (c : Dev nD) : W4 m c (Proc.devRef .tc main_v6) = (Cert.Chain.dstOf (m ((c : Thread nD τ).loc main_arg1))) :=
  (W4_of_ne m c main_v6 (by decide)).trans (W3_main_v6 m c)
theorem W4_main_v30 (c : Dev nD) : W4 m c (Proc.devRef .tc main_v30) = (Cert.Chain.normOf (m ((c : Thread nD τ).loc main_arg1))) :=
  (W4_of_ne m c main_v30 (by decide)).trans (W3_main_v30 m c)
theorem W4_main_arg3 (c : Dev nD) : W4 m c (Proc.devRef .tc main_arg3) = (m ((c : Thread nD τ).loc main_arg3)) :=
  (W4_of_ne m c main_arg3 (by decide)).trans (W3_main_arg3 m c)
theorem W4_main_arg4 (c : Dev nD) : W4 m c (Proc.devRef .tc main_arg4) = (m ((c : Thread nD τ).loc main_arg4)) :=
  (W4_of_ne m c main_arg4 (by decide)).trans (W3_main_arg4 m c)
theorem W4_main_arg5 (c : Dev nD) : W4 m c (Proc.devRef .tc main_arg5) = (m ((c : Thread nD τ).loc main_arg5)) :=
  (W4_of_ne m c main_arg5 (by decide)).trans (W3_main_arg5 m c)
theorem W4_main_arg6 (c : Dev nD) : W4 m c (Proc.devRef .tc main_arg6) = (m ((c : Thread nD τ).loc main_arg6)) :=
  (W4_of_ne m c main_arg6 (by decide)).trans (W3_main_arg6 m c)
theorem W4_main_arg7 (c : Dev nD) : W4 m c (Proc.devRef .tc main_arg7) = (m ((c : Thread nD τ).loc main_arg7)) :=
  (W4_of_ne m c main_arg7 (by decide)).trans (W3_main_arg7 m c)

/-! ## Stage 5: the first aggregation -/

/-- The first product aggregated. -/
theorem W5_main_v43 (c : Dev nD) : W5 m c (Proc.devRef .tc main_v43) = (Cert.Chain.aggr32 (G0 (m ((c : Thread nD τ).loc main_arg0)) (m ((c : Thread nD τ).loc main_arg2))) (Cert.Chain.srcOf (m ((c : Thread nD τ).loc main_arg1))) (Cert.Chain.dstOf (m ((c : Thread nD τ).loc main_arg1))) (Cert.Chain.normOf (m ((c : Thread nD τ).loc main_arg1)))) :=
  (hostOps1_v43 (W4 m c)).trans (by rw [W4_main_v31, W4_main_v3, W4_main_v6, W4_main_v30])
/-- The first bias as a one-row table. -/
theorem W5_main_v44 (c : Dev nD) : W5 m c (Proc.devRef .tc main_v44) = (shapeCast _ (m ((c : Thread nD τ).loc main_arg3)) shapeCasts_S32_S1x32) :=
  (hostOps1_v44 (W4 m c)).trans (by rw [W4_main_arg3])
theorem W5_main_v3 (c : Dev nD) : W5 m c (Proc.devRef .tc main_v3) = (Cert.Chain.srcOf (m ((c : Thread nD τ).loc main_arg1))) :=
  (hostOps1_v3 (W4 m c)).trans (W4_main_v3 m c)
theorem W5_main_v6 (c : Dev nD) : W5 m c (Proc.devRef .tc main_v6) = (Cert.Chain.dstOf (m ((c : Thread nD τ).loc main_arg1))) :=
  (hostOps1_v6 (W4 m c)).trans (W4_main_v6 m c)
theorem W5_main_v30 (c : Dev nD) : W5 m c (Proc.devRef .tc main_v30) = (Cert.Chain.normOf (m ((c : Thread nD τ).loc main_arg1))) :=
  (hostOps1_v30 (W4 m c)).trans (W4_main_v30 m c)
theorem W5_main_arg4 (c : Dev nD) : W5 m c (Proc.devRef .tc main_arg4) = (m ((c : Thread nD τ).loc main_arg4)) :=
  (hostOps1_arg4 (W4 m c)).trans (W4_main_arg4 m c)
theorem W5_main_arg5 (c : Dev nD) : W5 m c (Proc.devRef .tc main_arg5) = (m ((c : Thread nD τ).loc main_arg5)) :=
  (hostOps1_arg5 (W4 m c)).trans (W4_main_arg5 m c)
theorem W5_main_arg6 (c : Dev nD) : W5 m c (Proc.devRef .tc main_arg6) = (m ((c : Thread nD τ).loc main_arg6)) :=
  (hostOps1_arg6 (W4 m c)).trans (W4_main_arg6 m c)
theorem W5_main_arg7 (c : Dev nD) : W5 m c (Proc.devRef .tc main_arg7) = (m ((c : Thread nD τ).loc main_arg7)) :=
  (hostOps1_arg7 (W4 m c)).trans (W4_main_arg7 m c)

/-! ## Stage 6: after the second region -/

/-- The first layer's output multiplied into the second product. -/
theorem W6_main_v45 (c : Dev nD) : W6 m c (Proc.devRef .tc main_v45) = (G1 (Cert.Chain.aggr32 (G0 (m ((c : Thread nD τ).loc main_arg0)) (m ((c : Thread nD τ).loc main_arg2))) (Cert.Chain.srcOf (m ((c : Thread nD τ).loc main_arg1))) (Cert.Chain.dstOf (m ((c : Thread nD τ).loc main_arg1))) (Cert.Chain.normOf (m ((c : Thread nD τ).loc main_arg1)))) (shapeCast _ (m ((c : Thread nD τ).loc main_arg3)) shapeCasts_S32_S1x32) (m ((c : Thread nD τ).loc main_arg4))) :=
  (W6_arr m c 3).trans ((final1 (V5 m) c).trans (by
    rw [show V5 m c main_v43 = (Cert.Chain.aggr32 (G0 (m ((c : Thread nD τ).loc main_arg0)) (m ((c : Thread nD τ).loc main_arg2))) (Cert.Chain.srcOf (m ((c : Thread nD τ).loc main_arg1))) (Cert.Chain.dstOf (m ((c : Thread nD τ).loc main_arg1))) (Cert.Chain.normOf (m ((c : Thread nD τ).loc main_arg1)))) from W5_main_v43 m c,
      show V5 m c main_v44 = (shapeCast _ (m ((c : Thread nD τ).loc main_arg3)) shapeCasts_S32_S1x32) from W5_main_v44 m c,
      show V5 m c main_arg4 = (m ((c : Thread nD τ).loc main_arg4)) from W5_main_arg4 m c]))
theorem W6_main_v3 (c : Dev nD) : W6 m c (Proc.devRef .tc main_v3) = (Cert.Chain.srcOf (m ((c : Thread nD τ).loc main_arg1))) :=
  (W6_of_ne m c main_v3 (by decide)).trans (W5_main_v3 m c)
theorem W6_main_v6 (c : Dev nD) : W6 m c (Proc.devRef .tc main_v6) = (Cert.Chain.dstOf (m ((c : Thread nD τ).loc main_arg1))) :=
  (W6_of_ne m c main_v6 (by decide)).trans (W5_main_v6 m c)
theorem W6_main_v30 (c : Dev nD) : W6 m c (Proc.devRef .tc main_v30) = (Cert.Chain.normOf (m ((c : Thread nD τ).loc main_arg1))) :=
  (W6_of_ne m c main_v30 (by decide)).trans (W5_main_v30 m c)
theorem W6_main_arg5 (c : Dev nD) : W6 m c (Proc.devRef .tc main_arg5) = (m ((c : Thread nD τ).loc main_arg5)) :=
  (W6_of_ne m c main_arg5 (by decide)).trans (W5_main_arg5 m c)
theorem W6_main_arg6 (c : Dev nD) : W6 m c (Proc.devRef .tc main_arg6) = (m ((c : Thread nD τ).loc main_arg6)) :=
  (W6_of_ne m c main_arg6 (by decide)).trans (W5_main_arg6 m c)
theorem W6_main_arg7 (c : Dev nD) : W6 m c (Proc.devRef .tc main_arg7) = (m ((c : Thread nD τ).loc main_arg7)) :=
  (W6_of_ne m c main_arg7 (by decide)).trans (W5_main_arg7 m c)

/-! ## Stage 7: the second aggregation -/

/-- The second product aggregated. -/
theorem W7_main_v57 (c : Dev nD) : W7 m c (Proc.devRef .tc main_v57) = (Cert.Chain.aggr64 (G1 (Cert.Chain.aggr32 (G0 (m ((c : Thread nD τ).loc main_arg0)) (m ((c : Thread nD τ).loc main_arg2))) (Cert.Chain.srcOf (m ((c : Thread nD τ).loc main_arg1))) (Cert.Chain.dstOf (m ((c : Thread nD τ).loc main_arg1))) (Cert.Chain.normOf (m ((c : Thread nD τ).loc main_arg1)))) (shapeCast _ (m ((c : Thread nD τ).loc main_arg3)) shapeCasts_S32_S1x32) (m ((c : Thread nD τ).loc main_arg4))) (Cert.Chain.srcOf (m ((c : Thread nD τ).loc main_arg1))) (Cert.Chain.dstOf (m ((c : Thread nD τ).loc main_arg1))) (Cert.Chain.normOf (m ((c : Thread nD τ).loc main_arg1)))) :=
  (hostOps2_v57 (W6 m c)).trans (by rw [W6_main_v45, W6_main_v3, W6_main_v6, W6_main_v30])
/-- The second bias as a one-row table. -/
theorem W7_main_v58 (c : Dev nD) : W7 m c (Proc.devRef .tc main_v58) = (shapeCast _ (m ((c : Thread nD τ).loc main_arg5)) shapeCasts_S64_S1x64) :=
  (hostOps2_v58 (W6 m c)).trans (by rw [W6_main_arg5])
theorem W7_main_arg6 (c : Dev nD) : W7 m c (Proc.devRef .tc main_arg6) = (m ((c : Thread nD τ).loc main_arg6)) :=
  (hostOps2_arg6 (W6 m c)).trans (W6_main_arg6 m c)
theorem W7_main_arg7 (c : Dev nD) : W7 m c (Proc.devRef .tc main_arg7) = (m ((c : Thread nD τ).loc main_arg7)) :=
  (hostOps2_arg7 (W6 m c)).trans (W6_main_arg7 m c)

/-! ## Stage 8: after the third region -/

/-- The second layer's output. -/
theorem W8_main_v59 (c : Dev nD) : W8 m c (Proc.devRef .tc main_v59) = (G2 (Cert.Chain.aggr64 (G1 (Cert.Chain.aggr32 (G0 (m ((c : Thread nD τ).loc main_arg0)) (m ((c : Thread nD τ).loc main_arg2))) (Cert.Chain.srcOf (m ((c : Thread nD τ).loc main_arg1))) (Cert.Chain.dstOf (m ((c : Thread nD τ).loc main_arg1))) (Cert.Chain.normOf (m ((c : Thread nD τ).loc main_arg1)))) (shapeCast _ (m ((c : Thread nD τ).loc main_arg3)) shapeCasts_S32_S1x32) (m ((c : Thread nD τ).loc main_arg4))) (Cert.Chain.srcOf (m ((c : Thread nD τ).loc main_arg1))) (Cert.Chain.dstOf (m ((c : Thread nD τ).loc main_arg1))) (Cert.Chain.normOf (m ((c : Thread nD τ).loc main_arg1)))) (shapeCast _ (m ((c : Thread nD τ).loc main_arg5)) shapeCasts_S64_S1x64)) :=
  (W8_arr m c 2).trans ((final2 (V7 m) c).trans (by
    rw [show V7 m c main_v57 = (Cert.Chain.aggr64 (G1 (Cert.Chain.aggr32 (G0 (m ((c : Thread nD τ).loc main_arg0)) (m ((c : Thread nD τ).loc main_arg2))) (Cert.Chain.srcOf (m ((c : Thread nD τ).loc main_arg1))) (Cert.Chain.dstOf (m ((c : Thread nD τ).loc main_arg1))) (Cert.Chain.normOf (m ((c : Thread nD τ).loc main_arg1)))) (shapeCast _ (m ((c : Thread nD τ).loc main_arg3)) shapeCasts_S32_S1x32) (m ((c : Thread nD τ).loc main_arg4))) (Cert.Chain.srcOf (m ((c : Thread nD τ).loc main_arg1))) (Cert.Chain.dstOf (m ((c : Thread nD τ).loc main_arg1))) (Cert.Chain.normOf (m ((c : Thread nD τ).loc main_arg1)))) from W7_main_v57 m c,
      show V7 m c main_v58 = (shapeCast _ (m ((c : Thread nD τ).loc main_arg5)) shapeCasts_S64_S1x64) from W7_main_v58 m c]))
theorem W8_main_arg6 (c : Dev nD) : W8 m c (Proc.devRef .tc main_arg6) = (m ((c : Thread nD τ).loc main_arg6)) :=
  (W8_of_ne m c main_arg6 (by decide)).trans (W7_main_arg6 m c)
theorem W8_main_arg7 (c : Dev nD) : W8 m c (Proc.devRef .tc main_arg7) = (m ((c : Thread nD τ).loc main_arg7)) :=
  (W8_of_ne m c main_arg7 (by decide)).trans (W7_main_arg7 m c)

/-! ## Stage 9: before the last region -/

/-- The second layer's output as eight rows. -/
theorem W9_main_v60 (c : Dev nD) : W9 m c (Proc.devRef .tc main_v60) = (shapeCast _ (G2 (Cert.Chain.aggr64 (G1 (Cert.Chain.aggr32 (G0 (m ((c : Thread nD τ).loc main_arg0)) (m ((c : Thread nD τ).loc main_arg2))) (Cert.Chain.srcOf (m ((c : Thread nD τ).loc main_arg1))) (Cert.Chain.dstOf (m ((c : Thread nD τ).loc main_arg1))) (Cert.Chain.normOf (m ((c : Thread nD τ).loc main_arg1)))) (shapeCast _ (m ((c : Thread nD τ).loc main_arg3)) shapeCasts_S32_S1x32) (m ((c : Thread nD τ).loc main_arg4))) (Cert.Chain.srcOf (m ((c : Thread nD τ).loc main_arg1))) (Cert.Chain.dstOf (m ((c : Thread nD τ).loc main_arg1))) (Cert.Chain.normOf (m ((c : Thread nD τ).loc main_arg1)))) (shapeCast _ (m ((c : Thread nD τ).loc main_arg5)) shapeCasts_S64_S1x64)) shapeCasts_S80000x64_S8x640000) :=
  (hostOps3_v60 (W8 m c)).trans (by rw [W8_main_v59])
/-- The read-out's bias as a one-by-one table. -/
theorem W9_main_v61 (c : Dev nD) : W9 m c (Proc.devRef .tc main_v61) = (shapeCast _ (m ((c : Thread nD τ).loc main_arg7)) shapeCasts_S1_S1x1) :=
  (hostOps3_v61 (W8 m c)).trans (by rw [W8_main_arg7])
theorem W9_main_arg6 (c : Dev nD) : W9 m c (Proc.devRef .tc main_arg6) = (m ((c : Thread nD τ).loc main_arg6)) :=
  (hostOps3_arg6 (W8 m c)).trans (W8_main_arg6 m c)

/-! ## The result -/

/-- What the last region leaves in the result array, as one term of the program's arguments. -/
theorem result_eq (c : Dev nD) : (dat3 (V9 m) c).arrAt 3 cfg3.N =
    G3 (shapeCast _ (G2 (Cert.Chain.aggr64 (G1 (Cert.Chain.aggr32 (G0 (m ((c : Thread nD τ).loc main_arg0)) (m ((c : Thread nD τ).loc main_arg2))) (Cert.Chain.srcOf (m ((c : Thread nD τ).loc main_arg1))) (Cert.Chain.dstOf (m ((c : Thread nD τ).loc main_arg1))) (Cert.Chain.normOf (m ((c : Thread nD τ).loc main_arg1)))) (shapeCast _ (m ((c : Thread nD τ).loc main_arg3)) shapeCasts_S32_S1x32) (m ((c : Thread nD τ).loc main_arg4))) (Cert.Chain.srcOf (m ((c : Thread nD τ).loc main_arg1))) (Cert.Chain.dstOf (m ((c : Thread nD τ).loc main_arg1))) (Cert.Chain.normOf (m ((c : Thread nD τ).loc main_arg1)))) (shapeCast _ (m ((c : Thread nD τ).loc main_arg5)) shapeCasts_S64_S1x64)) shapeCasts_S80000x64_S8x640000) (m ((c : Thread nD τ).loc main_arg6)) (shapeCast _ (m ((c : Thread nD τ).loc main_arg7)) shapeCasts_S1_S1x1) :=
  (final3 (V9 m) c).trans (by
    rw [show V9 m c main_v60 = (shapeCast _ (G2 (Cert.Chain.aggr64 (G1 (Cert.Chain.aggr32 (G0 (m ((c : Thread nD τ).loc main_arg0)) (m ((c : Thread nD τ).loc main_arg2))) (Cert.Chain.srcOf (m ((c : Thread nD τ).loc main_arg1))) (Cert.Chain.dstOf (m ((c : Thread nD τ).loc main_arg1))) (Cert.Chain.normOf (m ((c : Thread nD τ).loc main_arg1)))) (shapeCast _ (m ((c : Thread nD τ).loc main_arg3)) shapeCasts_S32_S1x32) (m ((c : Thread nD τ).loc main_arg4))) (Cert.Chain.srcOf (m ((c : Thread nD τ).loc main_arg1))) (Cert.Chain.dstOf (m ((c : Thread nD τ).loc main_arg1))) (Cert.Chain.normOf (m ((c : Thread nD τ).loc main_arg1)))) (shapeCast _ (m ((c : Thread nD τ).loc main_arg5)) shapeCasts_S64_S1x64)) shapeCasts_S80000x64_S8x640000) from W9_main_v60 m c,
      show V9 m c main_arg6 = (m ((c : Thread nD τ).loc main_arg6)) from W9_main_arg6 m c,
      show V9 m c main_v61 = (shapeCast _ (m ((c : Thread nD τ).loc main_arg7)) shapeCasts_S1_S1x1) from W9_main_v61 m c])

end Cert.KernelIdeal.Hand

end
-- ==== Proof.KI.Payloads.lean ====
/-
  The kernels' stored values at an index, over the extended reals (operations exact, a change of float format the
  identity): each is the sum, the clamp or the shifted value the mathematics names.
    * layer 1: entry (r, j) of the product X · W1 is ∑ k, X (r, k) * W1 (k, j);
    * layer 2: entry (r, j) of (max (H + b1) 0) · W2 is ∑ k, max (H (r, k) + b1 (0, k)) 0 * W2 (k, j);
    * the clamp: entry (r, j) of max (H + b2) 0;
    * the head: the running column starts at 0, gains ∑ k, P (b, k) * W (k, 0) per step, and is shifted by the
      bias at the end.
-/
import proofs.«104075_j8031588844234_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

open scoped BigOperators

namespace Cert.KernelIdeal.Val

open Cert.KernelIdeal Cert.KernelIdeal.Gen Idealize.ShloMosaic Idealize.ShloMosaic.ValueIdx

/-! ## The plain matrix product `[M, K] × [K, N]` into a zero accumulator, at an index -/

section Plain

variable {M K N : Nat}

/-- On the row axis the left operand's index is the output's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(r, j)` and contraction coordinate `k` is `(r, k)`. -/
theorem plain_lhsIdx (r : Fin M) (j : Fin N) (k : Fin K) :
    (DotDims.plain M K N).lhsIdx (ix2 r j) ((contrEquiv1 (DotDims.plain M K N) K rfl rfl).symm k) = ix2 r k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(r, j)` and contraction coordinate `k` is `(k, j)`. -/
theorem plain_rhsIdx (r : Fin M) (j : Fin N) (k : Fin K) :
    (DotDims.plain M K N).rhsIdx (ix2 r j) ((contrEquiv1 (DotDims.plain M K N) K rfl rfl).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- The product into a zero accumulator at `(r, j)` is the sum over the contracted axis. -/
theorem plain_zero_apply {φ₁ φ₂ : FTy} (l : FVec Ideal ⟨2, ![M, K]⟩ φ₁) (w : FVec Ideal ⟨2, ![K, N]⟩ φ₂) (r : Fin M) (j : Fin N) :
    matmul (F := Ideal) (DotDims.plain M K N) none l w (constant (F := Ideal) ⟨2, ![M, N]⟩ .f32 0x00000000#32) (ix2 r j)
      = ∑ k : Fin K, l (ix2 r k) * w (ix2 k j) := by
  simp only [matmul]
  rw [Ideal.matmul_constant_zero_apply, ← Equiv.sum_comp (contrEquiv1 (DotDims.plain M K N) K rfl rfl).symm]
  refine Finset.sum_congr rfl fun k _ => ?_
  rw [plain_lhsIdx, plain_rhsIdx]

end Plain

/-! ## The three products of the kernels are plain products -/

theorem dot0_eq : dot_S10000x128_S128x32_S10000x32_1_0_0_1_n_n = DotDims.plain 10000 128 32 := rfl
theorem dot1_eq : dot_S10000x32_S32x64_S10000x64_1_0_0_1_n_n = DotDims.plain 10000 32 64 := rfl
theorem dot3_eq : dot_S8x6400_S6400x1_S8x1_1_0_0_1_n_n = DotDims.plain 8 6400 1 := rfl

/-- The zero word is zero. -/
theorem scalar_zero : (Scalar.ofBits (F := Ideal) .f32 0x00000000#32 : Ideal .f32) = 0 := Ideal.ofBits_zero_f32

/-! ## The stored values at an index -/

/-- Layer 1 at `(r, j)`. -/
theorem k0_pay1_apply (v0 : Vec Ideal S10000x128 .f32) (v2 : Vec Ideal S128x32 .f32) (r : Fin 10000) (j : Fin 32) :
    k0_pay1 (F := Ideal) v0 v2 (ix2 r j) = ∑ k : Fin 128, v0 (ix2 r k) * v2 (ix2 k j) := by
  unfold k0_pay1
  rw [dot0_eq, plain_zero_apply]
  rfl

/-- Layer 2 at `(r, j)`. -/
theorem k1_pay1_apply (v0 : Vec Ideal S10000x32 .f32) (v2 : Vec Ideal S1x32 .f32) (v9 : Vec Ideal S32x64 .f32) (r : Fin 10000) (j : Fin 64) :
    k1_pay1 (F := Ideal) v0 v2 v9 (ix2 r j) = ∑ k : Fin 32, (max (v0 (ix2 r k) + v2 (ix2 0 k)) 0) * v9 (ix2 k j) := by
  unfold k1_pay1
  rw [dot1_eq, plain_zero_apply]
  refine Finset.sum_congr rfl fun k _ => ?_
  rw [truncf_apply, truncf_apply, maximumf_apply, addf_apply, broadcast_apply, shapeCast_self, shapeCast_self,
    broadcastTo_1b_ab_apply, scalar_zero]

/-- The clamp at `(r, j)`. -/
theorem k2_pay1_apply (v0 : Vec Ideal S10000x64 .f32) (v2 : Vec Ideal S1x64 .f32) (r : Fin 10000) (j : Fin 64) :
    k2_pay1 (F := Ideal) v0 v2 (ix2 r j) = max (v0 (ix2 r j) + v2 (ix2 0 j)) 0 := by
  unfold k2_pay1
  rw [maximumf_apply, addf_apply, broadcast_apply, shapeCast_self, shapeCast_self, broadcastTo_1b_ab_apply, scalar_zero]

/-- The head's running column starts at zero. -/
theorem k3_pay1_apply (b : Fin 8) : k3_pay1 (F := Ideal) (ix2 b 0) = 0 := by
  unfold k3_pay1
  rw [shapeCast_self, broadcast_apply, scalar_zero]

/-- One step of the head: the running column gains the block's product. -/
theorem k3_pay2_apply (v3 : Vec Ideal S8x1 .f32) (v4 : Vec Ideal S8x6400 .f32) (v7 : Vec Ideal S6400x1 .f32) (b : Fin 8) :
    k3_pay2 (F := Ideal) v3 v4 v7 (ix2 b 0) = v3 (ix2 b 0) + ∑ k : Fin 6400, v4 (ix2 b k) * v7 (ix2 k 0) := by
  unfold k3_pay2
  rw [shapeCast_self, addf_apply, dot3_eq, plain_zero_apply]
  refine congrArg (v3 (ix2 b 0) + ·) (Finset.sum_congr rfl fun k _ => ?_)
  rw [truncf_apply, truncf_apply, shapeCast_self]

/-- The head's last step: the running column shifted by the bias. -/
theorem k3_pay3_apply (v17 : Vec Ideal S8x1 .f32) (v18 : Vec Ideal S1x1 .f32) (b : Fin 8) :
    k3_pay3 (F := Ideal) v17 v18 (ix2 b 0) = v17 (ix2 b 0) + v18 (ix2 0 0) := by
  unfold k3_pay3
  rw [addf_apply, shapeCast_self, broadcastTo_1b_ab_apply]

end Cert.KernelIdeal.Val

end
-- ==== Proof.RefDots.lean ====
/-
  The reference's steps at an index, over the extended reals (operations exact):
    * its three products: entry (i, j) of X · W is ∑ k, X (i, k) * W (k, j);
    * its re-laying of the [80000, 64] array as [8, 640000]: entry (b, q) is entry (b * 10000 + q / 64, q % 64);
    * a bias row added and the sum clamped below at zero: entry (i, j) is max (A (i, j) + c j) 0;
    * the last bias: entry (b, 0) is Y (b, 0) + c 0.
-/
import proofs.«104075_j8031588844234_2_alg».proof.ReferenceIdeal
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

open scoped BigOperators

namespace Cert.ReferenceIdeal.Val

open Cert.ReferenceIdeal Idealize.ShloMosaic Idealize.ShloMosaic.ValueIdx

/-! ## The plain matrix product `[M, K] × [K, N]` on the host, at an index -/

section Plain

variable {M K N : Nat}

/-- On the row axis the left operand's index is the output's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(r, j)` and contraction coordinate `k` is `(r, k)`. -/
theorem plain_lhsIdx (r : Fin M) (j : Fin N) (k : Fin K) :
    (DotDims.plain M K N).lhsIdx (ix2 r j) ((contrEquiv1 (DotDims.plain M K N) K rfl rfl).symm k) = ix2 r k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(r, j)` and contraction coordinate `k` is `(k, j)`. -/
theorem plain_rhsIdx (r : Fin M) (j : Fin N) (k : Fin K) :
    (DotDims.plain M K N).rhsIdx (ix2 r j) ((contrEquiv1 (DotDims.plain M K N) K rfl rfl).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- The host's product at `(r, j)` is the sum over the contracted axis. -/
theorem plain_dot_apply {φ₁ φ₂ : FTy} (l : FVec Ideal ⟨2, ![M, K]⟩ φ₁) (w : FVec Ideal ⟨2, ![K, N]⟩ φ₂) (r : Fin M) (j : Fin N) :
    Host.dotGeneral (F := Ideal) (DotDims.plain M K N) none l w (ix2 r j) = ∑ k : Fin K, l (ix2 r k) * w (ix2 k j) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Plain

/-! ## A row broadcast over many rows, and the zero scalar broadcast to an array -/

section Broadcasts

variable {α : Type}

/-- A `[N]` row laid as `[1, N]` and broadcast to `[M, N]` reads, at `(i, j)`, the row at `j`. -/
theorem rowBcast_apply {M N : Nat} (h' : (⟨1, ![N]⟩ : Shape).BroadcastsInDim ⟨2, ![1, N]⟩ ![1])
    (h : (⟨2, ![1, N]⟩ : Shape).BroadcastsInDim ⟨2, ![M, N]⟩ ![0, 1]) (c : (⟨1, ![N]⟩ : Shape).Idx → α) (i : Fin M) (j : Fin N) :
    broadcastInDim ⟨2, ![M, N]⟩ ![0, 1] h (broadcastInDim ⟨2, ![1, N]⟩ ![1] h' c) (ix2 i j) = c (ix1 j) := by
  refine (broadcastInDim_apply _ h _ (ix2 i j) (ix2 (0 : Fin 1) j) fun a => ?_).trans
    (broadcastInDim_apply _ h' c (ix2 (0 : Fin 1) j) (ix1 j) fun a => ?_)
  · match a with
    | ⟨0, _⟩ => show (0 : Nat) = if (1 : Nat) = 1 then 0 else i.val; rw [if_pos rfl]
    | ⟨1, _⟩ =>
      show j.val = if N = 1 then 0 else j.val
      split
      · have := j.isLt; omega
      · rfl
  · match a with
    | ⟨0, _⟩ =>
      show j.val = if N = 1 then 0 else j.val
      split
      · have := j.isLt; omega
      · rfl

/-- The zero scalar broadcast to any shape reads zero everywhere. -/
theorem zeroBcast_apply {s : Shape} (h : (⟨0, ![]⟩ : Shape).BroadcastsInDim s ![]) (i : s.Idx) :
    broadcastInDim s ![] h (constant (F := Ideal) ⟨0, ![]⟩ .f32 0x00000000#32) i = 0 :=
  (broadcastInDim_apply _ h _ i ix0 fun a => a.elim0).trans Ideal.ofBits_zero_f32

end Broadcasts

variable [Facts₀]
open Facts₀

/-! ## The reference's three products are plain products -/

theorem dot1_eq : dot_S80000x128_S128x32_S80000x32_1_0_0_1_n_n = DotDims.plain 80000 128 32 := rfl
theorem dot2_eq : dot_S80000x32_S32x64_S80000x64_1_0_0_1_n_n = DotDims.plain 80000 32 64 := rfl
theorem dot3_eq : dot_S8x640000_S640000x1_S8x1_1_0_0_1_n_n = DotDims.plain 8 640000 1 := rfl

/-- The first layer's product at `(i, j)`. -/
theorem dot1_apply (x : (⟨S80000x128, .f32⟩ : BufTy).Contents (Elt Ideal)) (w : (⟨S128x32, .f32⟩ : BufTy).Contents (Elt Ideal))
    (i : Fin 80000) (j : Fin 32) :
    Host.dotGeneral (F := Ideal) (φ₁ := .f32) (φ₂ := .f32) dot_S80000x128_S128x32_S80000x32_1_0_0_1_n_n none x w (ix2 i j)
      = ∑ k : Fin 128, x (ix2 i k) * w (ix2 k j) := by
  rw [dot1_eq]
  exact plain_dot_apply x w i j

/-- The second layer's product at `(i, j)`. -/
theorem dot2_apply (x : (⟨S80000x32, .f32⟩ : BufTy).Contents (Elt Ideal)) (w : (⟨S32x64, .f32⟩ : BufTy).Contents (Elt Ideal))
    (i : Fin 80000) (j : Fin 64) :
    Host.dotGeneral (F := Ideal) (φ₁ := .f32) (φ₂ := .f32) dot_S80000x32_S32x64_S80000x64_1_0_0_1_n_n none x w (ix2 i j)
      = ∑ k : Fin 32, x (ix2 i k) * w (ix2 k j) := by
  rw [dot2_eq]
  exact plain_dot_apply x w i j

/-- The head's product at `(b, 0)`. -/
theorem dot3_apply (x : (⟨S8x640000, .f32⟩ : BufTy).Contents (Elt Ideal)) (w : (⟨S640000x1, .f32⟩ : BufTy).Contents (Elt Ideal))
    (b : Fin 8) :
    Host.dotGeneral (F := Ideal) (φ₁ := .f32) (φ₂ := .f32) dot_S8x640000_S640000x1_S8x1_1_0_0_1_n_n none x w (ix2 b 0)
      = ∑ k : Fin 640000, x (ix2 b k) * w (ix2 k 0) := by
  rw [dot3_eq]
  exact plain_dot_apply x w b 0

/-! ## The re-laying `[80000, 64] → [8, 640000]` at an index -/

/-- Entry `(b, q)` of the re-laid array is entry `(b * 10000 + q / 64, q % 64)` of the array: the same row-major place. -/
theorem reshape_apply {α : Type} (a : S80000x64.Idx → α) (b : Fin 8) (q : Fin 640000) :
    shapeCast S8x640000 a shapeCasts_S80000x64_S8x640000 (ix2 b q)
      = a (ix2 (⟨b.val * 10000 + q.val / 64, by have := b.isLt; have := q.isLt; omega⟩ : Fin 80000)
            (⟨q.val % 64, Nat.mod_lt _ (by decide)⟩ : Fin 64)) := by
  refine shapeCast_apply a shapeCasts_S80000x64_S8x640000 (ix2 b q) _ ?_
  rw [Shape.rowMajor_val_two, Shape.rowMajor_val_two]
  show (b.val * 10000 + q.val / 64) * 64 + q.val % 64 = b.val * 640000 + q.val
  omega

/-! ## Bias and clamp at an index -/

/-- The first layer's bias and clamp at `(i, j)`. -/
theorem biasRelu32_apply (a : (⟨S80000x32, .f32⟩ : BufTy).Contents (Elt Ideal)) (c : (⟨S32, .f32⟩ : BufTy).Contents (Elt Ideal))
    (i : Fin 80000) (j : Fin 32) :
    maximumf (F := Ideal) (φ := .f32)
        (addf (F := Ideal) (φ := .f32) a (broadcastInDim S80000x32 ![0, 1] bcast_S1x32_S80000x32_0_1 (broadcastInDim S1x32 ![1] bcast_S32_S1x32_1 c)))
        (broadcastInDim S80000x32 ![] bcast_S_S80000x32 (constant (F := Ideal) S_ .f32 0x00000000#32)) (ix2 i j)
      = max (a (ix2 i j) + c (ix1 j)) 0 := by
  rw [maximumf_apply, addf_apply, rowBcast_apply, zeroBcast_apply]

/-- The second layer's bias and clamp at `(i, j)`. -/
theorem biasRelu64_apply (a : (⟨S80000x64, .f32⟩ : BufTy).Contents (Elt Ideal)) (c : (⟨S64, .f32⟩ : BufTy).Contents (Elt Ideal))
    (i : Fin 80000) (j : Fin 64) :
    maximumf (F := Ideal) (φ := .f32)
        (addf (F := Ideal) (φ := .f32) a (broadcastInDim S80000x64 ![0, 1] bcast_S1x64_S80000x64_0_1 (broadcastInDim S1x64 ![1] bcast_S64_S1x64_1 c)))
        (broadcastInDim S80000x64 ![] bcast_S_S80000x64 (constant (F := Ideal) S_ .f32 0x00000000#32)) (ix2 i j)
      = max (a (ix2 i j) + c (ix1 j)) 0 := by
  rw [maximumf_apply, addf_apply, rowBcast_apply, zeroBcast_apply]

/-- The head's bias at `(b, 0)`. -/
theorem headBias_apply (y : (⟨S8x1, .f32⟩ : BufTy).Contents (Elt Ideal)) (c : (⟨S1, .f32⟩ : BufTy).Contents (Elt Ideal)) (b : Fin 8) :
    addf (F := Ideal) (φ := .f32) y (broadcastInDim S8x1 ![0, 1] bcast_S1x1_S8x1_0_1 (broadcastInDim S1x1 ![1] bcast_S1_S1x1_1 c)) (ix2 b 0)
      = y (ix2 b 0) + c (ix1 0) := by
  rw [addf_apply, rowBcast_apply]

end Cert.ReferenceIdeal.Val

end
-- ==== Proof.LibChunks.lean ====
/-
  A running value updated chunk by chunk ends at the value over the whole range.

  A range of T·C places is visited in T chunks of C places. Three running values are considered, each started at a
  value b and updated once per chunk: a sum that adds the chunk's sum, a minimum that takes the minimum with the chunk's
  minimum, a maximum that takes the maximum with the chunk's maximum. After the last chunk the sum is the sum over all
  places (in any commutative additive monoid, so on the extended reals with no finiteness asked), and the minimum
  (maximum) is the minimum (maximum) from b over all places (in any linear order; the chunk's own minimum may be taken
  from any start value not below b, the chunk's own maximum from any start value not above b, since b is folded in
  anyway). Over Mathlib only.
-/
import Mathlib.Algebra.BigOperators.Fin
import Mathlib.Logic.Equiv.Fin.Basic
import Mathlib.Data.Finset.Fold
import Mathlib.Order.Lattice

namespace LibChunks

open Finset

/-- The place C·t + c lies below T·C when t < T and c < C. -/
theorem place_lt {T C : ℕ} {t : ℕ} (ht : t < T) (c : Fin C) : C * t + c.val < T * C := by
  calc C * t + c.val < C * t + C := Nat.add_lt_add_left c.isLt _
    _ = C * (t + 1) := (Nat.mul_succ _ _).symm
    _ ≤ C * T := Nat.mul_le_mul_left _ ht
    _ = T * C := Nat.mul_comm _ _

/-- Every place below T·C is C·t + c for its chunk t and its position c in the chunk. -/
theorem place_split {T C : ℕ} (k : Fin (T * C)) :
    ∃ (t : ℕ) (ht : t < T) (c : Fin C), (⟨C * t + c.val, place_lt ht c⟩ : Fin (T * C)) = k := by
  have hlt : k.val < T * C := k.isLt
  have hC : 0 < C := by
    rcases Nat.eq_zero_or_pos C with h | h
    · exfalso
      have h2 : T * C = 0 := by rw [h, Nat.mul_zero]
      omega
    · exact h
  have hk : k.val < C * T := by
    have h3 := Nat.mul_comm C T
    omega
  refine ⟨k.val / C, Nat.div_lt_of_lt_mul hk, ⟨k.val % C, Nat.mod_lt _ hC⟩, Fin.ext ?_⟩
  exact Nat.div_add_mod k.val C

section Sum

variable {M : Type*} [AddCommMonoid M]

/-- A sum started at zero that adds one chunk's sum per step holds, after n steps, the sum of the first n chunks. -/
theorem chain_sum_prefix (T : ℕ) (S : (t : ℕ) → t < T → M) (acc : ℕ → M) (h0 : acc 0 = 0)
    (hs : ∀ n (h : n < T), acc (n + 1) = acc n + S n h) :
    ∀ n (hn : n ≤ T), acc n = ∑ t : Fin n, S t.val (Nat.lt_of_lt_of_le t.isLt hn)
  | 0, _ => by rw [h0]; exact (Finset.sum_empty).symm
  | n + 1, hn => by
    rw [hs n hn, chain_sum_prefix T S acc h0 hs n (Nat.le_of_lt hn), Fin.sum_univ_castSucc]
    rfl

/-- … and after the last step the sum over all T·C places. -/
theorem chain_sum_blocks (T C : ℕ) (g : Fin (T * C) → M) (acc : ℕ → M) (h0 : acc 0 = 0)
    (hs : ∀ n (h : n < T), acc (n + 1) = acc n + ∑ c : Fin C, g ⟨C * n + c.val, place_lt h c⟩) :
    acc T = ∑ k : Fin (T * C), g k := by
  rw [chain_sum_prefix T (fun n h => ∑ c : Fin C, g ⟨C * n + c.val, place_lt h c⟩) acc h0 hs T (Nat.le_refl _),
    ← Equiv.sum_comp (finProdFinEquiv (m := T) (n := C)) g, Fintype.sum_prod_type]
  refine Finset.sum_congr rfl fun t _ => Finset.sum_congr rfl fun c _ => ?_
  congr 1
  apply Fin.ext
  simp [finProdFinEquiv, Nat.add_comm]

end Sum

section Order

variable {β : Type*} [LinearOrder β]

/-- A minimum started at b that takes, per step, the minimum with the chunk's minimum (from any b' ≥ b) is, after the
    last step, the minimum from b over all T·C places. -/
theorem chain_min_blocks (T C : ℕ) (b b' : β) (hb : b ≤ b') (g : Fin (T * C) → β) (acc : ℕ → β) (h0 : acc 0 = b)
    (hs : ∀ n (h : n < T), acc (n + 1)
      = min (acc n) ((Finset.univ : Finset (Fin C)).fold min b' fun c => g ⟨C * n + c.val, place_lt h c⟩)) :
    acc T = (Finset.univ : Finset (Fin (T * C))).fold min b g := by
  have key : ∀ n (hn : n ≤ T) (z : β),
      z ≤ acc n ↔ z ≤ b ∧ ∀ t (ht : t < n) (c : Fin C), z ≤ g ⟨C * t + c.val, place_lt (Nat.lt_of_lt_of_le ht hn) c⟩ := by
    intro n
    induction n with
    | zero => intro _ z; rw [h0]; exact ⟨fun h => ⟨h, fun t ht => absurd ht (Nat.not_lt_zero t)⟩, fun h => h.1⟩
    | succ n ih =>
      intro hn z
      rw [hs n hn, le_min_iff, ih (Nat.le_of_lt hn), Finset.le_fold_min]
      constructor
      · rintro ⟨⟨h1, h2⟩, _, h4⟩
        refine ⟨h1, fun t ht c => ?_⟩
        rcases Nat.lt_succ_iff_lt_or_eq.mp ht with h | rfl
        · exact h2 t h c
        · exact h4 c (Finset.mem_univ c)
      · rintro ⟨h1, h2⟩
        exact ⟨⟨h1, fun t ht c => h2 t (Nat.lt_succ_of_lt ht) c⟩, le_trans h1 hb, fun c _ => h2 n (Nat.lt_succ_self n) c⟩
  refine le_antisymm ?_ ?_
  · refine (Finset.le_fold_min _).2 ⟨((key T (Nat.le_refl _) _).1 le_rfl).1, fun k _ => ?_⟩
    obtain ⟨t, ht, c, rfl⟩ := place_split k
    exact ((key T (Nat.le_refl _) _).1 le_rfl).2 t ht c
  · refine (key T (Nat.le_refl _) _).2 ⟨(Finset.le_fold_min _).1 le_rfl |>.1, fun t ht c => ?_⟩
    exact ((Finset.le_fold_min _).1 le_rfl).2 _ (Finset.mem_univ _)

/-- A maximum started at b that takes, per step, the maximum with the chunk's maximum (from any b' ≤ b) is, after the
    last step, the maximum from b over all T·C places. -/
theorem chain_max_blocks (T C : ℕ) (b b' : β) (hb : b' ≤ b) (g : Fin (T * C) → β) (acc : ℕ → β) (h0 : acc 0 = b)
    (hs : ∀ n (h : n < T), acc (n + 1)
      = max (acc n) ((Finset.univ : Finset (Fin C)).fold max b' fun c => g ⟨C * n + c.val, place_lt h c⟩)) :
    acc T = (Finset.univ : Finset (Fin (T * C))).fold max b g := by
  have key : ∀ n (hn : n ≤ T) (z : β),
      acc n ≤ z ↔ b ≤ z ∧ ∀ t (ht : t < n) (c : Fin C), g ⟨C * t + c.val, place_lt (Nat.lt_of_lt_of_le ht hn) c⟩ ≤ z := by
    intro n
    induction n with
    | zero => intro _ z; rw [h0]; exact ⟨fun h => ⟨h, fun t ht => absurd ht (Nat.not_lt_zero t)⟩, fun h => h.1⟩
    | succ n ih =>
      intro hn z
      rw [hs n hn, max_le_iff, ih (Nat.le_of_lt hn), Finset.fold_max_le]
      constructor
      · rintro ⟨⟨h1, h2⟩, _, h4⟩
        refine ⟨h1, fun t ht c => ?_⟩
        rcases Nat.lt_succ_iff_lt_or_eq.mp ht with h | rfl
        · exact h2 t h c
        · exact h4 c (Finset.mem_univ c)
      · rintro ⟨h1, h2⟩
        exact ⟨⟨h1, fun t ht c => h2 t (Nat.lt_succ_of_lt ht) c⟩, le_trans hb h1, fun c _ => h2 n (Nat.lt_succ_self n) c⟩
  refine le_antisymm ?_ ?_
  · refine (key T (Nat.le_refl _) _).2 ⟨(Finset.fold_max_le _).1 le_rfl |>.1, fun t ht c => ?_⟩
    exact ((Finset.fold_max_le _).1 le_rfl).2 _ (Finset.mem_univ _)
  · refine (Finset.fold_max_le _).2 ⟨((key T (Nat.le_refl _) _).1 le_rfl).1, fun k _ => ?_⟩
    obtain ⟨t, ht, c, rfl⟩ := place_split k
    exact ((key T (Nat.le_refl _) _).1 le_rfl).2 t ht c

end Order

end LibChunks
-- ==== Proof.KI.Bridge.lean ====
/-
  The kernels' whole output arrays are the reference's steps, over the extended reals.
    * A layer computed band by band (8 bands of 10000 rows) is the product of the whole arrays: row r of the array is
      row r % 10000 of band r / 10000, and a row of a product reads that row of the left operand only.
    * The bias row and the clamp act entry by entry, so they commute with taking bands.
    * The head's running column, updated once per chunk of 6400 places over 100 chunks, ends at the sum over all
      640000 places: sums over the extended reals regroup freely.
-/
import proofs.«104075_j8031588844234_2_alg».proof.Proof.KI.Payloads
import proofs.«104075_j8031588844234_2_alg».proof.Proof.KI.Fin0
import proofs.«104075_j8031588844234_2_alg».proof.Proof.KI.Fin1
import proofs.«104075_j8031588844234_2_alg».proof.Proof.KI.Fin2
import proofs.«104075_j8031588844234_2_alg».proof.Proof.KI.Fin3
import proofs.«104075_j8031588844234_2_alg».proof.Proof.RefDots
import proofs.«104075_j8031588844234_2_alg».proof.Proof.Chain
import proofs.«104075_j8031588844234_2_alg».proof.Proof.LibChunks

set_option synthInstance.maxSize 4096

noncomputable section

open scoped BigOperators

namespace Cert.KernelIdeal.Val

open Cert.KernelIdeal Cert.KernelIdeal.Gen Cert.KernelIdeal.Hand Idealize.ShloMosaic Idealize.ShloMosaic.ValueIdx

/-! ## Bands of rows -/

/-- Row `r` is row `r % 10000` of band `r / 10000`. -/
theorem band_row (p : Fin 80000) (h : 10000 * (p.val / 10000) + p.val % 10000 < 80000) :
    (⟨10000 * (p.val / 10000) + p.val % 10000, h⟩ : Fin 80000) = p := Fin.ext (Nat.div_add_mod _ _)

variable [Cert.ReferenceIdeal.Facts₀]

/-! ## Layer 1 -/

/-- The first layer's output array is the product of the whole arrays. -/
theorem G0_eq_dot (x : S80000x128.Idx → Elt Ideal .f32) (w : S128x32.Idx → Elt Ideal .f32) :
    G0 (F := Ideal) x w
      = Host.dotGeneral (F := Ideal) (φ₁ := .f32) (φ₂ := .f32) Cert.ReferenceIdeal.dot_S80000x128_S128x32_S80000x32_1_0_0_1_n_n none x w := by
  funext i
  obtain ⟨p, q, rfl⟩ : ∃ (p : Fin 80000) (q : Fin 32), i = ix2 p q := ⟨i 0, i 1, eq_ix2 i⟩
  refine Eq.trans ?_ (Cert.ReferenceIdeal.Val.dot1_apply x w p q).symm
  unfold G0
  rw [k0_pay1_apply]
  refine Finset.sum_congr rfl fun k _ => ?_
  show x (ix2 ⟨10000 * (p.val / 10000) + p.val % 10000, _⟩ k) * w (ix2 k q) = x (ix2 p k) * w (ix2 k q)
  rw [band_row]

/-! ## Bias and clamp over the whole array, at an index -/

/-- The first layer's bias and clamp at `(i, j)`. -/
theorem chain_biasRelu32_apply (a : S80000x32.Idx → Elt Ideal .f32) (c : S32.Idx → Elt Ideal .f32) (i : Fin 80000) (j : Fin 32) :
    Cert.Chain.biasRelu32 (F := Ideal) a c (ix2 i j) = max (a (ix2 i j) + c (ix1 j)) 0 := by
  unfold Cert.Chain.biasRelu32
  rw [maximumf_apply, addf_apply, Cert.ReferenceIdeal.Val.rowBcast_apply, Cert.ReferenceIdeal.Val.zeroBcast_apply]

/-- The second layer's bias and clamp at `(i, j)`. -/
theorem chain_biasRelu64_apply (a : S80000x64.Idx → Elt Ideal .f32) (c : S64.Idx → Elt Ideal .f32) (i : Fin 80000) (j : Fin 64) :
    Cert.Chain.biasRelu64 (F := Ideal) a c (ix2 i j) = max (a (ix2 i j) + c (ix1 j)) 0 := by
  unfold Cert.Chain.biasRelu64
  rw [maximumf_apply, addf_apply, Cert.ReferenceIdeal.Val.rowBcast_apply, Cert.ReferenceIdeal.Val.zeroBcast_apply]

/-! ## Layer 2 -/

/-- The second layer's output array is the product of the clamped, biased array with the weights. -/
theorem G1_eq_dot (a : S80000x32.Idx → Elt Ideal .f32) (b1 : S32.Idx → Elt Ideal .f32) (w : S32x64.Idx → Elt Ideal .f32) :
    G1 (F := Ideal) a (shapeCast S1x32 b1 shapeCasts_S32_S1x32) w
      = Host.dotGeneral (F := Ideal) (φ₁ := .f32) (φ₂ := .f32) Cert.ReferenceIdeal.dot_S80000x32_S32x64_S80000x64_1_0_0_1_n_n none
          (Cert.Chain.biasRelu32 (F := Ideal) a b1) w := by
  funext i
  obtain ⟨p, q, rfl⟩ : ∃ (p : Fin 80000) (q : Fin 64), i = ix2 p q := ⟨i 0, i 1, eq_ix2 i⟩
  refine Eq.trans ?_ (Cert.ReferenceIdeal.Val.dot2_apply (Cert.Chain.biasRelu32 (F := Ideal) a b1) w p q).symm
  unfold G1
  rw [k1_pay1_apply]
  refine Finset.sum_congr rfl fun k _ => ?_
  rw [chain_biasRelu32_apply, shapeCast_a_1a_apply]
  show max (a (ix2 ⟨10000 * (p.val / 10000) + p.val % 10000, _⟩ k) + b1 (ix1 k)) 0 * w (ix2 k q)
    = max (a (ix2 p k) + b1 (ix1 k)) 0 * w (ix2 k q)
  rw [band_row]

/-! ## The clamp -/

/-- The third kernel's output array is the biased array clamped below at zero. -/
theorem G2_eq (a : S80000x64.Idx → Elt Ideal .f32) (b2 : S64.Idx → Elt Ideal .f32) :
    G2 (F := Ideal) a (shapeCast S1x64 b2 shapeCasts_S64_S1x64) = Cert.Chain.biasRelu64 (F := Ideal) a b2 := by
  funext i
  obtain ⟨p, q, rfl⟩ : ∃ (p : Fin 80000) (q : Fin 64), i = ix2 p q := ⟨i 0, i 1, eq_ix2 i⟩
  rw [chain_biasRelu64_apply]
  unfold G2
  rw [k2_pay1_apply, shapeCast_a_1a_apply]
  show max (a (ix2 ⟨10000 * (p.val / 10000) + p.val % 10000, _⟩ q) + b2 (ix1 q)) 0 = max (a (ix2 p q) + b2 (ix1 q)) 0
  rw [band_row]

/-! ## The head -/

/-- One chunk's contribution to row `b`: the sum over the chunk's 6400 places. -/
theorem chunk_apply (f : S8x640000.Idx → Elt Ideal .f32) (w : S640000x1.Idx → Elt Ideal .f32) (b : Fin 8)
    (v3 : Vec Ideal S8x1 .f32) (n : ℕ) (h : n < 100) :
    k3_pay2 (F := Ideal) v3 (cols6400 f ⟨n, h⟩) (rows6400 w ⟨n, h⟩) (ix2 b 0)
      = v3 (ix2 b 0) + ∑ c : Fin 6400,
          (fun k : Fin (100 * 6400) => f (ix2 b k) * w (ix2 k 0)) ⟨6400 * n + c.val, LibChunks.place_lt h c⟩ := by
  rw [k3_pay2_apply]
  rfl

/-- The running column after the last chunk holds, in row `b`, the sum over all 640000 places. -/
theorem accG_last (f : S8x640000.Idx → Elt Ideal .f32) (w : S640000x1.Idx → Elt Ideal .f32) (b : Fin 8) :
    accG (F := Ideal) f w 99 (by decide) (ix2 b 0) = ∑ k : Fin 640000, f (ix2 b k) * w (ix2 k 0) := by
  let g : Fin (100 * 6400) → EReal := fun k => f (ix2 b k) * w (ix2 k 0)
  let acc : ℕ → EReal := fun n => match n with
    | 0 => 0
    | m + 1 => if h : m < 100 then accG (F := Ideal) f w m h (ix2 b 0) else 0
  have h0 : acc 0 = 0 := rfl
  have hs : ∀ n (h : n < 100), acc (n + 1) = acc n + ∑ c : Fin 6400, g ⟨6400 * n + c.val, LibChunks.place_lt h c⟩ := by
    intro n h
    show (if h' : n < 100 then accG (F := Ideal) f w n h' (ix2 b 0) else 0) = _
    rw [dif_pos h]
    match n, h with
    | 0, h =>
      show k3_pay2 (F := Ideal) (k3_pay1 (F := Ideal)) (cols6400 f ⟨0, h⟩) (rows6400 w ⟨0, h⟩) (ix2 b 0) = (0 : EReal) + _
      rw [chunk_apply, k3_pay1_apply]
    | m + 1, h =>
      show k3_pay2 (F := Ideal) (accG f w m (Nat.lt_of_succ_lt h)) (cols6400 f ⟨m + 1, h⟩) (rows6400 w ⟨m + 1, h⟩) (ix2 b 0)
        = (if h' : m < 100 then accG (F := Ideal) f w m h' (ix2 b 0) else 0) + _
      rw [chunk_apply, dif_pos (Nat.lt_of_succ_lt h)]
  have key := LibChunks.chain_sum_blocks 100 6400 g acc h0 hs
  have h100 : acc 100 = accG (F := Ideal) f w 99 (by decide) (ix2 b 0) := dif_pos (by decide)
  rw [← h100, key]

/-- The head's output is the product of the whole arrays, shifted by the bias. -/
theorem G3_eq (f : S8x640000.Idx → Elt Ideal .f32) (w : S640000x1.Idx → Elt Ideal .f32) (bout : S1.Idx → Elt Ideal .f32) :
    G3 (F := Ideal) f w (shapeCast S1x1 bout shapeCasts_S1_S1x1)
      = addf (F := Ideal) (φ := .f32)
          (Host.dotGeneral (F := Ideal) (φ₁ := .f32) (φ₂ := .f32) Cert.ReferenceIdeal.dot_S8x640000_S640000x1_S8x1_1_0_0_1_n_n none f w)
          (broadcastInDim Cert.ReferenceIdeal.S8x1 ![0, 1] Cert.ReferenceIdeal.Facts₀.bcast_S1x1_S8x1_0_1
            (broadcastInDim Cert.ReferenceIdeal.S1x1 ![1] Cert.ReferenceIdeal.Facts₀.bcast_S1_S1x1_1 bout)) := by
  funext i
  obtain ⟨b, z, rfl⟩ : ∃ (b : Fin 8) (z : Fin 1), i = ix2 b z := ⟨i 0, i 1, eq_ix2 i⟩
  obtain rfl : z = 0 := Subsingleton.elim _ _
  refine Eq.trans ?_ (Cert.ReferenceIdeal.Val.headBias_apply _ bout b).symm
  rw [Cert.ReferenceIdeal.Val.dot3_apply]
  unfold G3
  rw [k3_pay3_apply, accG_last, shapeCast_a_1a_apply]

end Cert.KernelIdeal.Val

end
-- ==== Proof.lean ====
import proofs.«104075_j8031588844234_2_alg».proof.Defs
import proofs.«104075_j8031588844234_2_alg».proof.Proof.Gen.Kernel
import proofs.«104075_j8031588844234_2_alg».proof.Proof.Gen.KernelIdeal
import proofs.«104075_j8031588844234_2_alg».proof.Proof.Gen.ReferenceIdeal
import proofs.«104075_j8031588844234_2_alg».proof.Proof.Gen.Pre_finite_inputs
import proofs.«104075_j8031588844234_2_alg».proof.Proof.K.Post
import proofs.«104075_j8031588844234_2_alg».proof.Proof.KI.Post
import proofs.«104075_j8031588844234_2_alg».proof.Proof.KI.Value
import proofs.«104075_j8031588844234_2_alg».proof.Proof.KI.Bridge
import proofs.«104075_j8031588844234_2_alg».proof.Proof.RefRun
import Idealize.ShloMosaic.Adequacy
import Idealize.ShloMosaic.Init

/-
  Two graph-convolution layers and a linear head over 80000 nodes, the kernel against its reference.

  Both programs compute, on the host, the edge lists with self loops, the degrees, the symmetric normalisation, and for
  each layer the aggregation (rows gathered at the sources, scaled, added up at the destinations). They differ in how
  the three dense products are taken. The kernel takes x·W1 and relu(agg1 + b1)·W2 and relu(agg2 + b2) in blocks of
  10000 rows, each row of a block a sum over the contracted axis, and the head (flat·Wout + bout) as a running sum over
  100 chunks of 6400 places started at zero; the reference takes each product whole. On the extended reals a row of a
  blocked product is the same finite sum as the row of the whole product, and a sum taken chunk by chunk from zero is the
  sum over all places (addition is commutative and associative there; nothing has to be finite), so the results agree
  entry by entry. The aggregation between the products is the same function on both sides and is never opened.

  Frames: the kernel's program is run region by region (each region's blocks fetched, its body run, its output block
  written back), the host stretches between them evaluated as folds of the buffer contents; no step writes an argument.
  The reference is a straight line of host operations.
-/

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.RunH.run (F := Ideal) m ρ)

/-- The idealization rewrote nothing. -/
theorem preserves : Cert.preserves_Kernel_KernelIdeal := trivial

/-- From memories that agree on the arguments both idealized programs run to the end, the kernel's result array at the
    composition of its four regions' whole-array functions with the host aggregation between them, the reference's at the
    composition of its whole products with the same aggregation: one function of the arguments, entry by entry. -/
theorem algebraic : Cert.algebraic_KernelIdeal_ReferenceIdeal := by
  intro m ρ m' ρ' _ hagree
  refine ⟨fun c => (Cert.KernelIdeal.Hand.dat3 (Cert.KernelIdeal.Hand.V9 m) c).arrAt 3 Cert.KernelIdeal.cfg3.N,
    Cert.KernelIdeal.Hand.run_result (F := Ideal) m ρ, ?_⟩
  refine (θ_run Cert.ReferenceIdeal.defs _ _).mono (fun _ h c => ⟨(h c).1.trans ?_, (h c).2⟩)
    (Cert.ReferenceIdeal.RunH.run (F := Ideal) m' ρ')
  obtain ⟨e0, e1, e2, e3, e4, e5, e6, e7⟩ := hagree c
  refine Eq.symm ((Cert.KernelIdeal.Hand.result_eq (F := Ideal) m c).trans ?_)
  rw [Cert.KernelIdeal.Val.G0_eq_dot, Cert.KernelIdeal.Val.G1_eq_dot, Cert.KernelIdeal.Val.G2_eq, Cert.KernelIdeal.Val.G3_eq]
  unfold Cert.ReferenceIdeal.RunH.refRes
  rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
